-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v258) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x300000 : Shape := ⟨2, ![2, 300000]⟩
abbrev S50000 : Shape := ⟨1, ![50000]⟩
abbrev S3x256 : Shape := ⟨2, ![3, 256]⟩
abbrev S256 : Shape := ⟨1, ![256]⟩
abbrev S3x256x256 : Shape := ⟨3, ![3, 256, 256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S3x256 : S_.BroadcastsInDim S3x256 (![] : Fin 0 → Fin S3x256.rank)
  reducesTo_S3x256_S_d0_1 : S3x256.ReducesTo [0, 1] S_
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg16 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg13 : FVec F S256 .f32) (main_arg14 : FVec F S256 .f32) (main_arg15 : FVec F S256x128 .f32) (main_arg16 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x128 .f32 := Host.absf main_arg15
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg16 main_v63 main_v67

def fn_part2 {F : FTy → Type} [FloatOps F] (main_arg9 : FVec F S3x256 .f32) (main_arg10 : FVec F S3x256 .f32) (main_arg11 : FVec F S256x256 .f32) (main_arg12 : FVec F S256 .f32) (main_arg13 : FVec F S256 .f32) (main_arg14 : FVec F S256 .f32) (main_arg15 : FVec F S256x128 .f32) (main_arg16 : FVec F S128 .f32) (main_v33 : IVec S_ 1) : IVec S_ 1 :=
  let main_v34 : FVec F S3x256 .f32 := Host.absf main_arg9
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S3x256 .f32 := Host.absf main_arg10
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_v48 main_v49 main_v50

def fn_part1 {F : FTy → Type} [FloatOps F] (main_arg6 : FVec F S256 .f32) (main_arg7 : FVec F S3x256x256 .f32) (main_arg8 : FVec F S3x256 .f32) (main_arg9 : FVec F S3x256 .f32) (main_arg10 : FVec F S3x256 .f32) (main_arg11 : FVec F S256x256 .f32) (main_arg12 : FVec F S256 .f32) (main_arg13 : FVec F S256 .f32) (main_arg14 : FVec F S256 .f32) (main_arg15 : FVec F S256x128 .f32) (main_arg16 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S3x256x256 .f32 := Host.absf main_arg7
  let main_cst_8 : FVec F S_ .f32 := constant S_ .f32 0x7F800000#32
  let main_v25 : FVec F S3x256x256 .f32 := broadcastInDim S3x256x256 ![] bcast_S_S3x256x256 main_cst_8
  let main_v26 : IVec S3x256x256 1 := cmpf .olt main_v24 main_v25
  let main_c_9 : IVec S_ 1 := constantI S_ 1 1#1
  let main_v27 : IVec S_ 1 := (fun x v => Host.reduce IntOp.andi x v reducesTo_S3x256x256_S_d0_1_2 h_S_) main_v26 main_c_9
  let main_v28 : IVec S_ 1 := andi main_v23 main_v27
  let main_v29 : FVec F S3x256 .f32 := Host.absf main_arg8
  let main_cst_10 : FVec F S_ .f32 := constant S_ .f32 0x7F800000#32
  let main_v30 : FVec F S3x256 .f32 := broadcastInDim S3x256 ![] bcast_S_S3x256 main_cst_10
  let main_v31 : IVec S3x256 1 := cmpf .olt main_v29 main_v30
  let main_c_11 : IVec S_ 1 := constantI S_ 1 1#1
  let main_v32 : IVec S_ 1 := (fun x v => Host.reduce IntOp.andi x v reducesTo_S3x256_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x3 .f32) (main_arg1 : IVec S2x300000 32) (main_arg2 : IVec S50000 32) (main_arg3 : FVec F S3x256 .f32) (main_arg4 : FVec F S256 .f32) (main_arg5 : FVec F S256 .f32) (main_arg6 : FVec F S256 .f32) (main_arg7 : FVec F S3x256x256 .f32) (main_arg8 : FVec F S3x256 .f32) (main_arg9 : FVec F S3x256 .f32) (main_arg10 : FVec F S3x256 .f32) (main_arg11 : FVec F S256x256 .f32) (main_arg12 : FVec F S256 .f32) (main_arg13 : FVec F S256 .f32) (main_arg14 : FVec F S256 .f32) (main_arg15 : FVec F S256x128 .f32) (main_arg16 : FVec F S128 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S3x256 .f32 := Host.absf main_arg3
  let main_cst_0 : FVec F S_ .f32 := constant S_ .f32 0x7F800000#32
  let main_v5 : FVec F S3x256 .f32 := broadcastInDim S3x256 ![] bcast_S_S3x256 main_cst_0
  let main_v6 : IVec S3x256 1 := cmpf .olt main_v4 main_v5
  let main_c_1 : IVec S_ 1 := constantI S_ 1 1#1
  let main_v7 : IVec S_ 1 := (fun x v => Host.reduce IntOp.andi x v reducesTo_S3x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x3 : Shape := ⟨2, ![50000, 3]⟩
abbrev S2x300000 : Shape := ⟨2, ![2, 300000]⟩
abbrev S50000 : Shape := ⟨1, ![50000]⟩
abbrev S3x256 : Shape := ⟨2, ![3, 256]⟩
abbrev S256 : Shape := ⟨1, ![256]⟩
abbrev S3x256x256 : Shape := ⟨3, ![3, 256, 256]⟩
abbrev S256x256 : Shape := ⟨2, ![256, 256]⟩
abbrev S256x128 : Shape := ⟨2, ![256, 128]⟩
abbrev S128 : Shape := ⟨1, ![128]⟩
abbrev S1x300000 : Shape := ⟨2, ![1, 300000]⟩
abbrev S300000 : Shape := ⟨1, ![300000]⟩
abbrev S350000 : Shape := ⟨1, ![350000]⟩
abbrev S_ : Shape := ⟨0, ![]⟩
abbrev S350000x1 : Shape := ⟨2, ![350000, 1]⟩
abbrev S1x256 : Shape := ⟨2, ![1, 256]⟩
abbrev S50000x256 : Shape := ⟨2, ![50000, 256]⟩
abbrev S2000x3 : Shape := ⟨2, ![2000, 3]⟩
abbrev S2000x256 : Shape := ⟨2, ![2000, 256]⟩
abbrev S2000 : Shape := ⟨1, ![2000]⟩
abbrev S2000x1 : Shape := ⟨2, ![2000, 1]⟩
abbrev S1x256x256 : Shape := ⟨3, ![1, 256, 256]⟩
abbrev S350000x256 : Shape := ⟨2, ![350000, 256]⟩
abbrev S16x256 : Shape := ⟨2, ![16, 256]⟩
abbrev S50000x1 : Shape := ⟨2, ![50000, 1]⟩
abbrev S16 : Shape := ⟨1, ![16]⟩
abbrev S16x1 : Shape := ⟨2, ![16, 1]⟩
abbrev S16x128 : Shape := ⟨2, ![16, 128]⟩
abbrev S1x128 : Shape := ⟨2, ![1, 128]⟩

abbrev nBuf : Space → Nat
  | .hbm => 207
  | .vmem => 50
  | .smem => 0
  | _ => 0

abbrev hbmTy0_0 (i : Nat) : BufTy := match i % 128 with
  | 0 => ⟨S50000x3, .f32⟩
  | 1 => ⟨S2x300000, .i32⟩
  | 2 => ⟨S50000, .i32⟩
  | 3 => ⟨S3x256, .f32⟩
  | 4 => ⟨S256, .f32⟩
  | 5 => ⟨S256, .f32⟩
  | 6 => ⟨S256, .f32⟩
  | 7 => ⟨S3x256x256, .f32⟩
  | 8 => ⟨S3x256, .f32⟩
  | 9 => ⟨S3x256, .f32⟩
  | 10 => ⟨S3x256, .f32⟩
  | 11 => ⟨S256x256, .f32⟩
  | 12 => ⟨S256, .f32⟩
  | 13 => ⟨S256, .f32⟩
  | 14 => ⟨S256, .f32⟩
  | 15 => ⟨S256x128, .f32⟩
  | 16 => ⟨S128, .f32⟩
  | 17 => ⟨S50000, .i32⟩
  | 18 => ⟨S1x300000, .i32⟩
  | 19 => ⟨S300000, .i32⟩
  | 20 => ⟨S350000, .i32⟩
  | 21 => ⟨S1x300000, .i32⟩
  | 22 => ⟨S300000, .i32⟩
  | 23 => ⟨S350000, .i32⟩
  | 24 => ⟨S_, .f32⟩
  | 25 => ⟨S350000, .f32⟩
  | 26 => ⟨S_, .f32⟩
  | 27 => ⟨S50000, .f32⟩
  | 28 => ⟨S350000x1, .i32⟩
  | 29 => ⟨S50000, .f32⟩
  | 30 => ⟨S_, .f32⟩
  | 31 => ⟨S50000, .f32⟩
  | 32 => ⟨S50000, .i1⟩
  | 33 => ⟨S_, .f32⟩
  | 34 => ⟨S50000, .f32⟩
  | 35 => ⟨S50000, .f32⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S350000, .i32⟩
  | 43 => ⟨S350000, .i1⟩
  | 44 => ⟨S_, .i32⟩
  | 45 => ⟨S350000, .i32⟩
  | 46 => ⟨S350000, .i32⟩
  | 47 => ⟨S350000, .i32⟩
  | 48 => ⟨S350000x1, .i32⟩
  | 49 => ⟨S350000, .f32⟩
  | 50 => ⟨S_, .i32⟩
  | 51 => ⟨S350000, .i32⟩
  | 52 => ⟨S350000, .i1⟩
  | 53 => ⟨S_, .i32⟩
  | 54 => ⟨S350000, .i32⟩
  | 55 => ⟨S350000, .i32⟩
  | 56 => ⟨S350000, .i32⟩
  | 57 => ⟨S350000x1, .i32⟩
  | 58 => ⟨S350000, .f32⟩
  | 59 => ⟨S350000, .f32⟩
  | 60 => ⟨S1x256, .f32⟩
  | 61 => ⟨S1x256, .f32⟩
  | 62 => ⟨S1x256, .f32⟩
  | 63 => ⟨S50000x256, .f32⟩
  | 64 => ⟨S1x256x256, .f32⟩
  | 65 => ⟨S256x256, .f32⟩
  | 66 => ⟨S50000x256, .f32⟩
  | 67 => ⟨S_, .i32⟩
  | 68 => ⟨S350000, .i32⟩
  | 69 => ⟨S350000, .i1⟩
  | 70 => ⟨S_, .i32⟩
  | 71 => ⟨S350000, .i32⟩
  | 72 => ⟨S350000, .i32⟩
  | 73 => ⟨S350000, .i32⟩
  | 74 => ⟨S350000x1, .i32⟩
  | 75 => ⟨S350000x256, .f32⟩
  | 76 => ⟨S350000x1, .f32⟩
  | 77 => ⟨S350000x256, .f32⟩
  | 78 => ⟨S350000x256, .f32⟩
  | 79 => ⟨S_, .f32⟩
  | 80 => ⟨S50000x256, .f32⟩
  | 81 => ⟨S350000x1, .i32⟩
  | 82 => ⟨S50000x256, .f32⟩
  | 83 => ⟨S1x256, .f32⟩
  | 84 => ⟨S256, .f32⟩
  | 85 => ⟨S1x256, .f32⟩
  | 86 => ⟨S256, .f32⟩
  | 87 => ⟨S1x256, .f32⟩
  | 88 => ⟨S256, .f32⟩
  | 89 => ⟨S1x256, .f32⟩
  | 90 => ⟨S1x256, .f32⟩
  | 91 => ⟨S1x256, .f32⟩
  | 92 => ⟨S50000x256, .f32⟩
  | 93 => ⟨S1x256x256, .f32⟩
  | 94 => ⟨S256x256, .f32⟩
  | 95 => ⟨S50000x256, .f32⟩
  | 96 => ⟨S_, .i32⟩
  | 97 => ⟨S350000, .i32⟩
  | 98 => ⟨S350000, .i1⟩
  | 99 => ⟨S_, .i32⟩
  | 100 => ⟨S350000, .i32⟩
  | 101 => ⟨S350000, .i32⟩
  | 102 => ⟨S350000, .i32⟩
  | 103 => ⟨S350000x1, .i32⟩
  | 104 => ⟨S350000x256, .f32⟩
  | 105 => ⟨S350000x1, .f32⟩
  | 106 => ⟨S350000x256, .f32⟩
  | 107 => ⟨S350000x256, .f32⟩
  | 108 => ⟨S_, .f32⟩
  | 109 => ⟨S50000x256, .f32⟩
  | 110 => ⟨S350000x1, .i32⟩
  | 111 => ⟨S50000x256, .f32⟩
  | 112 => ⟨S1x256, .f32⟩
  | 113 => ⟨S256, .f32⟩
  | 114 => ⟨S1x256, .f32⟩
  | 115 => ⟨S256, .f32⟩
  | 116 => ⟨S1x256, .f32⟩
  | 117 => ⟨S256, .f32⟩
  | 118 => ⟨S1x256, .f32⟩
  | 119 => ⟨S1x256, .f32⟩
  | 120 => ⟨S1x256, .f32⟩
  | 121 => ⟨S50000x256, .f32⟩
  | 122 => ⟨S1x256x256, .f32⟩
  | 123 => ⟨S256x256, .f32⟩
  | 124 => ⟨S50000x256, .f32⟩
  | 125 => ⟨S_, .i32⟩
  | 126 => ⟨S350000, .i32⟩
  | 127 => ⟨S350000, .i1⟩
  | _ => ⟨S50000x3, .f32⟩

abbrev hbmTy0_1 (i : Nat) : BufTy := match i % 128 with
  | 0 => ⟨S_, .i32⟩
  | 1 => ⟨S350000, .i32⟩
  | 2 => ⟨S350000, .i32⟩
  | 3 => ⟨S350000, .i32⟩
  | 4 => ⟨S350000x1, .i32⟩
  | 5 => ⟨S350000x256, .f32⟩
  | 6 => ⟨S350000x1, .f32⟩
  | 7 => ⟨S350000x256, .f32⟩
  | 8 => ⟨S350000x256, .f32⟩
  | 9 => ⟨S_, .f32⟩
  | 10 => ⟨S50000x256, .f32⟩
  | 11 => ⟨S350000x1, .i32⟩
  | 12 => ⟨S50000x256, .f32⟩
  | 13 => ⟨S1x256, .f32⟩
  | 14 => ⟨S256, .f32⟩
  | 15 => ⟨S1x256, .f32⟩
  | 16 => ⟨S256, .f32⟩
  | 17 => ⟨S1x256, .f32⟩
  | 18 => ⟨S256, .f32⟩
  | 19 => ⟨S1x256, .f32⟩
  | 20 => ⟨S1x256, .f32⟩
  | 21 => ⟨S1x256, .f32⟩
  | 22 => ⟨S50000x256, .f32⟩
  | 23 => ⟨S_, .f32⟩
  | 24 => ⟨S16x256, .f32⟩
  | 25 => ⟨S50000x1, .i32⟩
  | 26 => ⟨S16x256, .f32⟩
  | 27 => ⟨S_, .f32⟩
  | 28 => ⟨S50000, .f32⟩
  | 29 => ⟨S_, .f32⟩
  | 30 => ⟨S16, .f32⟩
  | 31 => ⟨S50000x1, .i32⟩
  | 32 => ⟨S16, .f32⟩
  | 33 => ⟨S_, .f32⟩
  | 34 => ⟨S16, .f32⟩
  | 35 => ⟨S16, .f32⟩
  | 36 => ⟨S16x1, .f32⟩
  | 37 => ⟨S16x256, .f32⟩
  | 38 => ⟨S16x256, .f32⟩
  | 39 => ⟨S16x256, .f32⟩
  | 40 => ⟨S1x256, .f32⟩
  | 41 => ⟨S16x256, .f32⟩
  | 42 => ⟨S16x256, .f32⟩
  | 43 => ⟨S_, .f32⟩
  | 44 => ⟨S16x256, .f32⟩
  | 45 => ⟨S16x256, .f32⟩
  | 46 => ⟨S_, .f32⟩
  | 47 => ⟨S16, .f32⟩
  | 48 => ⟨S16x1, .f32⟩
  | 49 => ⟨S_, .f32⟩
  | 50 => ⟨S16x1, .f32⟩
  | 51 => ⟨S16x1, .f32⟩
  | 52 => ⟨S16x256, .f32⟩
  | 53 => ⟨S16x256, .f32⟩
  | 54 => ⟨S16x256, .f32⟩
  | 55 => ⟨S_, .f32⟩
  | 56 => ⟨S16, .f32⟩
  | 57 => ⟨S16x1, .f32⟩
  | 58 => ⟨S_, .f32⟩
  | 59 => ⟨S16x1, .f32⟩
  | 60 => ⟨S16x1, .f32⟩
  | 61 => ⟨S16x256, .f32⟩
  | 62 => ⟨S16x256, .f32⟩
  | 63 => ⟨S_, .f32⟩
  | 64 => ⟨S16x1, .f32⟩
  | 65 => ⟨S16x1, .f32⟩
  | 66 => ⟨S16x1, .f32⟩
  | 67 => ⟨S16x256, .f32⟩
  | 68 => ⟨S16x256, .f32⟩
  | 69 => ⟨S1x256, .f32⟩
  | 70 => ⟨S16x256, .f32⟩
  | 71 => ⟨S16x256, .f32⟩
  | 72 => ⟨S1x256, .f32⟩
  | 73 => ⟨S16x256, .f32⟩
  | 74 => ⟨S16x256, .f32⟩
  | 75 => ⟨S16x128, .f32⟩
  | 76 => ⟨S1x128, .f32⟩
  | 77 => ⟨S16x128, .f32⟩
  | 78 => ⟨S16x128, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | .local _ .vmem, ⟨0, _⟩ => ⟨S2000x3, .f32⟩
  | .local _ .vmem, ⟨1, _⟩ => ⟨S2000x3, .f32⟩
  | .local _ .vmem, ⟨2, _⟩ => ⟨S3x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S256x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S256x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S1x256, .f32⟩
  | .local _ .vmem, ⟨44, _⟩ => ⟨S1x256, .f32⟩
  | .local _ .vmem, ⟨45, _⟩ => ⟨S1x256, .f32⟩
  | .local _ .vmem, ⟨46, _⟩ => ⟨S2000x256, .f32⟩
  | .local _ .vmem, ⟨47, _⟩ => ⟨S2000x256, .f32⟩
  | .local _ .vmem, ⟨48, _⟩ => ⟨S2000x256, .f32⟩
  | .local _ .vmem, ⟨49, _⟩ => ⟨S2000x256, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v16 : Ref sig .tc := ⟨.hbm, 40, rfl⟩
abbrev main_c : Ref sig .tc := ⟨.hbm, 41, rfl⟩
abbrev main_v17 : Ref sig .tc := ⟨.hbm, 42, rfl⟩
abbrev main_v18 : Ref sig .tc := ⟨.hbm, 43, rfl⟩
abbrev main_c_4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_c_6 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_7 : Ref sig .tc := ⟨.hbm, 67, rfl⟩
abbrev main_v39 : Ref sig .tc := ⟨.hbm, 68, rfl⟩
abbrev main_v40 : Ref sig .tc := ⟨.hbm, 69, rfl⟩
abbrev main_c_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_10 : Ref sig .tc := ⟨.hbm, 96, rfl⟩
abbrev main_v65 : Ref sig .tc := ⟨.hbm, 97, rfl⟩
abbrev main_v66 : Ref sig .tc := ⟨.hbm, 98, rfl⟩
abbrev main_c_11 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_12 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_c_13 : Ref sig .tc := ⟨.hbm, 125, rfl⟩
abbrev main_v91 : Ref sig .tc := ⟨.hbm, 126, rfl⟩
abbrev main_v92 : Ref sig .tc := ⟨.hbm, 127, rfl⟩
abbrev main_c_14 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_15 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_16 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_17 : Ref sig .tc := ⟨.hbm, 155, rfl⟩
abbrev main_v117 : Ref sig .tc := ⟨.hbm, 156, rfl⟩
abbrev main_cst_18 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_19 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_call1_cst : Ref sig .tc := ⟨.hbm, 171, rfl⟩
abbrev main_call1_v0 : Ref sig .tc := ⟨.hbm, 172, rfl⟩
abbrev main_v130 : Ref sig .tc := ⟨.hbm, 173, rfl⟩
abbrev main_cst_20 : Ref sig .tc := ⟨.hbm, 174, rfl⟩
abbrev main_v131 : Ref sig .tc := ⟨.hbm, 175, rfl⟩
abbrev main_v132 : Ref sig .tc := ⟨.hbm, 176, rfl⟩
abbrev main_cst_21 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_22 : Ref sig .tc := ⟨.hbm, 183, rfl⟩
abbrev main_v138 : Ref sig .tc := ⟨.hbm, 184, rfl⟩
abbrev main_v139 : Ref sig .tc := ⟨.hbm, 185, rfl⟩
abbrev main_cst_23 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_cst_24 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg4_1 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg2_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg4_1 : Ref sig .tc := ⟨.vmem, 47, rfl⟩
abbrev cc6_stg5_0 : Ref sig .tc := ⟨.vmem, 48, rfl⟩
abbrev cc6_stg5_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem4_1 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40
abbrev cc6_sem0_0 : DmaSem sig := 41
abbrev cc6_sem0_1 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem4_1 : DmaSem sig := 47
abbrev cc6_sem5_0 : DmaSem sig := 48
abbrev cc6_sem5_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S2000x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x300000_S1x300000_0_0 : S2x300000.Slices ![0, 0] S1x300000
  shapeCasts_S1x300000_S300000 : S1x300000.ShapeCasts S300000
  concatenates_S300000_S50000_S350000_d0 : Shape.Concatenates [S300000, S50000] S350000 0
  slices_S2x300000_S1x300000_1_0 : S2x300000.Slices ![1, 0] S1x300000
  bcast_S_S350000 : S_.BroadcastsInDim S350000 (![] : Fin 0 → Fin S350000.rank)
  bcast_S_S50000 : S_.BroadcastsInDim S50000 (![] : Fin 0 → Fin S50000.rank)
  bcast_S350000_S350000x1_0 : S350000.BroadcastsInDim S350000x1 (![0] : Fin 1 → Fin S350000x1.rank)
  shapeCasts_S256_S1x256 : S256.ShapeCasts S1x256
  inb_S2000x3_S2000x3_0_0 : ∀ a, (![0, 0] : Fin 2 → Nat) a + S2000x3.size a ≤ S2000x3.size a
  h_S2000x3 : 0 < S2000x3.numel
  bitsLt_bf16_f32 : FTy.bits .bf16 < FTy.bits .f32
  inb_S3x256_S3x256_0_0 : ∀ a, (![0, 0] : Fin 2 → Nat) a + S3x256.size a ≤ S3x256.size a
  h_S3x256 : 0 < S3x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  slices_S3x256x256_S1x256x256_0_0_0 : S3x256x256.Slices ![0, 0, 0] S1x256x256
  shapeCasts_S1x256x256_S256x256 : S1x256x256.ShapeCasts S256x256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S350000x1_S350000x256_0_1 : S350000x1.BroadcastsInDim S350000x256 (![0, 1] : Fin 2 → Fin S350000x256.rank)
  bcast_S_S50000x256 : S_.BroadcastsInDim S50000x256 (![] : Fin 0 → Fin S50000x256.rank)
  slices_S3x256_S1x256_0_0 : S3x256.Slices ![0, 0] S1x256
  shapeCasts_S1x256_S256 : S1x256.ShapeCasts S256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S16x256 : S_.BroadcastsInDim S16x256 (![] : Fin 0 → Fin S16x256.rank)
  bcast_S50000_S50000x1_0 : S50000.BroadcastsInDim S50000x1 (![0] : Fin 1 → Fin S50000x1.rank)
  bcast_S_S16 : S_.BroadcastsInDim S16 (![] : Fin 0 → Fin S16.rank)
  bcast_S16_S16x1_0 : S16.BroadcastsInDim S16x1 (![0] : Fin 1 → Fin S16x1.rank)
  bcast_S16x1_S16x256_0_1 : S16x1.BroadcastsInDim S16x256 (![0, 1] : Fin 2 → Fin S16x256.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  reducesTo_S16x256_S16_d1 : S16x256.ReducesTo [1] S16
  h_S_ : 0 < S_.numel
  bcast_S_S16x1 : S_.BroadcastsInDim S16x1 (![] : Fin 0 → Fin S16x1.rank)
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  scatter_S50000_S350000x1_S350000_n_0_0_1_wf : ScatterDims.WF S50000 S350000x1 S350000 [] [0] [0] 1
  gather_S50000_S350000x1_S350000_n_0_n_n_0_1_1_wf : GatherDims.WF S50000 S350000x1 S350000 [] [0] [] [0] [] 1 ![1]
  dot_S2000x3_S3x256_S2000x256_1_0_0_1_n_n_wf : DotDims.WF S2000x3 S3x256 S2000x256 [1] [0] [0] [1] [] []
  dot_S2000x256_S256x256_S2000x256_1_0_0_1_n_n_wf : DotDims.WF S2000x256 S256x256 S2000x256 [1] [0] [0] [1] [] []
  gather_S50000x256_S350000x1_S350000x256_1_0_n_n_0_1_1256_wf : GatherDims.WF S50000x256 S350000x1 S350000x256 [1] [0] [] [0] [] 1 ![1, 256]
  scatter_S50000x256_S350000x1_S350000x256_1_0_0_1_wf : ScatterDims.WF S50000x256 S350000x1 S350000x256 [1] [0] [0] 1
  scatter_S16x256_S50000x1_S50000x256_1_0_0_1_wf : ScatterDims.WF S16x256 S50000x1 S50000x256 [1] [0] [0] 1
  scatter_S16_S50000x1_S50000_n_0_0_1_wf : ScatterDims.WF S16 S50000x1 S50000 [] [0] [0] 1
  dot_S16x256_S256x256_S16x256_1_0_0_1_n_n_wf : DotDims.WF S16x256 S256x256 S16x256 [1] [0] [0] [1] [] []
  dot_S16x256_S256x128_S16x128_1_0_0_1_n_n_wf : DotDims.WF S16x256 S256x128 S16x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S50000x3.size a
  hwx0_0 : ∀ i : grid0.Coords, EltTy.bits .f32 = 32 ∨ (Rect.block (s := S50000x3) S2000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x256.size a ≤ S3x256.size a
  hwx0_1 : ∀ i : grid0.Coords, EltTy.bits .f32 = 32 ∨ (Rect.block (s := S3x256) S3x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .f32 = 32 ∨ (Rect.block (s := S50000x256) S2000x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x256.size a ≤ S50000x256.size a
  hwx4_4 : ∀ i : grid4.Coords, EltTy.bits .f32 = 32 ∨ (Rect.block (s := S50000x256) S2000x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S50000x256.size a
  hwx4_5 : ∀ i : grid4.Coords, EltTy.bits .f32 = 32 ∨ (Rect.block (s := S50000x256) S2000x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x256.size a ≤ S50000x256.size a
  hwx5_2 : ∀ i : grid5.Coords, EltTy.bits .f32 = 32 ∨ (Rect.block (s := S50000x256) S2000x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x256.size a ≤ S1x256.size a
  hwx6_1 : ∀ i : grid6.Coords, EltTy.bits .f32 = 32 ∨ (Rect.block (s := S1x256) S1x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x256.size a ≤ S50000x256.size a
  hwx6_4 : ∀ i : grid6.Coords, EltTy.bits .f32 = 32 ∨ (Rect.block (s := S50000x256) S2000x256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x256.size a ≤ S50000x256.size a
  hwx6_5 : ∀ i : grid6.Coords, EltTy.bits .f32 = 32 ∨ (Rect.block (s := S50000x256) S2000x256.size (cc6_transform_5 i) (hinb6_5 i)).WholeWords (EltTy.packing .f32)

variable [Facts₀]

def scatter_S50000_S350000x1_S350000_n_0_0_1 : ScatterDims S50000 S350000x1 S350000 where
  updateWindowDims := []
  insertedWindowDims := [0]
  scatterDimsToOperandDims := [0]
  indexVectorDim := 1
  wf := scatter_S50000_S350000x1_S350000_n_0_0_1_wf
def gather_S50000_S350000x1_S350000_n_0_n_n_0_1_1 : GatherDims S50000 S350000x1 S350000 where
  offsetDims := []
  collapsedSliceDims := [0]
  operandBatchingDims := []
  startIndicesBatchingDims := []
  startIndexMap := [0]
  indexVectorDim := 1
  sliceSizes := ![1]
  wf := gather_S50000_S350000x1_S350000_n_0_n_n_0_1_1_wf
def dot_S2000x3_S3x256_S2000x256_1_0_0_1_n_n : DotDims S2000x3 S3x256 S2000x256 where
  lhsContracting := [1]
  rhsContracting := [0]
  lhsNonContracting := [0]
  rhsNonContracting := [1]
  lhsBatch := []
  rhsBatch := []
  wf := dot_S2000x3_S3x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S350000x1_S350000x256_1_0_n_n_0_1_1256 : GatherDims S50000x256 S350000x1 S350000x256 where
  offsetDims := [1]
  collapsedSliceDims := [0]
  operandBatchingDims := []
  startIndicesBatchingDims := []
  startIndexMap := [0]
  indexVectorDim := 1
  sliceSizes := ![1, 256]
  wf := gather_S50000x256_S350000x1_S350000x256_1_0_n_n_0_1_1256_wf
def scatter_S50000x256_S350000x1_S350000x256_1_0_0_1 : ScatterDims S50000x256 S350000x1 S350000x256 where
  updateWindowDims := [1]
  insertedWindowDims := [0]
  scatterDimsToOperandDims := [0]
  indexVectorDim := 1
  wf := scatter_S50000x256_S350000x1_S350000x256_1_0_0_1_wf
def scatter_S16x256_S50000x1_S50000x256_1_0_0_1 : ScatterDims S16x256 S50000x1 S50000x256 where
  updateWindowDims := [1]
  insertedWindowDims := [0]
  scatterDimsToOperandDims := [0]
  indexVectorDim := 1
  wf := scatter_S16x256_S50000x1_S50000x256_1_0_0_1_wf
def scatter_S16_S50000x1_S50000_n_0_0_1 : ScatterDims S16 S50000x1 S50000 where
  updateWindowDims := []
  insertedWindowDims := [0]
  scatterDimsToOperandDims := [0]
  indexVectorDim := 1
  wf := scatter_S16_S50000x1_S50000_n_0_0_1_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf

abbrev win0_0 : Pipeline.Window sig grid0 :=
  Pipeline.Window.ofSpec (Memref.whole main_arg0) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S2000x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v61) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v61) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v77) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v84) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v85) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v86) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v61) S2000x256.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v87) S2000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v87) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v90) S2000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v103) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v110) S1x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v111) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v112) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v87) S2000x256.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v113) S2000x256.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x3 : Shape := ⟨2, ![50000, 3]⟩
abbrev S2x300000 : Shape := ⟨2, ![2, 300000]⟩
abbrev S50000 : Shape := ⟨1, ![50000]⟩
abbrev S3x256 : Shape := ⟨2, ![3, 256]⟩
abbrev S256 : Shape := ⟨1, ![256]⟩
abbrev S3x256x256 : Shape := ⟨3, ![3, 256, 256]⟩
abbrev S256x256 : Shape := ⟨2, ![256, 256]⟩
abbrev S256x128 : Shape := ⟨2, ![256, 128]⟩
abbrev S128 : Shape := ⟨1, ![128]⟩
abbrev S1x300000 : Shape := ⟨2, ![1, 300000]⟩
abbrev S300000 : Shape := ⟨1, ![300000]⟩
abbrev S350000 : Shape := ⟨1, ![350000]⟩
abbrev S_ : Shape := ⟨0, ![]⟩
abbrev S350000x1 : Shape := ⟨2, ![350000, 1]⟩
abbrev S50000x256 : Shape := ⟨2, ![50000, 256]⟩
abbrev S1x256 : Shape := ⟨2, ![1, 256]⟩
abbrev S50000x1 : Shape := ⟨2, ![50000, 1]⟩
abbrev S1x256x256 : Shape := ⟨3, ![1, 256, 256]⟩
abbrev S350000x256 : Shape := ⟨2, ![350000, 256]⟩
abbrev S16x256 : Shape := ⟨2, ![16, 256]⟩
abbrev S16 : Shape := ⟨1, ![16]⟩
abbrev S16x1 : Shape := ⟨2, ![16, 1]⟩
abbrev S16x128 : Shape := ⟨2, ![16, 128]⟩
abbrev S1x128 : Shape := ⟨2, ![1, 128]⟩

abbrev nBuf : Space → Nat
  | .hbm => 335
  | .vmem => 0
  | .smem => 0
  | _ => 0

abbrev hbmTy0_0 (i : Nat) : BufTy := match i % 128 with
  | 0 => ⟨S50000x3, .f32⟩
  | 1 => ⟨S2x300000, .i32⟩
  | 2 => ⟨S50000, .i32⟩
  | 3 => ⟨S3x256, .f32⟩
  | 4 => ⟨S256, .f32⟩
  | 5 => ⟨S256, .f32⟩
  | 6 => ⟨S256, .f32⟩
  | 7 => ⟨S3x256x256, .f32⟩
  | 8 => ⟨S3x256, .f32⟩
  | 9 => ⟨S3x256, .f32⟩
  | 10 => ⟨S3x256, .f32⟩
  | 11 => ⟨S256x256, .f32⟩
  | 12 => ⟨S256, .f32⟩
  | 13 => ⟨S256, .f32⟩
  | 14 => ⟨S256, .f32⟩
  | 15 => ⟨S256x128, .f32⟩
  | 16 => ⟨S128, .f32⟩
  | 17 => ⟨S50000, .i32⟩
  | 18 => ⟨S1x300000, .i32⟩
  | 19 => ⟨S300000, .i32⟩
  | 20 => ⟨S350000, .i32⟩
  | 21 => ⟨S1x300000, .i32⟩
  | 22 => ⟨S300000, .i32⟩
  | 23 => ⟨S350000, .i32⟩
  | 24 => ⟨S_, .f32⟩
  | 25 => ⟨S350000, .f32⟩
  | 26 => ⟨S_, .f32⟩
  | 27 => ⟨S50000, .f32⟩
  | 28 => ⟨S350000x1, .i32⟩
  | 29 => ⟨S50000, .f32⟩
  | 30 => ⟨S_, .f32⟩
  | 31 => ⟨S50000, .f32⟩
  | 32 => ⟨S50000, .i1⟩
  | 33 => ⟨S_, .f32⟩
  | 34 => ⟨S50000, .f32⟩
  | 35 => ⟨S50000, .f32⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S350000, .i32⟩
  | 43 => ⟨S350000, .i1⟩
  | 44 => ⟨S_, .i32⟩
  | 45 => ⟨S350000, .i32⟩
  | 46 => ⟨S350000, .i32⟩
  | 47 => ⟨S350000, .i32⟩
  | 48 => ⟨S350000x1, .i32⟩
  | 49 => ⟨S350000, .f32⟩
  | 50 => ⟨S_, .i32⟩
  | 51 => ⟨S350000, .i32⟩
  | 52 => ⟨S350000, .i1⟩
  | 53 => ⟨S_, .i32⟩
  | 54 => ⟨S350000, .i32⟩
  | 55 => ⟨S350000, .i32⟩
  | 56 => ⟨S350000, .i32⟩
  | 57 => ⟨S350000x1, .i32⟩
  | 58 => ⟨S350000, .f32⟩
  | 59 => ⟨S350000, .f32⟩
  | 60 => ⟨S50000x256, .f32⟩
  | 61 => ⟨S1x256, .f32⟩
  | 62 => ⟨S50000x256, .f32⟩
  | 63 => ⟨S50000x256, .f32⟩
  | 64 => ⟨S_, .f32⟩
  | 65 => ⟨S50000x256, .f32⟩
  | 66 => ⟨S50000x256, .f32⟩
  | 67 => ⟨S_, .f32⟩
  | 68 => ⟨S50000, .f32⟩
  | 69 => ⟨S50000x1, .f32⟩
  | 70 => ⟨S_, .f32⟩
  | 71 => ⟨S50000x1, .f32⟩
  | 72 => ⟨S50000x1, .f32⟩
  | 73 => ⟨S50000x256, .f32⟩
  | 74 => ⟨S50000x256, .f32⟩
  | 75 => ⟨S50000x256, .f32⟩
  | 76 => ⟨S_, .f32⟩
  | 77 => ⟨S50000, .f32⟩
  | 78 => ⟨S50000x1, .f32⟩
  | 79 => ⟨S_, .f32⟩
  | 80 => ⟨S50000x1, .f32⟩
  | 81 => ⟨S50000x1, .f32⟩
  | 82 => ⟨S50000x256, .f32⟩
  | 83 => ⟨S50000x256, .f32⟩
  | 84 => ⟨S_, .f32⟩
  | 85 => ⟨S50000x1, .f32⟩
  | 86 => ⟨S50000x1, .f32⟩
  | 87 => ⟨S50000x1, .f32⟩
  | 88 => ⟨S50000x256, .f32⟩
  | 89 => ⟨S50000x256, .f32⟩
  | 90 => ⟨S1x256, .f32⟩
  | 91 => ⟨S50000x256, .f32⟩
  | 92 => ⟨S50000x256, .f32⟩
  | 93 => ⟨S1x256, .f32⟩
  | 94 => ⟨S50000x256, .f32⟩
  | 95 => ⟨S50000x256, .f32⟩
  | 96 => ⟨S1x256x256, .f32⟩
  | 97 => ⟨S256x256, .f32⟩
  | 98 => ⟨S50000x256, .f32⟩
  | 99 => ⟨S_, .i32⟩
  | 100 => ⟨S350000, .i32⟩
  | 101 => ⟨S350000, .i1⟩
  | 102 => ⟨S_, .i32⟩
  | 103 => ⟨S350000, .i32⟩
  | 104 => ⟨S350000, .i32⟩
  | 105 => ⟨S350000, .i32⟩
  | 106 => ⟨S350000x1, .i32⟩
  | 107 => ⟨S350000x256, .f32⟩
  | 108 => ⟨S350000x1, .f32⟩
  | 109 => ⟨S350000x256, .f32⟩
  | 110 => ⟨S350000x256, .f32⟩
  | 111 => ⟨S_, .f32⟩
  | 112 => ⟨S50000x256, .f32⟩
  | 113 => ⟨S350000x1, .i32⟩
  | 114 => ⟨S50000x256, .f32⟩
  | 115 => ⟨S1x256, .f32⟩
  | 116 => ⟨S256, .f32⟩
  | 117 => ⟨S1x256, .f32⟩
  | 118 => ⟨S50000x256, .f32⟩
  | 119 => ⟨S50000x256, .f32⟩
  | 120 => ⟨S1x256, .f32⟩
  | 121 => ⟨S256, .f32⟩
  | 122 => ⟨S1x256, .f32⟩
  | 123 => ⟨S256, .f32⟩
  | 124 => ⟨S_, .f32⟩
  | 125 => ⟨S50000, .f32⟩
  | 126 => ⟨S50000x1, .f32⟩
  | 127 => ⟨S_, .f32⟩
  | _ => ⟨S50000x3, .f32⟩

abbrev hbmTy0_1 (i : Nat) : BufTy := match i % 128 with
  | 0 => ⟨S50000x1, .f32⟩
  | 1 => ⟨S50000x1, .f32⟩
  | 2 => ⟨S50000x256, .f32⟩
  | 3 => ⟨S50000x256, .f32⟩
  | 4 => ⟨S50000x256, .f32⟩
  | 5 => ⟨S_, .f32⟩
  | 6 => ⟨S50000, .f32⟩
  | 7 => ⟨S50000x1, .f32⟩
  | 8 => ⟨S_, .f32⟩
  | 9 => ⟨S50000x1, .f32⟩
  | 10 => ⟨S50000x1, .f32⟩
  | 11 => ⟨S50000x256, .f32⟩
  | 12 => ⟨S50000x256, .f32⟩
  | 13 => ⟨S_, .f32⟩
  | 14 => ⟨S50000x1, .f32⟩
  | 15 => ⟨S50000x1, .f32⟩
  | 16 => ⟨S50000x1, .f32⟩
  | 17 => ⟨S50000x256, .f32⟩
  | 18 => ⟨S50000x256, .f32⟩
  | 19 => ⟨S1x256, .f32⟩
  | 20 => ⟨S50000x256, .f32⟩
  | 21 => ⟨S50000x256, .f32⟩
  | 22 => ⟨S1x256, .f32⟩
  | 23 => ⟨S50000x256, .f32⟩
  | 24 => ⟨S50000x256, .f32⟩
  | 25 => ⟨S_, .f32⟩
  | 26 => ⟨S50000x256, .f32⟩
  | 27 => ⟨S50000x256, .f32⟩
  | 28 => ⟨S50000x256, .f32⟩
  | 29 => ⟨S1x256x256, .f32⟩
  | 30 => ⟨S256x256, .f32⟩
  | 31 => ⟨S50000x256, .f32⟩
  | 32 => ⟨S_, .i32⟩
  | 33 => ⟨S350000, .i32⟩
  | 34 => ⟨S350000, .i1⟩
  | 35 => ⟨S_, .i32⟩
  | 36 => ⟨S350000, .i32⟩
  | 37 => ⟨S350000, .i32⟩
  | 38 => ⟨S350000, .i32⟩
  | 39 => ⟨S350000x1, .i32⟩
  | 40 => ⟨S350000x256, .f32⟩
  | 41 => ⟨S350000x1, .f32⟩
  | 42 => ⟨S350000x256, .f32⟩
  | 43 => ⟨S350000x256, .f32⟩
  | 44 => ⟨S_, .f32⟩
  | 45 => ⟨S50000x256, .f32⟩
  | 46 => ⟨S350000x1, .i32⟩
  | 47 => ⟨S50000x256, .f32⟩
  | 48 => ⟨S1x256, .f32⟩
  | 49 => ⟨S256, .f32⟩
  | 50 => ⟨S1x256, .f32⟩
  | 51 => ⟨S50000x256, .f32⟩
  | 52 => ⟨S50000x256, .f32⟩
  | 53 => ⟨S1x256, .f32⟩
  | 54 => ⟨S256, .f32⟩
  | 55 => ⟨S1x256, .f32⟩
  | 56 => ⟨S256, .f32⟩
  | 57 => ⟨S_, .f32⟩
  | 58 => ⟨S50000, .f32⟩
  | 59 => ⟨S50000x1, .f32⟩
  | 60 => ⟨S_, .f32⟩
  | 61 => ⟨S50000x1, .f32⟩
  | 62 => ⟨S50000x1, .f32⟩
  | 63 => ⟨S50000x256, .f32⟩
  | 64 => ⟨S50000x256, .f32⟩
  | 65 => ⟨S50000x256, .f32⟩
  | 66 => ⟨S_, .f32⟩
  | 67 => ⟨S50000, .f32⟩
  | 68 => ⟨S50000x1, .f32⟩
  | 69 => ⟨S_, .f32⟩
  | 70 => ⟨S50000x1, .f32⟩
  | 71 => ⟨S50000x1, .f32⟩
  | 72 => ⟨S50000x256, .f32⟩
  | 73 => ⟨S50000x256, .f32⟩
  | 74 => ⟨S_, .f32⟩
  | 75 => ⟨S50000x1, .f32⟩
  | 76 => ⟨S50000x1, .f32⟩
  | 77 => ⟨S50000x1, .f32⟩
  | 78 => ⟨S50000x256, .f32⟩
  | 79 => ⟨S50000x256, .f32⟩
  | 80 => ⟨S1x256, .f32⟩
  | 81 => ⟨S50000x256, .f32⟩
  | 82 => ⟨S50000x256, .f32⟩
  | 83 => ⟨S1x256, .f32⟩
  | 84 => ⟨S50000x256, .f32⟩
  | 85 => ⟨S50000x256, .f32⟩
  | 86 => ⟨S_, .f32⟩
  | 87 => ⟨S50000x256, .f32⟩
  | 88 => ⟨S50000x256, .f32⟩
  | 89 => ⟨S50000x256, .f32⟩
  | 90 => ⟨S1x256x256, .f32⟩
  | 91 => ⟨S256x256, .f32⟩
  | 92 => ⟨S50000x256, .f32⟩
  | 93 => ⟨S_, .i32⟩
  | 94 => ⟨S350000, .i32⟩
  | 95 => ⟨S350000, .i1⟩
  | 96 => ⟨S_, .i32⟩
  | 97 => ⟨S350000, .i32⟩
  | 98 => ⟨S350000, .i32⟩
  | 99 => ⟨S350000, .i32⟩
  | 100 => ⟨S350000x1, .i32⟩
  | 101 => ⟨S350000x256, .f32⟩
  | 102 => ⟨S350000x1, .f32⟩
  | 103 => ⟨S350000x256, .f32⟩
  | 104 => ⟨S350000x256, .f32⟩
  | 105 => ⟨S_, .f32⟩
  | 106 => ⟨S50000x256, .f32⟩
  | 107 => ⟨S350000x1, .i32⟩
  | 108 => ⟨S50000x256, .f32⟩
  | 109 => ⟨S1x256, .f32⟩
  | 110 => ⟨S256, .f32⟩
  | 111 => ⟨S1x256, .f32⟩
  | 112 => ⟨S50000x256, .f32⟩
  | 113 => ⟨S50000x256, .f32⟩
  | 114 => ⟨S1x256, .f32⟩
  | 115 => ⟨S256, .f32⟩
  | 116 => ⟨S1x256, .f32⟩
  | 117 => ⟨S256, .f32⟩
  | 118 => ⟨S_, .f32⟩
  | 119 => ⟨S50000, .f32⟩
  | 120 => ⟨S50000x1, .f32⟩
  | 121 => ⟨S_, .f32⟩
  | 122 => ⟨S50000x1, .f32⟩
  | 123 => ⟨S50000x1, .f32⟩
  | 124 => ⟨S50000x256, .f32⟩
  | 125 => ⟨S50000x256, .f32⟩
  | 126 => ⟨S50000x256, .f32⟩
  | 127 => ⟨S_, .f32⟩
  | _ => ⟨S50000x3, .f32⟩

abbrev hbmTy0_2 (i : Nat) : BufTy := match i % 128 with
  | 0 => ⟨S50000, .f32⟩
  | 1 => ⟨S50000x1, .f32⟩
  | 2 => ⟨S_, .f32⟩
  | 3 => ⟨S50000x1, .f32⟩
  | 4 => ⟨S50000x1, .f32⟩
  | 5 => ⟨S50000x256, .f32⟩
  | 6 => ⟨S50000x256, .f32⟩
  | 7 => ⟨S_, .f32⟩
  | 8 => ⟨S50000x1, .f32⟩
  | 9 => ⟨S50000x1, .f32⟩
  | 10 => ⟨S50000x1, .f32⟩
  | 11 => ⟨S50000x256, .f32⟩
  | 12 => ⟨S50000x256, .f32⟩
  | 13 => ⟨S1x256, .f32⟩
  | 14 => ⟨S50000x256, .f32⟩
  | 15 => ⟨S50000x256, .f32⟩
  | 16 => ⟨S1x256, .f32⟩
  | 17 => ⟨S50000x256, .f32⟩
  | 18 => ⟨S50000x256, .f32⟩
  | 19 => ⟨S_, .f32⟩
  | 20 => ⟨S50000x256, .f32⟩
  | 21 => ⟨S50000x256, .f32⟩
  | 22 => ⟨S50000x256, .f32⟩
  | 23 => ⟨S_, .f32⟩
  | 24 => ⟨S16x256, .f32⟩
  | 25 => ⟨S50000x1, .i32⟩
  | 26 => ⟨S16x256, .f32⟩
  | 27 => ⟨S_, .f32⟩
  | 28 => ⟨S50000, .f32⟩
  | 29 => ⟨S_, .f32⟩
  | 30 => ⟨S16, .f32⟩
  | 31 => ⟨S50000x1, .i32⟩
  | 32 => ⟨S16, .f32⟩
  | 33 => ⟨S_, .f32⟩
  | 34 => ⟨S16, .f32⟩
  | 35 => ⟨S16, .f32⟩
  | 36 => ⟨S16x1, .f32⟩
  | 37 => ⟨S16x256, .f32⟩
  | 38 => ⟨S16x256, .f32⟩
  | 39 => ⟨S16x256, .f32⟩
  | 40 => ⟨S1x256, .f32⟩
  | 41 => ⟨S16x256, .f32⟩
  | 42 => ⟨S16x256, .f32⟩
  | 43 => ⟨S_, .f32⟩
  | 44 => ⟨S16x256, .f32⟩
  | 45 => ⟨S16x256, .f32⟩
  | 46 => ⟨S_, .f32⟩
  | 47 => ⟨S16, .f32⟩
  | 48 => ⟨S16x1, .f32⟩
  | 49 => ⟨S_, .f32⟩
  | 50 => ⟨S16x1, .f32⟩
  | 51 => ⟨S16x1, .f32⟩
  | 52 => ⟨S16x256, .f32⟩
  | 53 => ⟨S16x256, .f32⟩
  | 54 => ⟨S16x256, .f32⟩
  | 55 => ⟨S_, .f32⟩
  | 56 => ⟨S16, .f32⟩
  | 57 => ⟨S16x1, .f32⟩
  | 58 => ⟨S_, .f32⟩
  | 59 => ⟨S16x1, .f32⟩
  | 60 => ⟨S16x1, .f32⟩
  | 61 => ⟨S16x256, .f32⟩
  | 62 => ⟨S16x256, .f32⟩
  | 63 => ⟨S_, .f32⟩
  | 64 => ⟨S16x1, .f32⟩
  | 65 => ⟨S16x1, .f32⟩
  | 66 => ⟨S16x1, .f32⟩
  | 67 => ⟨S16x256, .f32⟩
  | 68 => ⟨S16x256, .f32⟩
  | 69 => ⟨S1x256, .f32⟩
  | 70 => ⟨S16x256, .f32⟩
  | 71 => ⟨S16x256, .f32⟩
  | 72 => ⟨S1x256, .f32⟩
  | 73 => ⟨S16x256, .f32⟩
  | 74 => ⟨S16x256, .f32⟩
  | 75 => ⟨S16x128, .f32⟩
  | 76 => ⟨S1x128, .f32⟩
  | 77 => ⟨S16x128, .f32⟩
  | 78 => ⟨S16x128, .f32⟩
  | _ => ⟨S50000x3, .f32⟩

abbrev hbmTy (i : Nat) : BufTy := match i / 128 with
  | 0 => hbmTy0_0 i
  | 1 => hbmTy0_1 i
  | 2 => hbmTy0_2 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v16 : Ref sig .tc := ⟨.hbm, 40, rfl⟩
abbrev main_c : Ref sig .tc := ⟨.hbm, 41, rfl⟩
abbrev main_v17 : Ref sig .tc := ⟨.hbm, 42, rfl⟩
abbrev main_v18 : Ref sig .tc := ⟨.hbm, 43, rfl⟩
abbrev main_c_4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_c_6 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_call1_cst : Ref sig .tc := ⟨.hbm, 64, rfl⟩
abbrev main_call1_v0 : Ref sig .tc := ⟨.hbm, 65, rfl⟩
abbrev main_v36 : Ref sig .tc := ⟨.hbm, 66, rfl⟩
abbrev main_cst_7 : Ref sig .tc := ⟨.hbm, 67, rfl⟩
abbrev main_v37 : Ref sig .tc := ⟨.hbm, 68, rfl⟩
abbrev main_v38 : Ref sig .tc := ⟨.hbm, 69, rfl⟩
abbrev main_cst_8 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_9 : Ref sig .tc := ⟨.hbm, 76, rfl⟩
abbrev main_v44 : Ref sig .tc := ⟨.hbm, 77, rfl⟩
abbrev main_v45 : Ref sig .tc := ⟨.hbm, 78, rfl⟩
abbrev main_cst_10 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_11 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_12 : Ref sig .tc := ⟨.hbm, 99, rfl⟩
abbrev main_v64 : Ref sig .tc := ⟨.hbm, 100, rfl⟩
abbrev main_v65 : Ref sig .tc := ⟨.hbm, 101, rfl⟩
abbrev main_c_13 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_14 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_15 : Ref sig .tc := ⟨.hbm, 124, rfl⟩
abbrev main_v86 : Ref sig .tc := ⟨.hbm, 125, rfl⟩
abbrev main_v87 : Ref sig .tc := ⟨.hbm, 126, rfl⟩
abbrev main_cst_16 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_17 : Ref sig .tc := ⟨.hbm, 133, rfl⟩
abbrev main_v93 : Ref sig .tc := ⟨.hbm, 134, rfl⟩
abbrev main_v94 : Ref sig .tc := ⟨.hbm, 135, rfl⟩
abbrev main_cst_18 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_19 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_call2_cst : Ref sig .tc := ⟨.hbm, 153, rfl⟩
abbrev main_call2_v0 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_c_20 : Ref sig .tc := ⟨.hbm, 160, rfl⟩
abbrev main_v115 : Ref sig .tc := ⟨.hbm, 161, rfl⟩
abbrev main_v116 : Ref sig .tc := ⟨.hbm, 162, rfl⟩
abbrev main_c_21 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_22 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_23 : Ref sig .tc := ⟨.hbm, 185, rfl⟩
abbrev main_v137 : Ref sig .tc := ⟨.hbm, 186, rfl⟩
abbrev main_v138 : Ref sig .tc := ⟨.hbm, 187, rfl⟩
abbrev main_cst_24 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_cst_25 : Ref sig .tc := ⟨.hbm, 194, rfl⟩
abbrev main_v144 : Ref sig .tc := ⟨.hbm, 195, rfl⟩
abbrev main_v145 : Ref sig .tc := ⟨.hbm, 196, rfl⟩
abbrev main_cst_26 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_cst_27 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_call3_cst : Ref sig .tc := ⟨.hbm, 214, rfl⟩
abbrev main_call3_v0 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_c_28 : Ref sig .tc := ⟨.hbm, 221, rfl⟩
abbrev main_v166 : Ref sig .tc := ⟨.hbm, 222, rfl⟩
abbrev main_v167 : Ref sig .tc := ⟨.hbm, 223, rfl⟩
abbrev main_c_29 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_cst_30 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_cst_31 : Ref sig .tc := ⟨.hbm, 246, rfl⟩
abbrev main_v188 : Ref sig .tc := ⟨.hbm, 247, rfl⟩
abbrev main_v189 : Ref sig .tc := ⟨.hbm, 248, rfl⟩
abbrev main_cst_32 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_cst_33 : Ref sig .tc := ⟨.hbm, 255, rfl⟩
abbrev main_v195 : Ref sig .tc := ⟨.hbm, 256, rfl⟩
abbrev main_v196 : Ref sig .tc := ⟨.hbm, 257, rfl⟩
abbrev main_cst_34 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_cst_35 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_call4_cst : Ref sig .tc := ⟨.hbm, 275, rfl⟩
abbrev main_call4_v0 : Ref sig .tc := ⟨.hbm, 276, rfl⟩
abbrev main_v212 : Ref sig .tc := ⟨.hbm, 277, rfl⟩
abbrev main_v213 : Ref sig .tc := ⟨.hbm, 278, rfl⟩
abbrev main_cst_36 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_cst_37 : Ref sig .tc := ⟨.hbm, 283, rfl⟩
abbrev main_v217 : Ref sig .tc := ⟨.hbm, 284, rfl⟩
abbrev main_cst_38 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_cst_39 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_call5_cst : Ref sig .tc := ⟨.hbm, 299, rfl⟩
abbrev main_call5_v0 : Ref sig .tc := ⟨.hbm, 300, rfl⟩
abbrev main_v230 : Ref sig .tc := ⟨.hbm, 301, rfl⟩
abbrev main_cst_40 : Ref sig .tc := ⟨.hbm, 302, rfl⟩
abbrev main_v231 : Ref sig .tc := ⟨.hbm, 303, rfl⟩
abbrev main_v232 : Ref sig .tc := ⟨.hbm, 304, rfl⟩
abbrev main_cst_41 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_v236 : Ref sig .tc := ⟨.hbm, 309, rfl⟩
abbrev main_v237 : Ref sig .tc := ⟨.hbm, 310, rfl⟩
abbrev main_cst_42 : Ref sig .tc := ⟨.hbm, 311, rfl⟩
abbrev main_v238 : Ref sig .tc := ⟨.hbm, 312, rfl⟩
abbrev main_v239 : Ref sig .tc := ⟨.hbm, 313, rfl⟩
abbrev main_cst_43 : Ref sig .tc := ⟨.hbm, 314, rfl⟩
abbrev main_v240 : Ref sig .tc := ⟨.hbm, 315, rfl⟩
abbrev main_v241 : Ref sig .tc := ⟨.hbm, 316, rfl⟩
abbrev main_v242 : Ref sig .tc := ⟨.hbm, 317, rfl⟩
abbrev main_v243 : Ref sig .tc := ⟨.hbm, 318, rfl⟩
abbrev main_cst_44 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  concatenates_S300000_S50000_S350000_d0 : Shape.Concatenates [S300000, S50000] S350000 0
  slices_S2x300000_S1x300000_1_0 : S2x300000.Slices ![1, 0] S1x300000
  bcast_S_S350000 : S_.BroadcastsInDim S350000 (![] : Fin 0 → Fin S350000.rank)
  bcast_S_S50000 : S_.BroadcastsInDim S50000 (![] : Fin 0 → Fin S50000.rank)
  bcast_S350000_S350000x1_0 : S350000.BroadcastsInDim S350000x1 (![0] : Fin 1 → Fin S350000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  slices_S3x256x256_S1x256x256_0_0_0 : S3x256x256.Slices ![0, 0, 0] S1x256x256
  shapeCasts_S1x256x256_S256x256 : S1x256x256.ShapeCasts S256x256
  bcast_S350000x1_S350000x256_0_1 : S350000x1.BroadcastsInDim S350000x256 (![0, 1] : Fin 2 → Fin S350000x256.rank)
  slices_S3x256_S1x256_0_0 : S3x256.Slices ![0, 0] S1x256
  shapeCasts_S1x256_S256 : S1x256.ShapeCasts S256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S16x256 : S_.BroadcastsInDim S16x256 (![] : Fin 0 → Fin S16x256.rank)
  bcast_S_S16 : S_.BroadcastsInDim S16 (![] : Fin 0 → Fin S16.rank)
  bcast_S16_S16x1_0 : S16.BroadcastsInDim S16x1 (![0] : Fin 1 → Fin S16x1.rank)
  bcast_S16x1_S16x256_0_1 : S16x1.BroadcastsInDim S16x256 (![0, 1] : Fin 2 → Fin S16x256.rank)
  bcast_S1x256_S16x256_0_1 : S1x256.BroadcastsInDim S16x256 (![0, 1] : Fin 2 → Fin S16x256.rank)
  reducesTo_S16x256_S16_d1 : S16x256.ReducesTo [1] S16
  bcast_S_S16x1 : S_.BroadcastsInDim S16x1 (![] : Fin 0 → Fin S16x1.rank)
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  scatter_S50000_S350000x1_S350000_n_0_0_1_wf : ScatterDims.WF S50000 S350000x1 S350000 [] [0] [0] 1
  gather_S50000_S350000x1_S350000_n_0_n_n_0_1_1_wf : GatherDims.WF S50000 S350000x1 S350000 [] [0] [] [0] [] 1 ![1]
  dot_S50000x3_S3x256_S50000x256_1_0_0_1_n_n_wf : DotDims.WF S50000x3 S3x256 S50000x256 [1] [0] [0] [1] [] []
  dot_S50000x256_S256x256_S50000x256_1_0_0_1_n_n_wf : DotDims.WF S50000x256 S256x256 S50000x256 [1] [0] [0] [1] [] []
  gather_S50000x256_S350000x1_S350000x256_1_0_n_n_0_1_1256_wf : GatherDims.WF S50000x256 S350000x1 S350000x256 [1] [0] [] [0] [] 1 ![1, 256]
  scatter_S50000x256_S350000x1_S350000x256_1_0_0_1_wf : ScatterDims.WF S50000x256 S350000x1 S350000x256 [1] [0] [0] 1
  scatter_S16x256_S50000x1_S50000x256_1_0_0_1_wf : ScatterDims.WF S16x256 S50000x1 S50000x256 [1] [0] [0] 1
  scatter_S16_S50000x1_S50000_n_0_0_1_wf : ScatterDims.WF S16 S50000x1 S50000 [] [0] [0] 1
  dot_S16x256_S256x256_S16x256_1_0_0_1_n_n_wf : DotDims.WF S16x256 S256x256 S16x256 [1] [0] [0] [1] [] []
  dot_S16x256_S256x128_S16x128_1_0_0_1_n_n_wf : DotDims.WF S16x256 S256x128 S16x128 [1] [0] [0] [1] [] []

variable [Facts₀]

def scatter_S50000_S350000x1_S350000_n_0_0_1 : ScatterDims S50000 S350000x1 S350000 where
  updateWindowDims := []
  insertedWindowDims := [0]
  scatterDimsToOperandDims := [0]
  indexVectorDim := 1
  wf := scatter_S50000_S350000x1_S350000_n_0_0_1_wf
def gather_S50000_S350000x1_S350000_n_0_n_n_0_1_1 : GatherDims S50000 S350000x1 S350000 where
  offsetDims := []
  collapsedSliceDims := [0]
  operandBatchingDims := []
  startIndicesBatchingDims := []
  startIndexMap := [0]
  indexVectorDim := 1
  sliceSizes := ![1]
  wf := gather_S50000_S350000x1_S350000_n_0_n_n_0_1_1_wf
def dot_S50000x3_S3x256_S50000x256_1_0_0_1_n_n : DotDims S50000x3 S3x256 S50000x256 where
  lhsContracting := [1]
  rhsContracting := [0]
  lhsNonContracting := [0]
  rhsNonContracting := [1]
  lhsBatch := []
  rhsBatch := []
  wf := dot_S50000x3_S3x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S350000x1_S350000x256_1_0_n_n_0_1_1256 : GatherDims S50000x256 S350000x1 S350000x256 where
  offsetDims := [1]
  collapsedSliceDims := [0]
  operandBatchingDims := []
  startIndicesBatchingDims := []
  startIndexMap := [0]
  indexVectorDim := 1
  sliceSizes := ![1, 256]
  wf := gather_S50000x256_S350000x1_S350000x256_1_0_n_n_0_1_1256_wf
def scatter_S50000x256_S350000x1_S350000x256_1_0_0_1 : ScatterDims S50000x256 S350000x1 S350000x256 where
  updateWindowDims := [1]
  insertedWindowDims := [0]
  scatterDimsToOperandDims := [0]
  indexVectorDim := 1
  wf := scatter_S50000x256_S350000x1_S350000x256_1_0_0_1_wf
def scatter_S16x256_S50000x1_S50000x256_1_0_0_1 : ScatterDims S16x256 S50000x1 S50000x256 where
  updateWindowDims := [1]
  insertedWindowDims := [0]
  scatterDimsToOperandDims := [0]
  indexVectorDim := 1
  wf := scatter_S16x256_S50000x1_S50000x256_1_0_0_1_wf
def scatter_S16_S50000x1_S50000_n_0_0_1 : ScatterDims S16 S50000x1 S50000 where
  updateWindowDims := []
  insertedWindowDims := [0]
  scatterDimsToOperandDims := [0]
  indexVectorDim := 1
  wf := scatter_S16_S50000x1_S50000_n_0_0_1_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf

class Facts : Prop extends Facts₀ where

variable [Facts]
-- ==== Proof.KernelRun.lean ====
/-
  The idealized kernel program's run with its RESULT named.

  The program is seven dense regions among stretches of host operations.  The buffer contents at every boundary
  are a fold from the launch memory (each host stretch applies its operations; each region replaces its output
  array by what its grid points wrote back).  Every weakly fair execution terminates, the argument arrays end as
  launched, and the result array ends at that fold's last stage read at the result buffer.
-/
import proofs.«166986_j16578573762731_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result array at the last boundary's contents and the
    arguments as launched. -/
theorem run_result : θ_run defs (onTc (τ := τ) (main (F := F))) ⟨m, fun _ => 0, ρ⟩ (fun r => ∀ c : Dev nD,
      r.2.mem ((c.tc : Thread nD τ).loc main_v158) = W19 m ρ c (Proc.devRef .tc main_v158)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v158 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c),
       (h c _ (mem_uc main_arg15 (by decide))).trans (W19_main_arg15 m ρ c),
       (h c _ (mem_uc main_arg16 (by decide))).trans (W19_main_arg16 m ρ c)⟩)

end Cert.KernelIdeal.RunValue

end
-- ==== Proof.GlueKeep.lean ====
/-
  Which buffers survive each step of the idealized kernel program.

  The program's buffer contents at its twenty boundaries are a fold: a stretch of host operations rewrites exactly
  the buffers its operations write, and a dense region rewrites exactly its output array.  So across a host stretch
  every buffer outside the stretch's written list keeps its contents; across a region every buffer that is none of
  the region's arrays keeps its contents, and so does each of its INPUT arrays.
-/
import proofs.«166986_j16578573762731_1_alg».proof.Proof.Gen.KernelIdeal.Frame
import Idealize.ShloMosaic.Lib.Pipeline.Value
import Idealize.ShloMosaic.Lib.ValueIdx

set_option maxRecDepth 16384

noncomputable section

namespace Cert.KernelIdeal.Keep

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-- The buffers the host stretch before boundary 1 writes. -/
abbrev written1 : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem writes1 : (hostOps0 : List (HloOp τ sig (Elt Ideal))).Forall fun op => op.writes ⊆ ((written1).map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes]
  repeat' apply And.intro
  all_goals (refine Finset.singleton_subset_iff.mpr (List.mem_toFinset.mpr (List.mem_map.mpr ⟨_, ?_, rfl⟩)); decide)
/-- A buffer that stretch does not write is at boundary 1 what it was at boundary 0. -/
theorem keep1 (b : Ref sig .tc) (hb : b ∉ written1) : W1 m ρ c (Proc.devRef .tc b) = W0 m ρ c (Proc.devRef .tc b) :=
  StableHlo.after_of_writes_sub hostOps0 (W0 m ρ c) writes1 hb

/-- The buffers the host stretch before boundary 2 writes. -/
abbrev written2 : List (Ref sig .tc) := [main_call0_v0, main_call0_v1, main_v16]
theorem writes2 : (hostOps0_1 : List (HloOp τ sig (Elt Ideal))).Forall fun op => op.writes ⊆ ((written2).map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes]
  repeat' apply And.intro
  all_goals (refine Finset.singleton_subset_iff.mpr (List.mem_toFinset.mpr (List.mem_map.mpr ⟨_, ?_, rfl⟩)); decide)
/-- A buffer that stretch does not write is at boundary 2 what it was at boundary 1. -/
theorem keep2 (b : Ref sig .tc) (hb : b ∉ written2) : W2 m ρ c (Proc.devRef .tc b) = W1 m ρ c (Proc.devRef .tc b) :=
  StableHlo.after_of_writes_sub hostOps0_1 (W1 m ρ c) writes2 hb

/-- The buffers the host stretch before boundary 3 writes. -/
abbrev written3 : List (Ref sig .tc) := [main_c, main_v17, main_v18, main_c_4, main_v19, main_v20, main_v21, main_v22, main_v23, main_c_5, main_v24, main_v25, main_c_6, main_v26, main_v27, main_v28, main_v29, main_v30, main_v31, main_v32, main_v33, main_v34]
theorem writes3 : (hostOps0_2 : List (HloOp τ sig (Elt Ideal))).Forall fun op => op.writes ⊆ ((written3).map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes]
  repeat' apply And.intro
  all_goals (refine Finset.singleton_subset_iff.mpr (List.mem_toFinset.mpr (List.mem_map.mpr ⟨_, ?_, rfl⟩)); decide)
/-- A buffer that stretch does not write is at boundary 3 what it was at boundary 2. -/
theorem keep3 (b : Ref sig .tc) (hb : b ∉ written3) : W3 m ρ c (Proc.devRef .tc b) = W2 m ρ c (Proc.devRef .tc b) :=
  StableHlo.after_of_writes_sub hostOps0_2 (W2 m ρ c) writes3 hb

/-- A buffer that is none of region 0's arrays is at boundary 4 what it was at boundary 3. -/
theorem keep4 (b : Ref sig .tc) (hb : ∀ w, Pipeline.arrRef spec0 w ≠ b) : W4 m ρ c (Proc.devRef .tc b) = W3 m ρ c (Proc.devRef .tc b) :=
  W4_of_ne m ρ c b hb
/-- An input array of region 0 (window w fetches, never flushes) is at boundary 4 what it was at boundary 3. -/
theorem keepIn4 (w : Fin cfg0.W) (hw : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hw _).trans (A_eq0 (V3 m ρ) c w))

/-- The buffers the host stretch before boundary 5 writes. -/
abbrev written5 : List (Ref sig .tc) := [main_v36, main_v37]
theorem writes5 : (hostOps1 : List (HloOp τ sig (Elt Ideal))).Forall fun op => op.writes ⊆ ((written5).map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes]
  repeat' apply And.intro
  all_goals (refine Finset.singleton_subset_iff.mpr (List.mem_toFinset.mpr (List.mem_map.mpr ⟨_, ?_, rfl⟩)); decide)
/-- A buffer that stretch does not write is at boundary 5 what it was at boundary 4. -/
theorem keep5 (b : Ref sig .tc) (hb : b ∉ written5) : W5 m ρ c (Proc.devRef .tc b) = W4 m ρ c (Proc.devRef .tc b) :=
  StableHlo.after_of_writes_sub hostOps1 (W4 m ρ c) writes5 hb

/-- A buffer that is none of region 1's arrays is at boundary 6 what it was at boundary 5. -/
theorem keep6 (b : Ref sig .tc) (hb : ∀ w, Pipeline.arrRef spec1 w ≠ b) : W6 m ρ c (Proc.devRef .tc b) = W5 m ρ c (Proc.devRef .tc b) :=
  W6_of_ne m ρ c b hb
/-- An input array of region 1 (window w fetches, never flushes) is at boundary 6 what it was at boundary 5. -/
theorem keepIn6 (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))

/-- The buffers the host stretch before boundary 7 writes. -/
abbrev written7 : List (Ref sig .tc) := [main_c_7, main_v39, main_v40, main_c_8, main_v41, main_v42, main_v43, main_v44, main_v45, main_v46, main_v47, main_v48, main_cst_9, main_v49, main_v50, main_v51, main_v52, main_v53, main_v54, main_v55, main_v56, main_v57, main_v58, main_v59, main_v60]
theorem writes7 : (hostOps2 : List (HloOp τ sig (Elt Ideal))).Forall fun op => op.writes ⊆ ((written7).map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes]
  repeat' apply And.intro
  all_goals (refine Finset.singleton_subset_iff.mpr (List.mem_toFinset.mpr (List.mem_map.mpr ⟨_, ?_, rfl⟩)); decide)
/-- A buffer that stretch does not write is at boundary 7 what it was at boundary 6. -/
theorem keep7 (b : Ref sig .tc) (hb : b ∉ written7) : W7 m ρ c (Proc.devRef .tc b) = W6 m ρ c (Proc.devRef .tc b) :=
  StableHlo.after_of_writes_sub hostOps2 (W6 m ρ c) writes7 hb

/-- A buffer that is none of region 2's arrays is at boundary 8 what it was at boundary 7. -/
theorem keep8 (b : Ref sig .tc) (hb : ∀ w, Pipeline.arrRef spec2 w ≠ b) : W8 m ρ c (Proc.devRef .tc b) = W7 m ρ c (Proc.devRef .tc b) :=
  W8_of_ne m ρ c b hb
/-- An input array of region 2 (window w fetches, never flushes) is at boundary 8 what it was at boundary 7. -/
theorem keepIn8 (w : Fin cfg2.W) (hw : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hw _).trans (A_eq2 (V7 m ρ) c w))

/-- The buffers the host stretch before boundary 9 writes. -/
abbrev written9 : List (Ref sig .tc) := [main_v62, main_v63]
theorem writes9 : (hostOps3 : List (HloOp τ sig (Elt Ideal))).Forall fun op => op.writes ⊆ ((written9).map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes]
  repeat' apply And.intro
  all_goals (refine Finset.singleton_subset_iff.mpr (List.mem_toFinset.mpr (List.mem_map.mpr ⟨_, ?_, rfl⟩)); decide)
/-- A buffer that stretch does not write is at boundary 9 what it was at boundary 8. -/
theorem keep9 (b : Ref sig .tc) (hb : b ∉ written9) : W9 m ρ c (Proc.devRef .tc b) = W8 m ρ c (Proc.devRef .tc b) :=
  StableHlo.after_of_writes_sub hostOps3 (W8 m ρ c) writes9 hb

/-- A buffer that is none of region 3's arrays is at boundary 10 what it was at boundary 9. -/
theorem keep10 (b : Ref sig .tc) (hb : ∀ w, Pipeline.arrRef spec3 w ≠ b) : W10 m ρ c (Proc.devRef .tc b) = W9 m ρ c (Proc.devRef .tc b) :=
  W10_of_ne m ρ c b hb
/-- An input array of region 3 (window w fetches, never flushes) is at boundary 10 what it was at boundary 9. -/
theorem keepIn10 (w : Fin cfg3.W) (hw : (cfg3.win w).isOut = false) :
    W10 m ρ c (Proc.devRef .tc (Pipeline.arrRef spec3 w)) = W9 m ρ c (Proc.devRef .tc (Pipeline.arrRef spec3 w)) :=
  (W10_arr m ρ c w).trans (((dat3 (V9 m ρ) c).arrAt_in w hw _).trans (A_eq3 (V9 m ρ) c w))

/-- The buffers the host stretch before boundary 11 writes. -/
abbrev written11 : List (Ref sig .tc) := [main_c_10, main_v65, main_v66, main_c_11, main_v67, main_v68, main_v69, main_v70, main_v71, main_v72, main_v73, main_v74, main_cst_12, main_v75, main_v76, main_v77, main_v78, main_v79, main_v80, main_v81, main_v82, main_v83, main_v84, main_v85, main_v86]
theorem writes11 : (hostOps4 : List (HloOp τ sig (Elt Ideal))).Forall fun op => op.writes ⊆ ((written11).map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes]
  repeat' apply And.intro
  all_goals (refine Finset.singleton_subset_iff.mpr (List.mem_toFinset.mpr (List.mem_map.mpr ⟨_, ?_, rfl⟩)); decide)
/-- A buffer that stretch does not write is at boundary 11 what it was at boundary 10. -/
theorem keep11 (b : Ref sig .tc) (hb : b ∉ written11) : W11 m ρ c (Proc.devRef .tc b) = W10 m ρ c (Proc.devRef .tc b) :=
  StableHlo.after_of_writes_sub hostOps4 (W10 m ρ c) writes11 hb

/-- A buffer that is none of region 4's arrays is at boundary 12 what it was at boundary 11. -/
theorem keep12 (b : Ref sig .tc) (hb : ∀ w, Pipeline.arrRef spec4 w ≠ b) : W12 m ρ c (Proc.devRef .tc b) = W11 m ρ c (Proc.devRef .tc b) :=
  W12_of_ne m ρ c b hb
/-- An input array of region 4 (window w fetches, never flushes) is at boundary 12 what it was at boundary 11. -/
theorem keepIn12 (w : Fin cfg4.W) (hw : (cfg4.win w).isOut = false) :
    W12 m ρ c (Proc.devRef .tc (Pipeline.arrRef spec4 w)) = W11 m ρ c (Proc.devRef .tc (Pipeline.arrRef spec4 w)) :=
  (W12_arr m ρ c w).trans (((dat4 (V11 m ρ) c).arrAt_in w hw _).trans (A_eq4 (V11 m ρ) c w))

/-- The buffers the host stretch before boundary 13 writes. -/
abbrev written13 : List (Ref sig .tc) := [main_v88, main_v89]
theorem writes13 : (hostOps5 : List (HloOp τ sig (Elt Ideal))).Forall fun op => op.writes ⊆ ((written13).map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes]
  repeat' apply And.intro
  all_goals (refine Finset.singleton_subset_iff.mpr (List.mem_toFinset.mpr (List.mem_map.mpr ⟨_, ?_, rfl⟩)); decide)
/-- A buffer that stretch does not write is at boundary 13 what it was at boundary 12. -/
theorem keep13 (b : Ref sig .tc) (hb : b ∉ written13) : W13 m ρ c (Proc.devRef .tc b) = W12 m ρ c (Proc.devRef .tc b) :=
  StableHlo.after_of_writes_sub hostOps5 (W12 m ρ c) writes13 hb

/-- A buffer that is none of region 5's arrays is at boundary 14 what it was at boundary 13. -/
theorem keep14 (b : Ref sig .tc) (hb : ∀ w, Pipeline.arrRef spec5 w ≠ b) : W14 m ρ c (Proc.devRef .tc b) = W13 m ρ c (Proc.devRef .tc b) :=
  W14_of_ne m ρ c b hb
/-- An input array of region 5 (window w fetches, never flushes) is at boundary 14 what it was at boundary 13. -/
theorem keepIn14 (w : Fin cfg5.W) (hw : (cfg5.win w).isOut = false) :
    W14 m ρ c (Proc.devRef .tc (Pipeline.arrRef spec5 w)) = W13 m ρ c (Proc.devRef .tc (Pipeline.arrRef spec5 w)) :=
  (W14_arr m ρ c w).trans (((dat5 (V13 m ρ) c).arrAt_in w hw _).trans (A_eq5 (V13 m ρ) c w))

/-- The buffers the host stretch before boundary 15 writes. -/
abbrev written15 : List (Ref sig .tc) := [main_c_13, main_v91, main_v92, main_c_14, main_v93, main_v94, main_v95, main_v96, main_v97, main_v98, main_v99, main_v100, main_cst_15, main_v101, main_v102, main_v103, main_v104, main_v105, main_v106, main_v107, main_v108, main_v109, main_v110, main_v111, main_v112]
theorem writes15 : (hostOps6 : List (HloOp τ sig (Elt Ideal))).Forall fun op => op.writes ⊆ ((written15).map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes]
  repeat' apply And.intro
  all_goals (refine Finset.singleton_subset_iff.mpr (List.mem_toFinset.mpr (List.mem_map.mpr ⟨_, ?_, rfl⟩)); decide)
/-- A buffer that stretch does not write is at boundary 15 what it was at boundary 14. -/
theorem keep15 (b : Ref sig .tc) (hb : b ∉ written15) : W15 m ρ c (Proc.devRef .tc b) = W14 m ρ c (Proc.devRef .tc b) :=
  StableHlo.after_of_writes_sub hostOps6 (W14 m ρ c) writes15 hb

/-- A buffer that is none of region 6's arrays is at boundary 16 what it was at boundary 15. -/
theorem keep16 (b : Ref sig .tc) (hb : ∀ w, Pipeline.arrRef spec6 w ≠ b) : W16 m ρ c (Proc.devRef .tc b) = W15 m ρ c (Proc.devRef .tc b) :=
  W16_of_ne m ρ c b hb
/-- An input array of region 6 (window w fetches, never flushes) is at boundary 16 what it was at boundary 15. -/
theorem keepIn16 (w : Fin cfg6.W) (hw : (cfg6.win w).isOut = false) :
    W16 m ρ c (Proc.devRef .tc (Pipeline.arrRef spec6 w)) = W15 m ρ c (Proc.devRef .tc (Pipeline.arrRef spec6 w)) :=
  (W16_arr m ρ c w).trans (((dat6 (V15 m ρ) c).arrAt_in w hw _).trans (A_eq6 (V15 m ρ) c w))

/-- The buffers the host stretch before boundary 17 writes. -/
abbrev written17 : List (Ref sig .tc) := [main_cst_16, main_v114, main_v115, main_v116, main_cst_17, main_v117, main_cst_18, main_v118, main_v119, main_v120, main_cst_19, main_v121, main_v122, main_v123, main_v124, main_v125, main_v126, main_v127, main_v128, main_v129]
theorem writes17 : (hostOps7 : List (HloOp τ sig (Elt Ideal))).Forall fun op => op.writes ⊆ ((written17).map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes]
  repeat' apply And.intro
  all_goals (refine Finset.singleton_subset_iff.mpr (List.mem_toFinset.mpr (List.mem_map.mpr ⟨_, ?_, rfl⟩)); decide)
/-- A buffer that stretch does not write is at boundary 17 what it was at boundary 16. -/
theorem keep17 (b : Ref sig .tc) (hb : b ∉ written17) : W17 m ρ c (Proc.devRef .tc b) = W16 m ρ c (Proc.devRef .tc b) :=
  StableHlo.after_of_writes_sub hostOps7 (W16 m ρ c) writes17 hb

/-- The buffers the host stretch before boundary 18 writes. -/
abbrev written18 : List (Ref sig .tc) := [main_call1_cst, main_call1_v0, main_v130]
theorem writes18 : (hostOps7_1 : List (HloOp τ sig (Elt Ideal))).Forall fun op => op.writes ⊆ ((written18).map (Proc.devRef (τ := τ) .tc)).toFinset := by
  simp only [hostOps7_1, List.Forall, StableHlo.nullary_writes, StableHlo.unary_writes, StableHlo.binary_writes, StableHlo.ternary_writes, StableHlo.quaternary_writes, StableHlo.reshape_writes, StableHlo.binaryIndexed_writes]
  repeat' apply And.intro
  all_goals (refine Finset.singleton_subset_iff.mpr (List.mem_toFinset.mpr (List.mem_map.mpr ⟨_, ?_, rfl⟩)); decide)
/-- A buffer that stretch does not write is at boundary 18 what it was at boundary 17. -/
theorem keep18 (b : Ref sig .tc) (hb : b ∉ written18) : W18 m ρ c (Proc.devRef .tc b) = W17 m ρ c (Proc.devRef .tc b) :=
  StableHlo.after_of_writes_sub hostOps7_1 (W17 m ρ c) writes18 hb

/-- The buffers the host stretch before boundary 19 writes. -/
abbrev written19 : List (Ref sig .tc) := [main_cst_20, main_v131, main_v132, main_cst_21, main_v133, main_v134, main_v135, main_v136, main_v137, main_cst_22, main_v138, main_v139, main_cst_23, main_v140, main_v141, main_v142, main_v143, main_cst_24, main_v144, main_v145, main_v146, main_v147, main_v148, main_v149, main_v150, main_v151, main_v152, main_v153, main_v154, main_v155, main_v156, main_v157, main_v158]
theorem writes19 : (hostOps7_2 : List (HloOp τ sig (Elt Ideal))).Forall fun op => op.writes ⊆ ((written19).map (Proc.devRef (τ := τ) .tc)).toFinset := by
  simp only [hostOps7_2, List.Forall, StableHlo.nullary_writes, StableHlo.unary_writes, StableHlo.binary_writes, StableHlo.ternary_writes, StableHlo.quaternary_writes, StableHlo.reshape_writes, StableHlo.binaryIndexed_writes]
  repeat' apply And.intro
  all_goals (refine Finset.singleton_subset_iff.mpr (List.mem_toFinset.mpr (List.mem_map.mpr ⟨_, ?_, rfl⟩)); decide)
/-- A buffer that stretch does not write is at boundary 19 what it was at boundary 18. -/
theorem keep19 (b : Ref sig .tc) (hb : b ∉ written19) : W19 m ρ c (Proc.devRef .tc b) = W18 m ρ c (Proc.devRef .tc b) :=
  StableHlo.after_of_writes_sub hostOps7_2 (W18 m ρ c) writes19 hb

end Cert.KernelIdeal.Keep

end
-- ==== Proof.GluePre.lean ====
/-
  The edge data and region 0's inputs, at the third boundary of the idealized kernel program.

  Before its first dense region the program computes, from the edge list alone, the self-loop augmented source and
  destination indices and the symmetric normalisation weight of every edge, and reshapes the three input-projection
  parameter vectors to rows.  These are the same host operations the reference starts with, so each buffer is the
  reference's own stage of the arguments.  Each stretch of host operations is evaluated over an arbitrary valuation
  that holds the needed buffers, and then read at the boundary before it.
-/
import proofs.«166986_j16578573762731_1_alg».proof.Proof.Gen.KernelIdeal.Frame
import proofs.«166986_j16578573762731_1_alg».proof.Proof.GlueKeep
import proofs.«166986_j16578573762731_1_alg».proof.Proof.RefRead
import Idealize.ShloMosaic.Lib.Pipeline.Value
import Idealize.ShloMosaic.Lib.ValueIdx
import Idealize.ShloMosaic.Lib.StableHlo.Run

set_option maxRecDepth 16384

noncomputable section

namespace Cert.KernelIdeal.GluePre

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

open Idealize.ShloMosaic.StableHlo
set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)
local notation "a16" => m ((c : Thread nD τ).loc main_arg16)

set_option maxHeartbeats 4000000 in
/-- Boundary 1: `main_v3` is the reference's stage of the edge list. -/
theorem w1_v3 : W1 m ρ c (Proc.devRef .tc main_v3) = Cert.ReferenceIdeal.ReadP.val_main_v3 (F := Ideal) a1 := by
  have hs : ∀ (V : Valuation τ sig (Elt Ideal)) (h0 : V (Proc.devRef .tc main_arg1) = a1) , StableHlo.after hostOps0 V (Proc.devRef .tc main_v3) = Cert.ReferenceIdeal.ReadP.val_main_v3 (F := Ideal) a1 := by
    intro V h0
    after_results
    rw [h0]
    try simp only [TRef.toBuf, TRef.ofBuf, cast_eq]
    rfl
  exact hs (W0 m ρ c) ((rfl : W0 m ρ c (Proc.devRef .tc main_arg1) = a1))
set_option maxHeartbeats 4000000 in
/-- Boundary 1: `main_v6` is the reference's stage of the edge list. -/
theorem w1_v6 : W1 m ρ c (Proc.devRef .tc main_v6) = Cert.ReferenceIdeal.ReadP.val_main_v6 (F := Ideal) a1 := by
  have hs : ∀ (V : Valuation τ sig (Elt Ideal)) (h0 : V (Proc.devRef .tc main_arg1) = a1) , StableHlo.after hostOps0 V (Proc.devRef .tc main_v6) = Cert.ReferenceIdeal.ReadP.val_main_v6 (F := Ideal) a1 := by
    intro V h0
    after_results
    rw [h0]
    try simp only [TRef.toBuf, TRef.ofBuf, cast_eq]
    rfl
  exact hs (W0 m ρ c) ((rfl : W0 m ρ c (Proc.devRef .tc main_arg1) = a1))
set_option maxHeartbeats 4000000 in
/-- Boundary 1: `main_v12` is the reference's stage of the edge list. -/
theorem w1_v12 : W1 m ρ c (Proc.devRef .tc main_v12) = Cert.ReferenceIdeal.ReadP.val_main_v12 (F := Ideal) a1 := by
  have hs : ∀ (V : Valuation τ sig (Elt Ideal)) (h0 : V (Proc.devRef .tc main_arg1) = a1) , StableHlo.after hostOps0 V (Proc.devRef .tc main_v12) = Cert.ReferenceIdeal.ReadP.val_main_v12 (F := Ideal) a1 := by
    intro V h0
    after_results
    rw [h0]
    try simp only [TRef.toBuf, TRef.ofBuf, cast_eq]
    rfl
  exact hs (W0 m ρ c) ((rfl : W0 m ρ c (Proc.devRef .tc main_arg1) = a1))
set_option maxHeartbeats 4000000 in
/-- Boundary 1: `main_v15` is the reference's stage of the edge list. -/
theorem w1_v15 : W1 m ρ c (Proc.devRef .tc main_v15) = Cert.ReferenceIdeal.ReadP.val_main_v15 (F := Ideal) a1 := by
  have hs : ∀ (V : Valuation τ sig (Elt Ideal)) (h0 : V (Proc.devRef .tc main_arg1) = a1) , StableHlo.after hostOps0 V (Proc.devRef .tc main_v15) = Cert.ReferenceIdeal.ReadP.val_main_v15 (F := Ideal) a1 := by
    intro V h0
    after_results
    rw [h0]
    try simp only [TRef.toBuf, TRef.ofBuf, cast_eq]
    rfl
  exact hs (W0 m ρ c) ((rfl : W0 m ρ c (Proc.devRef .tc main_arg1) = a1))
set_option maxHeartbeats 4000000 in
/-- Boundary 1: the zero the isolated-node case selects. -/
theorem w1_cst_3 : W1 m ρ c (Proc.devRef .tc main_cst_3) = Cert.ReferenceIdeal.ReadP.val_main_cst_3 (F := Ideal) := by
  have hs : ∀ (V : Valuation τ sig (Elt Ideal)), StableHlo.after hostOps0 V (Proc.devRef .tc main_cst_3) = Cert.ReferenceIdeal.ReadP.val_main_cst_3 (F := Ideal) := by
    intro V
    after_results
    try simp only [TRef.toBuf, TRef.ofBuf, cast_eq]
    rfl
  exact hs (W0 m ρ c)
set_option maxHeartbeats 4000000 in
/-- Boundary 2: the inverse square root of each node's degree (zero for an isolated node). -/
theorem w2_v16 : W2 m ρ c (Proc.devRef .tc main_v16) = Cert.ReferenceIdeal.ReadP.val_main_v16 (F := Ideal) a1 := by
  have hs : ∀ (V : Valuation τ sig (Elt Ideal)) (h0 : V (Proc.devRef .tc main_v12) = Cert.ReferenceIdeal.ReadP.val_main_v12 (F := Ideal) a1) (h1 : V (Proc.devRef .tc main_v15) = Cert.ReferenceIdeal.ReadP.val_main_v15 (F := Ideal) a1) (h2 : V (Proc.devRef .tc main_cst_3) = Cert.ReferenceIdeal.ReadP.val_main_cst_3 (F := Ideal)) , StableHlo.after hostOps0_1 V (Proc.devRef .tc main_v16) = Cert.ReferenceIdeal.ReadP.val_main_v16 (F := Ideal) a1 := by
    intro V h0 h1 h2
    after_results
    rw [h0, h1, h2]
    try simp only [TRef.toBuf, TRef.ofBuf, cast_eq]
    rfl
  exact hs (W1 m ρ c) (w1_v12 m ρ c) (w1_v15 m ρ c) (w1_cst_3 m ρ c)
/-- Boundaries 2 and 3: the source and destination indices are carried. -/
theorem w2_v3 : W2 m ρ c (Proc.devRef .tc main_v3) = Cert.ReferenceIdeal.ReadP.val_main_v3 (F := Ideal) a1 := (Keep.keep2 m ρ c main_v3 (by decide)).trans (w1_v3 m ρ c)
theorem w2_v6 : W2 m ρ c (Proc.devRef .tc main_v6) = Cert.ReferenceIdeal.ReadP.val_main_v6 (F := Ideal) a1 := (Keep.keep2 m ρ c main_v6 (by decide)).trans (w1_v6 m ρ c)
theorem w3_v3 : W3 m ρ c (Proc.devRef .tc main_v3) = Cert.ReferenceIdeal.ReadP.val_main_v3 (F := Ideal) a1 := (Keep.keep3 m ρ c main_v3 (by decide)).trans (w2_v3 m ρ c)
theorem w3_v6 : W3 m ρ c (Proc.devRef .tc main_v6) = Cert.ReferenceIdeal.ReadP.val_main_v6 (F := Ideal) a1 := (Keep.keep3 m ρ c main_v6 (by decide)).trans (w2_v6 m ρ c)
set_option maxHeartbeats 4000000 in
/-- Boundary 3: every edge's weight, the product of its two endpoints' inverse square root degrees. -/
theorem w3_v31 : W3 m ρ c (Proc.devRef .tc main_v31) = Cert.ReferenceIdeal.ReadP.val_main_v31 (F := Ideal) a1 := by
  have hs : ∀ (V : Valuation τ sig (Elt Ideal)) (h0 : V (Proc.devRef .tc main_v3) = Cert.ReferenceIdeal.ReadP.val_main_v3 (F := Ideal) a1) (h1 : V (Proc.devRef .tc main_v6) = Cert.ReferenceIdeal.ReadP.val_main_v6 (F := Ideal) a1) (h2 : V (Proc.devRef .tc main_v16) = Cert.ReferenceIdeal.ReadP.val_main_v16 (F := Ideal) a1) , StableHlo.after hostOps0_2 V (Proc.devRef .tc main_v31) = Cert.ReferenceIdeal.ReadP.val_main_v31 (F := Ideal) a1 := by
    intro V h0 h1 h2
    after_results
    rw [h0, h1, h2]
    try simp only [TRef.toBuf, TRef.ofBuf, cast_eq]
    rfl
  exact hs (W2 m ρ c) (w2_v3 m ρ c) (w2_v6 m ρ c) (w2_v16 m ρ c)
set_option maxHeartbeats 4000000 in
/-- Boundary 3: `main_v32` is argument 4 as a row. -/
theorem w3_v32 : W3 m ρ c (Proc.devRef .tc main_v32) = shapeCast S1x256 a4 shapeCasts_S256_S1x256 := by
  have hs : ∀ (V : Valuation τ sig (Elt Ideal)) (h0 : V (Proc.devRef .tc main_arg4) = a4) , StableHlo.after hostOps0_2 V (Proc.devRef .tc main_v32) = shapeCast S1x256 a4 shapeCasts_S256_S1x256 := by
    intro V h0
    after_results
    rw [h0]
    try simp only [TRef.toBuf, TRef.ofBuf, cast_eq]
    rfl
  exact hs (W2 m ρ c) ((((Keep.keep2 m ρ c main_arg4 (by decide)).trans (Keep.keep1 m ρ c main_arg4 (by decide))).trans (rfl : W0 m ρ c (Proc.devRef .tc main_arg4) = a4)))
set_option maxHeartbeats 4000000 in
/-- Boundary 3: `main_v33` is argument 5 as a row. -/
theorem w3_v33 : W3 m ρ c (Proc.devRef .tc main_v33) = shapeCast S1x256 a5 shapeCasts_S256_S1x256 := by
  have hs : ∀ (V : Valuation τ sig (Elt Ideal)) (h0 : V (Proc.devRef .tc main_arg5) = a5) , StableHlo.after hostOps0_2 V (Proc.devRef .tc main_v33) = shapeCast S1x256 a5 shapeCasts_S256_S1x256 := by
    intro V h0
    after_results
    rw [h0]
    try simp only [TRef.toBuf, TRef.ofBuf, cast_eq]
    rfl
  exact hs (W2 m ρ c) ((((Keep.keep2 m ρ c main_arg5 (by decide)).trans (Keep.keep1 m ρ c main_arg5 (by decide))).trans (rfl : W0 m ρ c (Proc.devRef .tc main_arg5) = a5)))
set_option maxHeartbeats 4000000 in
/-- Boundary 3: `main_v34` is argument 6 as a row. -/
theorem w3_v34 : W3 m ρ c (Proc.devRef .tc main_v34) = shapeCast S1x256 a6 shapeCasts_S256_S1x256 := by
  have hs : ∀ (V : Valuation τ sig (Elt Ideal)) (h0 : V (Proc.devRef .tc main_arg6) = a6) , StableHlo.after hostOps0_2 V (Proc.devRef .tc main_v34) = shapeCast S1x256 a6 shapeCasts_S256_S1x256 := by
    intro V h0
    after_results
    rw [h0]
    try simp only [TRef.toBuf, TRef.ofBuf, cast_eq]
    rfl
  exact hs (W2 m ρ c) ((((Keep.keep2 m ρ c main_arg6 (by decide)).trans (Keep.keep1 m ρ c main_arg6 (by decide))).trans (rfl : W0 m ρ c (Proc.devRef .tc main_arg6) = a6)))
/-- Boundary 3: the positions and the projection weights are as launched. -/
theorem w3_arg0 : W3 m ρ c (Proc.devRef .tc main_arg0) = a0 := (((Keep.keep3 m ρ c main_arg0 (by decide)).trans ((Keep.keep2 m ρ c main_arg0 (by decide)).trans (Keep.keep1 m ρ c main_arg0 (by decide)))).trans (rfl : W0 m ρ c (Proc.devRef .tc main_arg0) = a0))
theorem w3_arg3 : W3 m ρ c (Proc.devRef .tc main_arg3) = a3 := (((Keep.keep3 m ρ c main_arg3 (by decide)).trans ((Keep.keep2 m ρ c main_arg3 (by decide)).trans (Keep.keep1 m ρ c main_arg3 (by decide)))).trans (rfl : W0 m ρ c (Proc.devRef .tc main_arg3) = a3))

end Cert.KernelIdeal.GluePre

end
-- ==== Proof.Spec.lean ====
/-
  What each dense stage computes on ONE node's row of 256 channels, over the extended reals.

  The encoder's three dense stages all act row by row: an output element (r, q) depends only on row r of the
  node-indexed inputs and on the per-channel parameters.  So each stage is described by a function of one row.

  * `mean y` and `var y` are a row's mean and (biased) variance, each a sum over the 256 channels divided by 256.
  * `gn y g be q` is the per-node normalisation `(y q - mean y) * rsqrt (var y + eps) * g q + be q`.
  * `inputRow` is the input projection: `y q = max (sum_k p k * W k q + b q) 0`, then `gn`.
  * `linearRow` is the dense linear map `sum_k x k * W k q`.
  * `aggRow` is the post-aggregation stage: `y q = h q + b q`, then `max (gn y g be q) 0 + x q`.

  The three float literals (256, eps = f32(1e-5), 0) are kept as their binary words: the same word stands on
  both sides of every equation below, so its value is never needed, except that the zero word is the real 0
  where it is the initial value of a sum.
-/
import Idealize.ShloMosaic.PureOps.Ideal
import Idealize.ShloMosaic.Lib.ValueIdx

noncomputable section

namespace Cert.Spec

open Idealize.ShloMosaic

/-- The literal 256.0 (the channel count the sums are divided by). -/
abbrev c256 : EReal := Ideal.ofBits .f32 0x43800000#32
/-- The literal f32(1e-5) added to the variance. -/
abbrev ceps : EReal := Ideal.ofBits .f32 0x3727C5AC#32
/-- The literal 0.0 the rectifier compares with. -/
abbrev czero : EReal := Ideal.ofBits .f32 0x00000000#32

/-- A row's mean over its 256 channels. -/
def mean (y : Fin 256 → EReal) : EReal := Ideal.div (∑ q : Fin 256, y q) c256

/-- A row's biased variance over its 256 channels. -/
def var (y : Fin 256 → EReal) : EReal := Ideal.div (∑ q : Fin 256, (y q - mean y) * (y q - mean y)) c256

/-- Per-node normalisation of a row, with per-channel scale `g` and shift `be`. -/
def gn (y g be : Fin 256 → EReal) (q : Fin 256) : EReal :=
  (y q - mean y) * Ideal.rsqrt (var y + ceps) * g q + be q

/-- The input projection of one node: a 3-vector `p` through `W`, bias `b`, rectifier, then `gn`. -/
def inputRow (p : Fin 3 → EReal) (W : Fin 3 → Fin 256 → EReal) (b g be : Fin 256 → EReal) (q : Fin 256) : EReal :=
  gn (fun q' => max ((∑ k : Fin 3, p k * W k q') + b q') czero) g be q

/-- The dense linear map of one node's row `x` through `W`. -/
def linearRow (x : Fin 256 → EReal) (W : Fin 256 → Fin 256 → EReal) (q : Fin 256) : EReal :=
  ∑ k : Fin 256, x k * W k q

/-- The post-aggregation stage of one node: aggregated row `h` plus bias `b`, `gn`, rectifier, plus the residual row `x`. -/
def aggRow (h x b g be : Fin 256 → EReal) (q : Fin 256) : EReal :=
  max (gn (fun q' => h q' + b q') g be q) czero + x q

end Cert.Spec

end
-- ==== Proof.LibRows.lean ====
/-
  Reading the keep-dims layout operations of a row-wise kernel at an index, for any extents m (rows) and n (lanes):

  * a [1, n] row broadcast down m rows reads, at (p, q), the row at (0, q);
  * an [m, 1] column broadcast across n lanes reads, at (p, q), the column at (p, 0);
  * an [m] vector cast to an [m, 1] column reads, at (p, 0), the vector at p;
  * the lane sum of an [m, n] block (a sum over axis 1 started from the zero word) reads, at p, the sum over the
    n lanes of row p.
-/
import Idealize.ShloMosaic.Lib.ValueIdx
import Idealize.ShloMosaic.Lib.Pipeline.Value
import Idealize.ShloMosaic.PureOps.Ideal.Laws

noncomputable section

namespace Cert.LibRows

open Idealize.ShloMosaic Idealize.ShloMosaic.ValueIdx

variable {α : Type}

/-- A [1, n] row broadcast down m rows, at (p, q): the row's entry q. -/
theorem broadcastTo_row_apply {m n : Nat} (hn : n ≠ 1) (x : (⟨2, ![1, n]⟩ : Shape).Idx → α)
    (h : (⟨2, ![1, n]⟩ : Shape).Broadcasts ⟨2, ![m, n]⟩) (p : Fin m) (q : Fin n) :
    broadcastTo ⟨2, ![m, n]⟩ x h (ix2 p q) = x (ix2 (0 : Fin 1) q) :=
  broadcastTo_apply x h (ix2 p q) (ix2 (0 : Fin 1) q) (fun a => match a with
    | ⟨0, _⟩ => by show (0 : Nat) = if (1 : Nat) = 1 then 0 else p.val; rw [if_pos rfl]
    | ⟨1, _⟩ => by show q.val = if n = 1 then 0 else q.val; rw [if_neg hn])

/-- An [m, 1] column broadcast across n lanes, at (p, q): the column's entry p. -/
theorem broadcastTo_col_apply {m n : Nat} (hm : m ≠ 1) (x : (⟨2, ![m, 1]⟩ : Shape).Idx → α)
    (h : (⟨2, ![m, 1]⟩ : Shape).Broadcasts ⟨2, ![m, n]⟩) (p : Fin m) (q : Fin n) :
    broadcastTo ⟨2, ![m, n]⟩ x h (ix2 p q) = x (ix2 p (0 : Fin 1)) :=
  broadcastTo_apply x h (ix2 p q) (ix2 p (0 : Fin 1)) (fun a => match a with
    | ⟨0, _⟩ => by show p.val = if m = 1 then 0 else p.val; rw [if_neg hm]
    | ⟨1, _⟩ => by show (0 : Nat) = if (1 : Nat) = 1 then 0 else q.val; rw [if_pos rfl])

/-- An [m] vector cast to an [m, 1] column, at (p, u): the vector's entry p. -/
theorem shapeCast_col_apply {m : Nat} (x : (⟨1, ![m]⟩ : Shape).Idx → α)
    (h : (⟨1, ![m]⟩ : Shape).ShapeCasts ⟨2, ![m, 1]⟩) (p : Fin m) (u : Fin 1) :
    shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The lane sum of an [m, n] block started from the zero word, at p: the sum of row p's n entries. -/
theorem laneSum_apply {m n : Nat} (v : FVec Ideal (⟨2, ![m, n]⟩ : Shape) .f32)
    (h : (⟨2, ![m, n]⟩ : Shape).Reduces [(1 : Fin 2)] ⟨1, ![m]⟩) (hφ : FTy.f32 = FTy.f32 ∨ FTy.f32 = FTy.bf16)
    (hacc : (0x00000000#32 : BitVec FTy.f32.bits) = 0x00000000#32) (p : Fin m) :
    multiReduction .add [(1 : Fin 2)] ⟨1, ![m]⟩ v 0x00000000#32 h hφ hacc (ix1 p) = ∑ k : Fin n, v (ix2 p k) := by
  refine (Ideal.multiReduction_add_single v 0x00000000#32 h hφ hacc (ix1 p)).trans ?_
  refine Finset.sum_congr rfl fun k _ => congrArg v ?_
  funext a
  match a with
  | ⟨0, _⟩ => rfl
  | ⟨1, _⟩ => rfl

end Cert.LibRows

end
-- ==== Proof.PayInput.lean ====
/-
  The input projection, one block: the body's stored value at row p, channel q of a 2000-row block.
  With y q' = max (sum_k pos (p, k) * W (k, q') + b q') 0 the projected, biased and rectified row, the body takes
  the row's mean and variance by two lane sums divided by 256, normalises, and scales and shifts per channel.
  The product contracts the 3 position coordinates; rounding its operands to bf16 is the identity on extended
  reals, and it is accumulated into a zero block.
-/
import proofs.«166986_j16578573762731_1_alg».proof.Proof.Gen.KernelIdeal.Skeleton
import proofs.«166986_j16578573762731_1_alg».proof.Proof.Spec
import proofs.«166986_j16578573762731_1_alg».proof.Proof.LibRows
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.LibRows

abbrev dIn : DotDims S2000x3 S3x256 S2000x256 := dot_S2000x3_S3x256_S2000x256_1_0_0_1_n_n

theorem in_lhs0 (i : S2000x256.Idx) (k : dIn.contr.Idx) : (dIn.lhsIdx i k 0).val = (i 0).val := by
  unfold DotDims.lhsIdx
  rw [dif_neg (show ¬(0 : Fin S2000x3.rank) ∈ dIn.lhsBatch by decide), dif_pos (show (0 : Fin S2000x3.rank) ∈ dIn.lhsNonContracting by decide)]
  rfl
theorem in_lhs1 (i : S2000x256.Idx) (k : dIn.contr.Idx) : (dIn.lhsIdx i k 1).val = (k ⟨0, by decide⟩).val :=
  dIn.lhsIdx_val_of_single rfl i k
theorem in_rhs0 (i : S2000x256.Idx) (k : dIn.contr.Idx) : (dIn.rhsIdx i k 0).val = (k ⟨0, by decide⟩).val :=
  dIn.rhsIdx_val_of_single rfl i k
theorem in_rhs1 (i : S2000x256.Idx) (k : dIn.contr.Idx) : (dIn.rhsIdx i k 1).val = (i 1).val := by
  unfold DotDims.rhsIdx
  rw [dif_neg (show ¬(1 : Fin S3x256.rank) ∈ dIn.rhsBatch by decide), dif_pos (show (1 : Fin S3x256.rank) ∈ dIn.rhsNonContracting by decide)]
  rfl

/-- The 2000 x 3 by 3 x 256 product into a zero block, at (p, q): the sum over the 3 contracted coordinates. -/
theorem in_matmul (a : FVec Ideal S2000x3 .bf16) (b : FVec Ideal S3x256 .bf16) (p : Fin 2000) (q : Fin 256) :
    matmul dot_S2000x3_S3x256_S2000x256_1_0_0_1_n_n none a b (constant S2000x256 .f32 0x00000000#32) (ix2 p q)
      = ∑ k : Fin 3, a (ix2 p k) * b (ix2 k q) := by
  show FloatOps.matmul dIn none a b (constant S2000x256 .f32 0x00000000#32) (ix2 p q) = _
  rw [Ideal.matmul_constant_zero_apply, ← Equiv.sum_comp (contrEquiv1 dIn 3 rfl rfl).symm]
  refine Finset.sum_congr rfl fun k _ => ?_
  have hk := contrEquiv1_symm_val dIn 3 rfl rfl k
  have el : dIn.lhsIdx (ix2 p q) ((contrEquiv1 dIn 3 rfl rfl).symm k) = ix2 p k := funext fun a => Fin.ext (by
    match a with
    | ⟨0, _⟩ => exact in_lhs0 _ _
    | ⟨1, _⟩ => exact (in_lhs1 _ _).trans hk)
  have er : dIn.rhsIdx (ix2 p q) ((contrEquiv1 dIn 3 rfl rfl).symm k) = ix2 k q := funext fun a => Fin.ext (by
    match a with
    | ⟨0, _⟩ => exact (in_rhs0 _ _).trans hk
    | ⟨1, _⟩ => exact in_rhs1 _ _)
  rw [el, er]

/-- The input projection's stored block at (p, q) is `inputRow` of row p of the position block, the weights, and
    the three parameter rows. -/
theorem input_pay (x0 : Vec Ideal S2000x3 .f32) (W : Vec Ideal S3x256 .f32) (b g be : Vec Ideal S1x256 .f32)
    (p : Fin 2000) (q : Fin 256) :
    k0_pay1 (F := Ideal) x0 W b g be (ix2 p q)
      = Cert.Spec.inputRow (fun k => x0 (ix2 p k)) (fun k q' => W (ix2 k q')) (fun k => b (ix2 (0 : Fin 1) k))
          (fun k => g (ix2 (0 : Fin 1) k)) (fun k => be (ix2 (0 : Fin 1) k)) q := by
  unfold k0_pay1
  simp only [shapeCast_self, addf, mulf, subf, maximumf, divf, rsqrt, broadcast,
    broadcastTo_row_apply (m := 2000) (n := 256) (by decide), broadcastTo_col_apply (m := 2000) (n := 256) (by decide),
    shapeCast_col_apply, laneSum_apply (m := 2000) (n := 256), in_matmul, truncf, Ideal.truncf_def,
    Cert.Spec.inputRow, Cert.Spec.gn, Cert.Spec.mean, Cert.Spec.var,
    Ideal.addf_def, Ideal.subf_def, Ideal.mulf_def, Ideal.divf_def, Ideal.maximumf_def, Ideal.rsqrt_def, Ideal.ofBits_def]

end Cert.KernelIdeal.Pay

end
-- ==== Proof.Final0.lean ====
/-
  Region 0 (the input projection): from what each grid point writes back to the whole output array.

  The grid has 25 points; point t handles rows 2000·t … 2000·t + 1999 of every node-indexed array, and reads the
  parameter arrays whole.  So what point t writes back is rows 2000·t … of ONE function of the arrays as the region
  finds them — the per-row function of Spec.lean at the row's own entries — and, the 25 row blocks tiling the 50000
  rows, the output array ends at that function everywhere.
  (The steps — the index maps decided over the grid, a block's coordinate as index × size + offset, membership in a
  block, the cover — are those of a pointwise kernel's closed form; here an entry depends on its whole row.)
-/
import proofs.«166986_j16578573762731_1_alg».proof.Proof.Gen.KernelIdeal.Frame
import proofs.«166986_j16578573762731_1_alg».proof.Proof.PayInput
import Idealize.ShloMosaic.Lib.ValueIdx
import Idealize.ShloMosaic.Lib.Pipeline.Value

set_option maxRecDepth 16384

noncomputable section

namespace Cert.KernelIdeal.Final0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- An index's row and channel as numbers below the literal extents. -/
abbrev rowOf (i : S50000x256.Idx) : Fin 50000 := ⟨(i 0).val, (i 0).isLt⟩
abbrev colOf (i : S50000x256.Idx) : Fin 256 := ⟨(i 1).val, (i 1).isLt⟩

/-- The stage as ONE function of the arrays the region finds: entry (r, q) from row r of the node-indexed inputs. -/
def G (c : Dev nD) : S50000x256.Idx → EReal := fun i =>
  Cert.Spec.inputRow (fun k => V c main_arg0 (ix2 (rowOf i) k)) (fun k q' => V c main_arg3 (ix2 k q'))
    (fun q' => V c main_v32 (ix2 (0 : Fin 1) q')) (fun q' => V c main_v33 (ix2 (0 : Fin 1) q')) (fun q' => V c main_v34 (ix2 (0 : Fin 1) q')) (colOf i)

/-- The printed index maps, decided over the 25 grid points: node-indexed windows move with the output's row block,
    parameter windows stay at block 0. -/
theorem idx_facts : ∀ t : Fin cfg0.N, win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every row block is some point's. -/
theorem idx_onto : ∀ q0 : Fin 25, ∃ t : Fin cfg0.N, win0_5.index t = ![q0.val, 0] :=
  (by decide +kernel : ∀ q0 : Fin 25, ∃ t : Fin grid0.N, win0_5.index t = ![q0.val, 0])

/-- WHAT POINT t WRITES BACK is block t of `G`. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 (F := Ideal) V c).after 5 t) = _
  rw [after0_5]
  unfold out0_5
  rw [View.canon_unit_zero hz]
  simp only [View.ld_unit_zero (S := S2000x3) hz, View.ld_unit_zero (S := S3x256) hz, View.ld_unit_zero (S := S1x256) hz]
  obtain ⟨e00, e01, e10, e11, e20, e21, e30, e31, e40, e41, e51⟩ := idx_facts t
  funext j
  obtain ⟨p, q, rfl⟩ : ∃ (p : Fin 2000) (q : Fin 256), j = ix2 p q := ⟨j 0, j 1, eq_ix2 j⟩
  show k0_pay1 (iblk0 V c 0 t) (iblk0 V c 1 t) (iblk0 V c 2 t) (iblk0 V c 3 t) (iblk0 V c 4 t) (ix2 p q) = G V c (((cfg0.win 5).blk t).view.emb (ix2 p q))
  refine (Cert.KernelIdeal.Pay.input_pay (iblk0 V c 0 t) (iblk0 V c 1 t) (iblk0 V c 2 t) (iblk0 V c 3 t) (iblk0 V c 4 t) p q).trans ?_
  unfold G
  have r0 : ∀ k : Fin 3, iblk0 V c 0 t (ix2 p k) = V c main_arg0 (ix2 (rowOf (((cfg0.win 5).blk t).view.emb (ix2 p q))) k) := fun k => by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_5.index t (0 : Fin 2) * 2000 + 1 * p.val; omega
    | ⟨1, _⟩ => show win0_0.index t (1 : Fin 2) * 3 + 1 * k.val = k.val; omega
  have r1 : ∀ (k : Fin 3) (q' : Fin 256), iblk0 V c 1 t (ix2 k q') = V c main_arg3 (ix2 k q') := fun k q' => by
    show V c main_arg3 (((cfg0.win 1).blk t).view.emb (ix2 k q')) = _
    refine congrArg (V c main_arg3) (funext fun a => Fin.ext ?_)
    match a with
    | ⟨0, _⟩ => show win0_1.index t (0 : Fin 2) * 3 + 1 * k.val = k.val; omega
    | ⟨1, _⟩ => show win0_1.index t (1 : Fin 2) * 256 + 1 * q'.val = q'.val; omega
  have r2 : ∀ (k : Fin 1) (q' : Fin 256), iblk0 V c 2 t (ix2 k q') = V c main_v32 (ix2 k q') := fun k q' => by
    show V c main_v32 (((cfg0.win 2).blk t).view.emb (ix2 k q')) = _
    refine congrArg (V c main_v32) (funext fun a => Fin.ext ?_)
    match a with
    | ⟨0, _⟩ => show win0_2.index t (0 : Fin 2) * 1 + 1 * k.val = k.val; omega
    | ⟨1, _⟩ => show win0_2.index t (1 : Fin 2) * 256 + 1 * q'.val = q'.val; omega
  have r3 : ∀ (k : Fin 1) (q' : Fin 256), iblk0 V c 3 t (ix2 k q') = V c main_v33 (ix2 k q') := fun k q' => by
    show V c main_v33 (((cfg0.win 3).blk t).view.emb (ix2 k q')) = _
    refine congrArg (V c main_v33) (funext fun a => Fin.ext ?_)
    match a with
    | ⟨0, _⟩ => show win0_3.index t (0 : Fin 2) * 1 + 1 * k.val = k.val; omega
    | ⟨1, _⟩ => show win0_3.index t (1 : Fin 2) * 256 + 1 * q'.val = q'.val; omega
  have r4 : ∀ (k : Fin 1) (q' : Fin 256), iblk0 V c 4 t (ix2 k q') = V c main_v34 (ix2 k q') := fun k q' => by
    show V c main_v34 (((cfg0.win 4).blk t).view.emb (ix2 k q')) = _
    refine congrArg (V c main_v34) (funext fun a => Fin.ext ?_)
    match a with
    | ⟨0, _⟩ => show win0_4.index t (0 : Fin 2) * 1 + 1 * k.val = k.val; omega
    | ⟨1, _⟩ => show win0_4.index t (1 : Fin 2) * 256 + 1 * q'.val = q'.val; omega
  have hq : colOf (((cfg0.win 5).blk t).view.emb (ix2 p q)) = q := Fin.ext (by
    show win0_5.index t (1 : Fin 2) * 256 + 1 * q.val = q.val; omega)
  rw [hq]
  simp only [r0, r1, r2, r3, r4]

/-- An index of the array is in point t's block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v35).slice (win0_5.rect t)).set ↔ _
  rw [View.set_slice_whole, Rect.mem_set_unit]
  exact Iff.rfl

/-- Every index is in the block of the point that handles its row: point (row / 2000). -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE OUTPUT ARRAY after the region: `G` of the arrays the region found. -/
theorem final (c : Dev nD) : (dat0 (F := Ideal) V c).arrAt 5 cfg0.N = G V c :=
  (dat0 (F := Ideal) V c).arrAt_eq_of_cover 5 (G V c) (fun t _ => flushed_eq V c t) cover

end Cert.KernelIdeal.Final0

end
-- ==== Proof.RefInput.lean ====
/-
  The reference's input projection read at one node's row.  With
  y q' = max (sum_k pos (r, k) * W (k, q') + b q') 0 the projected, biased and rectified row of node r, the host
  program takes the row's mean and variance by two row sums (each started from the zero word, which is the real 0)
  divided by 256, subtracts the mean, multiplies by rsqrt (variance + eps), and scales and shifts per channel.
  Every broadcast of a per-node column across the channels, or of a per-channel row down the nodes, is read at
  the index it copies from.
-/
import proofs.«166986_j16578573762731_1_alg».proof.Proof.RefRead
import proofs.«166986_j16578573762731_1_alg».proof.Proof.Spec
import Idealize.ShloMosaic.Lib.ValueIdx
import Idealize.ShloMosaic.Lib.Pipeline.Value
import Idealize.ShloMosaic.PureOps.Ideal.Laws

noncomputable section

namespace Cert.ReferenceIdeal.RefRows

open Idealize.ShloMosaic Idealize.ShloMosaic.ValueIdx Cert.ReferenceIdeal Cert.ReferenceIdeal.ReadP

variable (x0 : (⟨S50000x3, .f32⟩ : BufTy).Contents (Elt Ideal)) (x3 : (⟨S3x256, .f32⟩ : BufTy).Contents (Elt Ideal))
  (x4 x5 x6 : (⟨S256, .f32⟩ : BufTy).Contents (Elt Ideal))

/-- The projected, biased and rectified value at node r, channel k. -/
theorem input_y (r : Fin 50000) (k : Fin 256) :
    val_main_v36 (F := Ideal) x0 x3 x4 (ix2 r k)
      = max ((∑ j : Fin 3, x0 (ix2 r j) * x3 (ix2 j k)) + x4 (ix1 k)) Cert.Spec.czero := by
  have e0 : ∀ j : Fin 3, x0 (lidx_main_v32 (ix2 r k) j) = x0 (ix2 r j) := fun j =>
    congrArg x0 (funext fun a => Fin.ext (by match a with | ⟨0, _⟩ => rfl | ⟨1, _⟩ => rfl))
  have e3 : ∀ j : Fin 3, x3 (ridx_main_v32 (ix2 r k) j) = x3 (ix2 j k) := fun j =>
    congrArg x3 (funext fun a => Fin.ext (by match a with | ⟨0, _⟩ => rfl | ⟨1, _⟩ => rfl))
  have e4 : x4 (idx_main_v33 (idx_main_v34 (ix2 r k))) = x4 (ix1 k) :=
    congrArg x4 (funext fun a => Fin.ext (by match a with | ⟨0, _⟩ => rfl))
  rw [val_main_v36_apply, val_main_v35_apply, val_main_v34_apply, val_main_v33_apply, val_main_v32_apply,
    val_main_call1_v0_apply, val_main_call1_cst_apply, e4]
  simp only [e0, e3, Ideal.maximumf_def, Ideal.addf_def, Ideal.ofBits_def]

/-- The mean column at node r is the mean of the rectified row. -/
theorem input_mean (r : Fin 50000) (u : Fin 1) :
    val_main_v40 (F := Ideal) x0 x3 x4 (ix2 r u)
      = Cert.Spec.mean (fun k => val_main_v36 (F := Ideal) x0 x3 x4 (ix2 r k)) := by
  have e : ∀ k : Fin 256, val_main_v36 (F := Ideal) x0 x3 x4 (idx_main_v37 (idx_main_v38 (ix2 r u)) k)
      = val_main_v36 (F := Ideal) x0 x3 x4 (ix2 r k) := fun k =>
    congrArg _ (funext fun a => Fin.ext (by match a with | ⟨0, _⟩ => rfl | ⟨1, _⟩ => rfl))
  rw [val_main_v40_apply, val_main_v38_apply, val_main_v37_apply, val_main_v39_apply, val_main_cst_8_apply,
    val_main_cst_7_apply]
  simp only [e, Ideal.hostDivf_def, Ideal.ofBits_def, Ideal.ofBits_zero_f32, zero_add, Cert.Spec.mean]

/-- The variance column at node r is the variance of the rectified row. -/
theorem input_var (r : Fin 50000) (u : Fin 1) :
    val_main_v47 (F := Ideal) x0 x3 x4 (ix2 r u)
      = Cert.Spec.var (fun k => val_main_v36 (F := Ideal) x0 x3 x4 (ix2 r k)) := by
  have e : ∀ k : Fin 256, val_main_v43 (F := Ideal) x0 x3 x4 (idx_main_v44 (idx_main_v45 (ix2 r u)) k)
      = val_main_v43 (F := Ideal) x0 x3 x4 (ix2 r k) := fun k =>
    congrArg _ (funext fun a => Fin.ext (by match a with | ⟨0, _⟩ => rfl | ⟨1, _⟩ => rfl))
  have em : ∀ k : Fin 256, val_main_v41 (F := Ideal) x0 x3 x4 (ix2 r k)
      = Cert.Spec.mean (fun k => val_main_v36 (F := Ideal) x0 x3 x4 (ix2 r k)) := fun k =>
    (val_main_v41_apply x0 x3 x4 (ix2 r k)).trans
      ((congrArg _ (funext fun a => Fin.ext (by match a with | ⟨0, _⟩ => rfl | ⟨1, _⟩ => rfl))).trans
        (input_mean x0 x3 x4 r (0 : Fin 1)))
  rw [val_main_v47_apply, val_main_v45_apply, val_main_v44_apply, val_main_v46_apply, val_main_cst_10_apply,
    val_main_cst_9_apply]
  simp only [e, val_main_v43_apply, val_main_v42_apply, em, Ideal.hostDivf_def, Ideal.mulf_def, Ideal.subf_def,
    Ideal.ofBits_def, Ideal.ofBits_zero_f32, zero_add, Cert.Spec.var]

/-- The input projection of the reference at node r, channel q is `inputRow` of the node's 3 coordinates, the
    weights, and the three parameter rows. -/
theorem input_row (r : Fin 50000) (q : Fin 256) :
    val_main_v60 (F := Ideal) x0 x3 x4 x5 x6 (ix2 r q)
      = Cert.Spec.inputRow (fun k => x0 (ix2 r k)) (fun k q' => x3 (ix2 k q')) (fun q' => x4 (ix1 q'))
          (fun q' => x5 (ix1 q')) (fun q' => x6 (ix1 q')) q := by
  have em : val_main_v48 (F := Ideal) x0 x3 x4 (ix2 r q)
      = Cert.Spec.mean (fun k => val_main_v36 (F := Ideal) x0 x3 x4 (ix2 r k)) :=
    (val_main_v48_apply x0 x3 x4 (ix2 r q)).trans
      ((congrArg _ (funext fun a => Fin.ext (by match a with | ⟨0, _⟩ => rfl | ⟨1, _⟩ => rfl))).trans
        (input_mean x0 x3 x4 r (0 : Fin 1)))
  have ev : val_main_v47 (F := Ideal) x0 x3 x4 (idx_main_v53 (ix2 r q))
      = Cert.Spec.var (fun k => val_main_v36 (F := Ideal) x0 x3 x4 (ix2 r k)) :=
    (congrArg _ (funext fun a => Fin.ext (by match a with | ⟨0, _⟩ => rfl | ⟨1, _⟩ => rfl))).trans
      (input_var x0 x3 x4 r (0 : Fin 1))
  have e5 : x5 (idx_main_v55 (idx_main_v56 (ix2 r q))) = x5 (ix1 q) :=
    congrArg x5 (funext fun a => Fin.ext (by match a with | ⟨0, _⟩ => rfl))
  have e6 : x6 (idx_main_v58 (idx_main_v59 (ix2 r q))) = x6 (ix1 q) :=
    congrArg x6 (funext fun a => Fin.ext (by match a with | ⟨0, _⟩ => rfl))
  rw [val_main_v60_apply, val_main_v59_apply, val_main_v58_apply, val_main_v57_apply, val_main_v56_apply,
    val_main_v55_apply, val_main_v54_apply, val_main_v53_apply, val_main_v52_apply, val_main_v51_apply,
    val_main_v50_apply, val_main_cst_11_apply, val_main_v49_apply, em, ev, e5, e6]
  simp only [input_y, Ideal.addf_def, Ideal.mulf_def, Ideal.subf_def, Ideal.hostUnary_rsqrt_def, Ideal.ofBits_def,
    Cert.Spec.inputRow, Cert.Spec.gn]

end Cert.ReferenceIdeal.RefRows

end
-- ==== Proof.GlueIn.lean ====
/-
  Region 0 of the idealized kernel program: the input projection's output at boundary 4.

  The region finds the positions and projection weights as launched and the three parameter vectors laid as rows;
  row by row it computes what the reference's first dense stage computes, so its output array is that stage.
-/
import proofs.«166986_j16578573762731_1_alg».proof.Proof.Gen.KernelIdeal.Frame
import proofs.«166986_j16578573762731_1_alg».proof.Proof.GlueKeep
import proofs.«166986_j16578573762731_1_alg».proof.Proof.GluePre
import proofs.«166986_j16578573762731_1_alg».proof.Proof.Final0
import proofs.«166986_j16578573762731_1_alg».proof.Proof.RefRead
import proofs.«166986_j16578573762731_1_alg».proof.Proof.RefInput
import Idealize.ShloMosaic.Lib.Pipeline.Value
import Idealize.ShloMosaic.Lib.ValueIdx
import Idealize.ShloMosaic.Lib.ValueLayout

set_option maxRecDepth 16384

noncomputable section

namespace Cert.KernelIdeal.GlueIn

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)
local notation "a16" => m ((c : Thread nD τ).loc main_arg16)

/-- The input projection's output: the first node features. -/
theorem x0 : W4 m ρ c (Proc.devRef .tc main_v35) = Cert.ReferenceIdeal.ReadP.val_main_v60 (F := Ideal) a0 a3 a4 a5 a6 := by
  refine (W4_arr m ρ c 5).trans ((Cert.KernelIdeal.Final0.final (V3 m ρ) c).trans ?_)
  funext i
  obtain ⟨r, q, rfl⟩ : ∃ (r : Fin 50000) (q : Fin 256), i = ix2 r q := ⟨i 0, i 1, eq_ix2 i⟩
  rw [Cert.ReferenceIdeal.RefRows.input_row]
  show Cert.Spec.inputRow (fun k => V3 m ρ c main_arg0 (ix2 r k)) (fun k q' => V3 m ρ c main_arg3 (ix2 k q')) (fun q' => V3 m ρ c main_v32 (ix2 (0 : Fin 1) q')) (fun q' => V3 m ρ c main_v33 (ix2 (0 : Fin 1) q')) (fun q' => V3 m ρ c main_v34 (ix2 (0 : Fin 1) q')) q = _
  have e1 : V3 m ρ c main_arg0 = a0 := Cert.KernelIdeal.GluePre.w3_arg0 m ρ c
  have e2 : V3 m ρ c main_arg3 = a3 := Cert.KernelIdeal.GluePre.w3_arg3 m ρ c
  have e3 : V3 m ρ c main_v32 = shapeCast S1x256 a4 shapeCasts_S256_S1x256 := Cert.KernelIdeal.GluePre.w3_v32 m ρ c
  have e4 : V3 m ρ c main_v33 = shapeCast S1x256 a5 shapeCasts_S256_S1x256 := Cert.KernelIdeal.GluePre.w3_v33 m ρ c
  have e5 : V3 m ρ c main_v34 = shapeCast S1x256 a6 shapeCasts_S256_S1x256 := Cert.KernelIdeal.GluePre.w3_v34 m ρ c
  rw [e1, e2, e3, e4, e5]
  simp only [shapeCast_a_1a_apply]

end Cert.KernelIdeal.GlueIn

end
-- ==== Proof.PayLinear.lean ====
/-
  The dense linear stage, one block: the body's stored value at row p, channel q of a 2000-row block is the
  sum over k of the block's row p times column q of the weight matrix.  Rounding both operands to bf16 on the
  way into the product is the identity on extended reals, and the product is accumulated into a zero block.
-/
import proofs.«166986_j16578573762731_1_alg».proof.Proof.Gen.KernelIdeal.Skeleton
import proofs.«166986_j16578573762731_1_alg».proof.Proof.Spec
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

abbrev dLin : DotDims S2000x256 S256x256 S2000x256 := dot_S2000x256_S256x256_S2000x256_1_0_0_1_n_n

theorem lin_lhs0 (i : S2000x256.Idx) (k : dLin.contr.Idx) : (dLin.lhsIdx i k 0).val = (i 0).val := by
  unfold DotDims.lhsIdx
  rw [dif_neg (show ¬(0 : Fin S2000x256.rank) ∈ dLin.lhsBatch by decide), dif_pos (show (0 : Fin S2000x256.rank) ∈ dLin.lhsNonContracting by decide)]
  rfl
theorem lin_lhs1 (i : S2000x256.Idx) (k : dLin.contr.Idx) : (dLin.lhsIdx i k 1).val = (k ⟨0, by decide⟩).val :=
  dLin.lhsIdx_val_of_single rfl i k
theorem lin_rhs0 (i : S2000x256.Idx) (k : dLin.contr.Idx) : (dLin.rhsIdx i k 0).val = (k ⟨0, by decide⟩).val :=
  dLin.rhsIdx_val_of_single rfl i k
theorem lin_rhs1 (i : S2000x256.Idx) (k : dLin.contr.Idx) : (dLin.rhsIdx i k 1).val = (i 1).val := by
  unfold DotDims.rhsIdx
  rw [dif_neg (show ¬(1 : Fin S256x256.rank) ∈ dLin.rhsBatch by decide), dif_pos (show (1 : Fin S256x256.rank) ∈ dLin.rhsNonContracting by decide)]
  rfl

/-- The 2000 x 256 by 256 x 256 product into a zero block, at (p, q): the sum over the 256 contracted channels. -/
theorem lin_matmul (a : FVec Ideal S2000x256 .bf16) (b : FVec Ideal S256x256 .bf16) (p : Fin 2000) (q : Fin 256) :
    matmul dLin none a b (constant S2000x256 .f32 0x00000000#32) (ix2 p q)
      = ∑ k : Fin 256, a (ix2 p k) * b (ix2 k q) := by
  show FloatOps.matmul dLin none a b (constant S2000x256 .f32 0x00000000#32) (ix2 p q) = _
  rw [Ideal.matmul_constant_zero_apply, ← Equiv.sum_comp (contrEquiv1 dLin 256 rfl rfl).symm]
  refine Finset.sum_congr rfl fun k _ => ?_
  have hk := contrEquiv1_symm_val dLin 256 rfl rfl k
  have el : dLin.lhsIdx (ix2 p q) ((contrEquiv1 dLin 256 rfl rfl).symm k) = ix2 p k := funext fun a => Fin.ext (by
    match a with
    | ⟨0, _⟩ => exact lin_lhs0 _ _
    | ⟨1, _⟩ => exact (lin_lhs1 _ _).trans hk)
  have er : dLin.rhsIdx (ix2 p q) ((contrEquiv1 dLin 256 rfl rfl).symm k) = ix2 k q := funext fun a => Fin.ext (by
    match a with
    | ⟨0, _⟩ => exact (lin_rhs0 _ _).trans hk
    | ⟨1, _⟩ => exact lin_rhs1 _ _)
  rw [el, er]

/-- The linear stage's stored block at (p, q) is `linearRow` of the input block's row p and the weights. -/
theorem linear_pay (x0 : Vec Ideal S2000x256 .f32) (x1 : Vec Ideal S256x256 .f32) (p : Fin 2000) (q : Fin 256) :
    k1_pay1 (F := Ideal) x0 x1 (ix2 p q)
      = Cert.Spec.linearRow (fun k => x0 (ix2 p k)) (fun k q' => x1 (ix2 k q')) q := by
  unfold k1_pay1
  rw [lin_matmul]
  simp only [shapeCast_self]
  rfl

end Cert.KernelIdeal.Pay

end
-- ==== Proof.Final1.lean ====
/-
  Region 1 (a dense linear map): from what each grid point writes back to the whole output array.

  The grid has 25 points; point t handles rows 2000·t … 2000·t + 1999 of every node-indexed array, and reads the
  parameter arrays whole.  So what point t writes back is rows 2000·t … of ONE function of the arrays as the region
  finds them — the per-row function of Spec.lean at the row's own entries — and, the 25 row blocks tiling the 50000
  rows, the output array ends at that function everywhere.
  (The steps — the index maps decided over the grid, a block's coordinate as index × size + offset, membership in a
  block, the cover — are those of a pointwise kernel's closed form; here an entry depends on its whole row.)
-/
import proofs.«166986_j16578573762731_1_alg».proof.Proof.Gen.KernelIdeal.Frame
import proofs.«166986_j16578573762731_1_alg».proof.Proof.PayLinear
import Idealize.ShloMosaic.Lib.ValueIdx
import Idealize.ShloMosaic.Lib.Pipeline.Value

set_option maxRecDepth 16384

noncomputable section

namespace Cert.KernelIdeal.Final1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- An index's row and channel as numbers below the literal extents. -/
abbrev rowOf (i : S50000x256.Idx) : Fin 50000 := ⟨(i 0).val, (i 0).isLt⟩
abbrev colOf (i : S50000x256.Idx) : Fin 256 := ⟨(i 1).val, (i 1).isLt⟩

/-- The stage as ONE function of the arrays the region finds: entry (r, q) from row r of the node-indexed inputs. -/
def G (c : Dev nD) : S50000x256.Idx → EReal := fun i =>
  Cert.Spec.linearRow (fun k => V c main_v35 (ix2 (rowOf i) k)) (fun k q' => V c main_v37 (ix2 k q')) (colOf i)

/-- The printed index maps, decided over the 25 grid points: node-indexed windows move with the output's row block,
    parameter windows stay at block 0. -/
theorem idx_facts : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 :=
  (by decide +kernel : ∀ t : Fin grid1.N, _)

/-- Every row block is some point's. -/
theorem idx_onto : ∀ q0 : Fin 25, ∃ t : Fin cfg1.N, win1_2.index t = ![q0.val, 0] :=
  (by decide +kernel : ∀ q0 : Fin 25, ∃ t : Fin grid1.N, win1_2.index t = ![q0.val, 0])

/-- WHAT POINT t WRITES BACK is block t of `G`. -/
theorem flushed_eq (c : Dev nD) (t : Fin cfg1.N) :
    (dat1 (F := Ideal) V c).flushed 2 t = ((cfg1.win 2).blk t).view.read (Elt Ideal) (G V c) := by
  show (cfg1.win 2).cut (grid1.coords t) ((dat1 (F := Ideal) V c).after 2 t) = _
  rw [after1_2]
  unfold out1_2
  rw [View.canon_unit_zero hz]
  simp only [View.ld_unit_zero (S := S2000x256) hz, View.ld_unit_zero (S := S256x256) hz]
  obtain ⟨e00, e01, e10, e11, e21⟩ := idx_facts t
  funext j
  obtain ⟨p, q, rfl⟩ : ∃ (p : Fin 2000) (q : Fin 256), j = ix2 p q := ⟨j 0, j 1, eq_ix2 j⟩
  show k1_pay1 (iblk1 V c 0 t) (iblk1 V c 1 t) (ix2 p q) = G V c (((cfg1.win 2).blk t).view.emb (ix2 p q))
  refine (Cert.KernelIdeal.Pay.linear_pay (iblk1 V c 0 t) (iblk1 V c 1 t) p q).trans ?_
  unfold G
  have r0 : ∀ k : Fin 256, iblk1 V c 0 t (ix2 p k) = V c main_v35 (ix2 (rowOf (((cfg1.win 2).blk t).view.emb (ix2 p q))) k) := fun k => by
    show V c main_v35 (((cfg1.win 0).blk t).view.emb (ix2 p k)) = _
    refine congrArg (V c main_v35) (funext fun a => Fin.ext ?_)
    match a with
    | ⟨0, _⟩ => show win1_0.index t (0 : Fin 2) * 2000 + 1 * p.val = win1_2.index t (0 : Fin 2) * 2000 + 1 * p.val; omega
    | ⟨1, _⟩ => show win1_0.index t (1 : Fin 2) * 256 + 1 * k.val = k.val; omega
  have r1 : ∀ (k : Fin 256) (q' : Fin 256), iblk1 V c 1 t (ix2 k q') = V c main_v37 (ix2 k q') := fun k q' => by
    show V c main_v37 (((cfg1.win 1).blk t).view.emb (ix2 k q')) = _
    refine congrArg (V c main_v37) (funext fun a => Fin.ext ?_)
    match a with
    | ⟨0, _⟩ => show win1_1.index t (0 : Fin 2) * 256 + 1 * k.val = k.val; omega
    | ⟨1, _⟩ => show win1_1.index t (1 : Fin 2) * 256 + 1 * q'.val = q'.val; omega
  have hq : colOf (((cfg1.win 2).blk t).view.emb (ix2 p q)) = q := Fin.ext (by
    show win1_2.index t (1 : Fin 2) * 256 + 1 * q.val = q.val; omega)
  rw [hq]
  simp only [r0, r1]

/-- An index of the array is in point t's block iff each coordinate is in the block's range on its axis. -/
theorem mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v38).slice (win1_2.rect t)).set ↔ _
  rw [View.set_slice_whole, Rect.mem_set_unit]
  exact Iff.rfl

/-- Every index is in the block of the point that handles its row: point (row / 2000). -/
theorem cover (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- THE OUTPUT ARRAY after the region: `G` of the arrays the region found. -/
theorem final (c : Dev nD) : (dat1 (F := Ideal) V c).arrAt 2 cfg1.N = G V c :=
  (dat1 (F := Ideal) V c).arrAt_eq_of_cover 2 (G V c) (fun t _ => flushed_eq V c t) cover

end Cert.KernelIdeal.Final1

end
-- ==== Proof.PayAgg.lean ====
/-
  The post-aggregation stage, one block: the body's stored value at row p, channel q of a 2000-row block.
  With y q' = h (p, q') + b q' the row of aggregated messages plus bias, the body takes the row's mean and
  variance by two lane sums divided by 256, normalises, scales and shifts per channel, rectifies, and adds
  the residual block's entry (p, q).  Each keep-dims step (sum to a column, broadcast of the column back
  across the lanes, broadcast of a parameter row down the rows) is read at the index.
-/
import proofs.«166986_j16578573762731_1_alg».proof.Proof.Gen.KernelIdeal.Skeleton
import proofs.«166986_j16578573762731_1_alg».proof.Proof.Spec
import proofs.«166986_j16578573762731_1_alg».proof.Proof.LibRows
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.LibRows

/-- The post-aggregation body's stored block at (p, q) is `aggRow` of row p of the aggregated block, row p of the
    residual block, and the three parameter rows. -/
theorem agg_pay (x0 : Vec Ideal S2000x256 .f32) (b g be : Vec Ideal S1x256 .f32) (x4 : Vec Ideal S2000x256 .f32)
    (p : Fin 2000) (q : Fin 256) :
    k2_pay1 (F := Ideal) x0 b g be x4 (ix2 p q)
      = Cert.Spec.aggRow (fun k => x0 (ix2 p k)) (fun k => x4 (ix2 p k)) (fun k => b (ix2 (0 : Fin 1) k))
          (fun k => g (ix2 (0 : Fin 1) k)) (fun k => be (ix2 (0 : Fin 1) k)) q := by
  unfold k2_pay1
  simp only [shapeCast_self, addf, mulf, subf, maximumf, divf, rsqrt, broadcast,
    broadcastTo_row_apply (m := 2000) (n := 256) (by decide), broadcastTo_col_apply (m := 2000) (n := 256) (by decide),
    shapeCast_col_apply, laneSum_apply (m := 2000) (n := 256),
    Cert.Spec.aggRow, Cert.Spec.gn, Cert.Spec.mean, Cert.Spec.var,
    Ideal.addf_def, Ideal.subf_def, Ideal.mulf_def, Ideal.divf_def, Ideal.maximumf_def, Ideal.rsqrt_def, Ideal.ofBits_def]

end Cert.KernelIdeal.Pay

end
-- ==== Proof.Final2.lean ====
/-
  Region 2 (a post-aggregation stage): from what each grid point writes back to the whole output array.

  The grid has 25 points; point t handles rows 2000·t … 2000·t + 1999 of every node-indexed array, and reads the
  parameter arrays whole.  So what point t writes back is rows 2000·t … of ONE function of the arrays as the region
  finds them — the per-row function of Spec.lean at the row's own entries — and, the 25 row blocks tiling the 50000
  rows, the output array ends at that function everywhere.
  (The steps — the index maps decided over the grid, a block's coordinate as index × size + offset, membership in a
  block, the cover — are those of a pointwise kernel's closed form; here an entry depends on its whole row.)
-/
import proofs.«166986_j16578573762731_1_alg».proof.Proof.Gen.KernelIdeal.Frame
import proofs.«166986_j16578573762731_1_alg».proof.Proof.PayAgg
import Idealize.ShloMosaic.Lib.ValueIdx
import Idealize.ShloMosaic.Lib.Pipeline.Value

set_option maxRecDepth 16384

noncomputable section

namespace Cert.KernelIdeal.Final2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- An index's row and channel as numbers below the literal extents. -/
abbrev rowOf (i : S50000x256.Idx) : Fin 50000 := ⟨(i 0).val, (i 0).isLt⟩
abbrev colOf (i : S50000x256.Idx) : Fin 256 := ⟨(i 1).val, (i 1).isLt⟩

/-- The stage as ONE function of the arrays the region finds: entry (r, q) from row r of the node-indexed inputs. -/
def G (c : Dev nD) : S50000x256.Idx → EReal := fun i =>
  Cert.Spec.aggRow (fun k => V c main_v51 (ix2 (rowOf i) k)) (fun k => V c main_v35 (ix2 (rowOf i) k))
    (fun q' => V c main_v58 (ix2 (0 : Fin 1) q')) (fun q' => V c main_v59 (ix2 (0 : Fin 1) q')) (fun q' => V c main_v60 (ix2 (0 : Fin 1) q')) (colOf i)

/-- The printed index maps, decided over the 25 grid points: node-indexed windows move with the output's row block,
    parameter windows stay at block 0. -/
theorem idx_facts : ∀ t : Fin cfg2.N, win2_0.index t (0 : Fin 2) = win2_5.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = win2_5.index t (0 : Fin 2) ∧ win2_4.index t (1 : Fin 2) = 0
    ∧ win2_5.index t (1 : Fin 2) = 0 :=
  (by decide +kernel : ∀ t : Fin grid2.N, _)

/-- Every row block is some point's. -/
theorem idx_onto : ∀ q0 : Fin 25, ∃ t : Fin cfg2.N, win2_5.index t = ![q0.val, 0] :=
  (by decide +kernel : ∀ q0 : Fin 25, ∃ t : Fin grid2.N, win2_5.index t = ![q0.val, 0])

/-- WHAT POINT t WRITES BACK is block t of `G`. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 (F := Ideal) V c).after 5 t) = _
  rw [after2_5]
  unfold out2_5
  rw [View.canon_unit_zero hz]
  simp only [View.ld_unit_zero (S := S2000x256) hz, View.ld_unit_zero (S := S1x256) hz]
  obtain ⟨e00, e01, e10, e11, e20, e21, e30, e31, e40, e41, e51⟩ := idx_facts t
  funext j
  obtain ⟨p, q, rfl⟩ : ∃ (p : Fin 2000) (q : Fin 256), j = ix2 p q := ⟨j 0, j 1, eq_ix2 j⟩
  show k2_pay1 (iblk2 V c 0 t) (iblk2 V c 1 t) (iblk2 V c 2 t) (iblk2 V c 3 t) (iblk2 V c 4 t) (ix2 p q) = G V c (((cfg2.win 5).blk t).view.emb (ix2 p q))
  refine (Cert.KernelIdeal.Pay.agg_pay (iblk2 V c 0 t) (iblk2 V c 1 t) (iblk2 V c 2 t) (iblk2 V c 3 t) (iblk2 V c 4 t) p q).trans ?_
  unfold G
  have r0 : ∀ k : Fin 256, iblk2 V c 0 t (ix2 p k) = V c main_v51 (ix2 (rowOf (((cfg2.win 5).blk t).view.emb (ix2 p q))) k) := fun k => by
    show V c main_v51 (((cfg2.win 0).blk t).view.emb (ix2 p k)) = _
    refine congrArg (V c main_v51) (funext fun a => Fin.ext ?_)
    match a with
    | ⟨0, _⟩ => show win2_0.index t (0 : Fin 2) * 2000 + 1 * p.val = win2_5.index t (0 : Fin 2) * 2000 + 1 * p.val; omega
    | ⟨1, _⟩ => show win2_0.index t (1 : Fin 2) * 256 + 1 * k.val = k.val; omega
  have r1 : ∀ (k : Fin 1) (q' : Fin 256), iblk2 V c 1 t (ix2 k q') = V c main_v58 (ix2 k q') := fun k q' => by
    show V c main_v58 (((cfg2.win 1).blk t).view.emb (ix2 k q')) = _
    refine congrArg (V c main_v58) (funext fun a => Fin.ext ?_)
    match a with
    | ⟨0, _⟩ => show win2_1.index t (0 : Fin 2) * 1 + 1 * k.val = k.val; omega
    | ⟨1, _⟩ => show win2_1.index t (1 : Fin 2) * 256 + 1 * q'.val = q'.val; omega
  have r2 : ∀ (k : Fin 1) (q' : Fin 256), iblk2 V c 2 t (ix2 k q') = V c main_v59 (ix2 k q') := fun k q' => by
    show V c main_v59 (((cfg2.win 2).blk t).view.emb (ix2 k q')) = _
    refine congrArg (V c main_v59) (funext fun a => Fin.ext ?_)
    match a with
    | ⟨0, _⟩ => show win2_2.index t (0 : Fin 2) * 1 + 1 * k.val = k.val; omega
    | ⟨1, _⟩ => show win2_2.index t (1 : Fin 2) * 256 + 1 * q'.val = q'.val; omega
  have r3 : ∀ (k : Fin 1) (q' : Fin 256), iblk2 V c 3 t (ix2 k q') = V c main_v60 (ix2 k q') := fun k q' => by
    show V c main_v60 (((cfg2.win 3).blk t).view.emb (ix2 k q')) = _
    refine congrArg (V c main_v60) (funext fun a => Fin.ext ?_)
    match a with
    | ⟨0, _⟩ => show win2_3.index t (0 : Fin 2) * 1 + 1 * k.val = k.val; omega
    | ⟨1, _⟩ => show win2_3.index t (1 : Fin 2) * 256 + 1 * q'.val = q'.val; omega
  have r4 : ∀ k : Fin 256, iblk2 V c 4 t (ix2 p k) = V c main_v35 (ix2 (rowOf (((cfg2.win 5).blk t).view.emb (ix2 p q))) k) := fun k => by
    show V c main_v35 (((cfg2.win 4).blk t).view.emb (ix2 p k)) = _
    refine congrArg (V c main_v35) (funext fun a => Fin.ext ?_)
    match a with
    | ⟨0, _⟩ => show win2_4.index t (0 : Fin 2) * 2000 + 1 * p.val = win2_5.index t (0 : Fin 2) * 2000 + 1 * p.val; omega
    | ⟨1, _⟩ => show win2_4.index t (1 : Fin 2) * 256 + 1 * k.val = k.val; omega
  have hq : colOf (((cfg2.win 5).blk t).view.emb (ix2 p q)) = q := Fin.ext (by
    show win2_5.index t (1 : Fin 2) * 256 + 1 * q.val = q.val; omega)
  rw [hq]
  simp only [r0, r1, r2, r3, r4]

/-- An index of the array is in point t's block iff each coordinate is in the block's range on its axis. -/
theorem mem_blk (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v61).slice (win2_5.rect t)).set ↔ _
  rw [View.set_slice_whole, Rect.mem_set_unit]
  exact Iff.rfl

/-- Every index is in the block of the point that handles its row: point (row / 2000). -/
theorem cover (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  obtain ⟨t, ht⟩ := idx_onto ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 256 ≤ (i 1).val ∧ (i 1).val < win2_5.index t (1 : Fin 2) * 256 + 256; omega

/-- THE OUTPUT ARRAY after the region: `G` of the arrays the region found. -/
theorem final (c : Dev nD) : (dat2 (F := Ideal) V c).arrAt 5 cfg2.N = G V c :=
  (dat2 (F := Ideal) V c).arrAt_eq_of_cover 5 (G V c) (fun t _ => flushed_eq V c t) cover

end Cert.KernelIdeal.Final2

end
-- ==== Proof.RefLinear0.lean ====
/-
  The reference's dense linear map of the first layer read at one node's row: the host product contracts the 256
  channels of the layer's input row of node r against column q of the layer's 256 x 256 weight matrix, so the
  element (r, q) is the sum over k of input (r, k) * weight (k, q).  The input block and the weight slice are
  left as they are.
-/
import proofs.«166986_j16578573762731_1_alg».proof.Proof.RefRead
import proofs.«166986_j16578573762731_1_alg».proof.Proof.Spec
import Idealize.ShloMosaic.Lib.ValueIdx
import Idealize.ShloMosaic.Lib.Pipeline.Value
import Idealize.ShloMosaic.PureOps.Ideal.Laws

noncomputable section

namespace Cert.ReferenceIdeal.RefRows

open Idealize.ShloMosaic Idealize.ShloMosaic.ValueIdx Cert.ReferenceIdeal Cert.ReferenceIdeal.ReadP

variable (x0 : (⟨S50000x3, .f32⟩ : BufTy).Contents (Elt Ideal)) (x3 : (⟨S3x256, .f32⟩ : BufTy).Contents (Elt Ideal)) (x4 x5 x6 : (⟨S256, .f32⟩ : BufTy).Contents (Elt Ideal)) (x7 : (⟨S3x256x256, .f32⟩ : BufTy).Contents (Elt Ideal))

/-- The first layer's dense product at node r, channel q is `linearRow` of the layer's input row of node r and
    the layer's weight matrix. -/
theorem linear_row_0 (r : Fin 50000) (q : Fin 256) :
    val_main_v63 (F := Ideal) x0 x3 x4 x5 x6 x7 (ix2 r q)
      = Cert.Spec.linearRow (fun k => val_main_v60 (F := Ideal) x0 x3 x4 x5 x6 (ix2 r k))
          (fun k q' => val_main_v62 (F := Ideal) x7 (ix2 k q')) q := by
  rw [val_main_v63_apply]
  unfold Cert.Spec.linearRow
  refine Finset.sum_congr rfl fun k _ => ?_
  have el : lidx_main_v63 (ix2 r q) k = ix2 r k := funext fun a => Fin.ext (by match a with | ⟨0, _⟩ => rfl | ⟨1, _⟩ => rfl)
  have er : ridx_main_v63 (ix2 r q) k = ix2 k q := funext fun a => Fin.ext (by match a with | ⟨0, _⟩ => rfl | ⟨1, _⟩ => rfl)
  rw [el, er]

end Cert.ReferenceIdeal.RefRows

end
-- ==== Proof.RefAgg0.lean ====
/-
  The reference's post-aggregation stage of the first layer read at one node's row.  With
  y q' = h (r, q') + b q' the aggregated messages of node r plus the layer's bias row, the host program takes the
  row's mean and variance by two row sums (each started from the zero word, which is the real 0) divided by 256,
  subtracts the mean, multiplies by rsqrt (variance + eps), scales and shifts per channel, rectifies, and adds the
  layer's input at (r, q).  The aggregated block, the layer's input block and the three parameter rows are left
  as they are; every broadcast is read at the index it copies from.
-/
import proofs.«166986_j16578573762731_1_alg».proof.Proof.RefRead
import proofs.«166986_j16578573762731_1_alg».proof.Proof.Spec
import Idealize.ShloMosaic.Lib.ValueIdx
import Idealize.ShloMosaic.Lib.Pipeline.Value
import Idealize.ShloMosaic.PureOps.Ideal.Laws

noncomputable section

namespace Cert.ReferenceIdeal.RefRows

open Idealize.ShloMosaic Idealize.ShloMosaic.ValueIdx Cert.ReferenceIdeal Cert.ReferenceIdeal.ReadP

variable (x0 : (⟨S50000x3, .f32⟩ : BufTy).Contents (Elt Ideal)) (x1 : (⟨S2x300000, .i32⟩ : BufTy).Contents (Elt Ideal)) (x3 : (⟨S3x256, .f32⟩ : BufTy).Contents (Elt Ideal)) (x4 x5 x6 : (⟨S256, .f32⟩ : BufTy).Contents (Elt Ideal)) (x7 : (⟨S3x256x256, .f32⟩ : BufTy).Contents (Elt Ideal)) (x8 x9 x10 : (⟨S3x256, .f32⟩ : BufTy).Contents (Elt Ideal))

/-- The aggregated value plus bias at node r, channel k. -/
theorem agg0_y (r : Fin 50000) (k : Fin 256) :
    val_main_v81 (F := Ideal) x0 x1 x3 x4 x5 x6 x7 x8 (ix2 r k)
      = val_main_v76 (F := Ideal) x0 x1 x3 x4 x5 x6 x7 (ix2 r k) + val_main_v78 (F := Ideal) x8 (ix1 k) := by
  have e : val_main_v78 (F := Ideal) x8 (idx_main_v79 (idx_main_v80 (ix2 r k))) = val_main_v78 (F := Ideal) x8 (ix1 k) :=
    congrArg _ (funext fun a => Fin.ext (by match a with | ⟨0, _⟩ => rfl))
  rw [val_main_v81_apply, val_main_v80_apply, val_main_v79_apply, e]
  rfl

/-- The mean column at node r is the mean of the biased row. -/
theorem agg0_mean (r : Fin 50000) (u : Fin 1) :
    val_main_v89 (F := Ideal) x0 x1 x3 x4 x5 x6 x7 x8 (ix2 r u)
      = Cert.Spec.mean (fun k => val_main_v81 (F := Ideal) x0 x1 x3 x4 x5 x6 x7 x8 (ix2 r k)) := by
  have e : ∀ k : Fin 256, val_main_v81 (F := Ideal) x0 x1 x3 x4 x5 x6 x7 x8 (idx_main_v86 (idx_main_v87 (ix2 r u)) k)
      = val_main_v81 (F := Ideal) x0 x1 x3 x4 x5 x6 x7 x8 (ix2 r k) := fun k =>
    congrArg _ (funext fun a => Fin.ext (by match a with | ⟨0, _⟩ => rfl | ⟨1, _⟩ => rfl))
  rw [val_main_v89_apply, val_main_v87_apply, val_main_v86_apply, val_main_v88_apply, val_main_cst_16_apply,
    val_main_cst_15_apply]
  simp only [e, Ideal.hostDivf_def, Ideal.ofBits_def, Ideal.ofBits_zero_f32, zero_add, Cert.Spec.mean]

/-- The variance column at node r is the variance of the biased row. -/
theorem agg0_var (r : Fin 50000) (u : Fin 1) :
    val_main_v96 (F := Ideal) x0 x1 x3 x4 x5 x6 x7 x8 (ix2 r u)
      = Cert.Spec.var (fun k => val_main_v81 (F := Ideal) x0 x1 x3 x4 x5 x6 x7 x8 (ix2 r k)) := by
  have e : ∀ k : Fin 256, val_main_v92 (F := Ideal) x0 x1 x3 x4 x5 x6 x7 x8 (idx_main_v93 (idx_main_v94 (ix2 r u)) k)
      = val_main_v92 (F := Ideal) x0 x1 x3 x4 x5 x6 x7 x8 (ix2 r k) := fun k =>
    congrArg _ (funext fun a => Fin.ext (by match a with | ⟨0, _⟩ => rfl | ⟨1, _⟩ => rfl))
  have em : ∀ k : Fin 256, val_main_v90 (F := Ideal) x0 x1 x3 x4 x5 x6 x7 x8 (ix2 r k)
      = Cert.Spec.mean (fun k => val_main_v81 (F := Ideal) x0 x1 x3 x4 x5 x6 x7 x8 (ix2 r k)) := fun k =>
    (val_main_v90_apply x0 x1 x3 x4 x5 x6 x7 x8 (ix2 r k)).trans
      ((congrArg _ (funext fun a => Fin.ext (by match a with | ⟨0, _⟩ => rfl | ⟨1, _⟩ => rfl))).trans
        (agg0_mean x0 x1 x3 x4 x5 x6 x7 x8 r (0 : Fin 1)))
  rw [val_main_v96_apply, val_main_v94_apply, val_main_v93_apply, val_main_v95_apply, val_main_cst_18_apply,
    val_main_cst_17_apply]
  simp only [e, val_main_v92_apply, val_main_v91_apply, em, Ideal.hostDivf_def, Ideal.mulf_def, Ideal.subf_def,
    Ideal.ofBits_def, Ideal.ofBits_zero_f32, zero_add, Cert.Spec.var]

/-- The first layer's post-aggregation stage at node r, channel q is `aggRow` of the aggregated row and the layer's
    input row of node r, and the layer's bias, scale and shift rows. -/
theorem agg_row_0 (r : Fin 50000) (q : Fin 256) :
    val_main_v111 (F := Ideal) x0 x1 x3 x4 x5 x6 x7 x8 x9 x10 (ix2 r q)
      = Cert.Spec.aggRow (fun k => val_main_v76 (F := Ideal) x0 x1 x3 x4 x5 x6 x7 (ix2 r k))
          (fun k => val_main_v60 (F := Ideal) x0 x3 x4 x5 x6 (ix2 r k))
          (fun q' => val_main_v78 (F := Ideal) x8 (ix1 q')) (fun q' => val_main_v83 (F := Ideal) x9 (ix1 q'))
          (fun q' => val_main_v85 (F := Ideal) x10 (ix1 q')) q := by
  have em : val_main_v97 (F := Ideal) x0 x1 x3 x4 x5 x6 x7 x8 (ix2 r q)
      = Cert.Spec.mean (fun k => val_main_v81 (F := Ideal) x0 x1 x3 x4 x5 x6 x7 x8 (ix2 r k)) :=
    (val_main_v97_apply x0 x1 x3 x4 x5 x6 x7 x8 (ix2 r q)).trans
      ((congrArg _ (funext fun a => Fin.ext (by match a with | ⟨0, _⟩ => rfl | ⟨1, _⟩ => rfl))).trans
        (agg0_mean x0 x1 x3 x4 x5 x6 x7 x8 r (0 : Fin 1)))
  have ev : val_main_v96 (F := Ideal) x0 x1 x3 x4 x5 x6 x7 x8 (idx_main_v102 (ix2 r q))
      = Cert.Spec.var (fun k => val_main_v81 (F := Ideal) x0 x1 x3 x4 x5 x6 x7 x8 (ix2 r k)) :=
    (congrArg _ (funext fun a => Fin.ext (by match a with | ⟨0, _⟩ => rfl | ⟨1, _⟩ => rfl))).trans
      (agg0_var x0 x1 x3 x4 x5 x6 x7 x8 r (0 : Fin 1))
  have eg : val_main_v83 (F := Ideal) x9 (idx_main_v104 (idx_main_v105 (ix2 r q))) = val_main_v83 (F := Ideal) x9 (ix1 q) :=
    congrArg _ (funext fun a => Fin.ext (by match a with | ⟨0, _⟩ => rfl))
  have eb : val_main_v85 (F := Ideal) x10 (idx_main_v107 (idx_main_v108 (ix2 r q))) = val_main_v85 (F := Ideal) x10 (ix1 q) :=
    congrArg _ (funext fun a => Fin.ext (by match a with | ⟨0, _⟩ => rfl))
  rw [val_main_v111_apply, val_main_v110_apply, val_main_call2_v0_apply, val_main_call2_cst_apply,
    val_main_v109_apply, val_main_v108_apply, val_main_v107_apply, val_main_v106_apply, val_main_v105_apply,
    val_main_v104_apply, val_main_v103_apply, val_main_v102_apply, val_main_v101_apply, val_main_v100_apply,
    val_main_v99_apply, val_main_cst_19_apply, val_main_v98_apply, em, ev, eg, eb]
  simp only [agg0_y, Ideal.addf_def, Ideal.mulf_def, Ideal.subf_def, Ideal.maximumf_def, Ideal.hostUnary_rsqrt_def,
    Ideal.ofBits_def, Cert.Spec.aggRow, Cert.Spec.gn]

end Cert.ReferenceIdeal.RefRows

end
-- ==== Proof.GlueL0.lean ====
/-
  Layer 0 of the idealized kernel program, boundaries 4 to 8.

  From the node features x at boundary 4: the layer's weight matrix is sliced out of the stacked weights; the dense
  linear region writes x times that matrix; the host gathers each edge's source row, scales it by the edge's weight
  and adds it into the destination node's row; the layer's bias, scale and shift vectors are sliced out and laid as
  rows; the post-aggregation region normalises, rectifies and adds x back.  Each buffer is the reference's own stage
  of the arguments: the host steps are the same operations, and each dense region is the same function row by row.
-/
import proofs.«166986_j16578573762731_1_alg».proof.Proof.Gen.KernelIdeal.Frame
import proofs.«166986_j16578573762731_1_alg».proof.Proof.GlueKeep
import proofs.«166986_j16578573762731_1_alg».proof.Proof.GluePre
import proofs.«166986_j16578573762731_1_alg».proof.Proof.GlueIn
import proofs.«166986_j16578573762731_1_alg».proof.Proof.Final1
import proofs.«166986_j16578573762731_1_alg».proof.Proof.Final2
import proofs.«166986_j16578573762731_1_alg».proof.Proof.RefRead
import proofs.«166986_j16578573762731_1_alg».proof.Proof.RefLinear0
import proofs.«166986_j16578573762731_1_alg».proof.Proof.RefAgg0
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.GlueL0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

open Idealize.ShloMosaic.StableHlo
set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)
local notation "a16" => m ((c : Thread nD τ).loc main_arg16)

/-- The node features are carried to the linear region's entry. -/
theorem xB1 : W5 m ρ c (Proc.devRef .tc main_v35) = Cert.ReferenceIdeal.ReadP.val_main_v60 (F := Ideal) a0 a3 a4 a5 a6 := (Keep.keep5 m ρ c main_v35 (by decide)).trans (Cert.KernelIdeal.GlueIn.x0 m ρ c)
set_option maxHeartbeats 4000000 in
/-- The layer's weight matrix. -/
theorem wB1 : W5 m ρ c (Proc.devRef .tc main_v37) = Cert.ReferenceIdeal.ReadP.val_main_v62 (F := Ideal) a7 := by
  have hs : ∀ (V : Valuation τ sig (Elt Ideal)) (h0 : V (Proc.devRef .tc main_arg7) = a7) , StableHlo.after hostOps1 V (Proc.devRef .tc main_v37) = Cert.ReferenceIdeal.ReadP.val_main_v62 (F := Ideal) a7 := by
    intro V h0
    after_results
    rw [h0]
    try simp only [TRef.toBuf, TRef.ofBuf, cast_eq]
    rfl
  exact hs (W4 m ρ c) ((((Keep.keep4 m ρ c main_arg7 (by decide)).trans ((Keep.keep3 m ρ c main_arg7 (by decide)).trans ((Keep.keep2 m ρ c main_arg7 (by decide)).trans (Keep.keep1 m ρ c main_arg7 (by decide))))).trans (rfl : W0 m ρ c (Proc.devRef .tc main_arg7) = a7)))
/-- The linear region's output: the features times the layer's weights. -/
theorem hB2 : W6 m ρ c (Proc.devRef .tc main_v38) = Cert.ReferenceIdeal.ReadP.val_main_v63 (F := Ideal) a0 a3 a4 a5 a6 a7 := by
  refine (W6_arr m ρ c 2).trans ((Cert.KernelIdeal.Final1.final (V5 m ρ) c).trans ?_)
  funext i
  obtain ⟨r, q, rfl⟩ : ∃ (r : Fin 50000) (q : Fin 256), i = ix2 r q := ⟨i 0, i 1, eq_ix2 i⟩
  rw [Cert.ReferenceIdeal.RefRows.linear_row_0]
  show Cert.Spec.linearRow (fun k => V5 m ρ c main_v35 (ix2 r k)) (fun k q' => V5 m ρ c main_v37 (ix2 k q')) q = _
  have e1 : V5 m ρ c main_v35 = Cert.ReferenceIdeal.ReadP.val_main_v60 (F := Ideal) a0 a3 a4 a5 a6 := xB1 m ρ c
  have e2 : V5 m ρ c main_v37 = Cert.ReferenceIdeal.ReadP.val_main_v62 (F := Ideal) a7 := wB1 m ρ c
  rw [e1, e2]
theorem e3B2 : W6 m ρ c (Proc.devRef .tc main_v3) = Cert.ReferenceIdeal.ReadP.val_main_v3 (F := Ideal) a1 := ((Keep.keep6 m ρ c main_v3 (by decide)).trans ((Keep.keep5 m ρ c main_v3 (by decide)).trans (Keep.keep4 m ρ c main_v3 (by decide)))).trans (Cert.KernelIdeal.GluePre.w3_v3 m ρ c)
theorem e6B2 : W6 m ρ c (Proc.devRef .tc main_v6) = Cert.ReferenceIdeal.ReadP.val_main_v6 (F := Ideal) a1 := ((Keep.keep6 m ρ c main_v6 (by decide)).trans ((Keep.keep5 m ρ c main_v6 (by decide)).trans (Keep.keep4 m ρ c main_v6 (by decide)))).trans (Cert.KernelIdeal.GluePre.w3_v6 m ρ c)
theorem e31B2 : W6 m ρ c (Proc.devRef .tc main_v31) = Cert.ReferenceIdeal.ReadP.val_main_v31 (F := Ideal) a1 := ((Keep.keep6 m ρ c main_v31 (by decide)).trans ((Keep.keep5 m ρ c main_v31 (by decide)).trans (Keep.keep4 m ρ c main_v31 (by decide)))).trans (Cert.KernelIdeal.GluePre.w3_v31 m ρ c)
set_option maxHeartbeats 4000000 in
/-- The aggregated messages: each edge's source row times its weight, summed into its destination row. -/
theorem aggB3 : W7 m ρ c (Proc.devRef .tc main_v51) = Cert.ReferenceIdeal.ReadP.val_main_v76 (F := Ideal) a0 a1 a3 a4 a5 a6 a7 := by
  have hs : ∀ (V : Valuation τ sig (Elt Ideal)) (h0 : V (Proc.devRef .tc main_v38) = Cert.ReferenceIdeal.ReadP.val_main_v63 (F := Ideal) a0 a3 a4 a5 a6 a7) (h1 : V (Proc.devRef .tc main_v3) = Cert.ReferenceIdeal.ReadP.val_main_v3 (F := Ideal) a1) (h2 : V (Proc.devRef .tc main_v6) = Cert.ReferenceIdeal.ReadP.val_main_v6 (F := Ideal) a1) (h3 : V (Proc.devRef .tc main_v31) = Cert.ReferenceIdeal.ReadP.val_main_v31 (F := Ideal) a1) , StableHlo.after hostOps2 V (Proc.devRef .tc main_v51) = Cert.ReferenceIdeal.ReadP.val_main_v76 (F := Ideal) a0 a1 a3 a4 a5 a6 a7 := by
    intro V h0 h1 h2 h3
    after_results
    rw [h0, h1, h2, h3]
    try simp only [TRef.toBuf, TRef.ofBuf, cast_eq]
    rfl
  exact hs (W6 m ρ c) (hB2 m ρ c) (e3B2 m ρ c) (e6B2 m ρ c) (e31B2 m ρ c)
set_option maxHeartbeats 4000000 in
/-- The layer's bias vector as a row. -/
theorem bRow : W7 m ρ c (Proc.devRef .tc main_v58) = shapeCast S1x256 (Cert.ReferenceIdeal.ReadP.val_main_v78 (F := Ideal) a8) shapeCasts_S256_S1x256 := by
  have hs : ∀ (V : Valuation τ sig (Elt Ideal)) (h0 : V (Proc.devRef .tc main_arg8) = a8) , StableHlo.after hostOps2 V (Proc.devRef .tc main_v58) = shapeCast S1x256 (Cert.ReferenceIdeal.ReadP.val_main_v78 (F := Ideal) a8) shapeCasts_S256_S1x256 := by
    intro V h0
    after_results
    rw [h0]
    try simp only [TRef.toBuf, TRef.ofBuf, cast_eq]
    rfl
  exact hs (W6 m ρ c) ((((Keep.keep6 m ρ c main_arg8 (by decide)).trans ((Keep.keep5 m ρ c main_arg8 (by decide)).trans ((Keep.keep4 m ρ c main_arg8 (by decide)).trans ((Keep.keep3 m ρ c main_arg8 (by decide)).trans ((Keep.keep2 m ρ c main_arg8 (by decide)).trans (Keep.keep1 m ρ c main_arg8 (by decide))))))).trans (rfl : W0 m ρ c (Proc.devRef .tc main_arg8) = a8)))
set_option maxHeartbeats 4000000 in
/-- The layer's scale vector as a row. -/
theorem gRow : W7 m ρ c (Proc.devRef .tc main_v59) = shapeCast S1x256 (Cert.ReferenceIdeal.ReadP.val_main_v83 (F := Ideal) a9) shapeCasts_S256_S1x256 := by
  have hs : ∀ (V : Valuation τ sig (Elt Ideal)) (h0 : V (Proc.devRef .tc main_arg9) = a9) , StableHlo.after hostOps2 V (Proc.devRef .tc main_v59) = shapeCast S1x256 (Cert.ReferenceIdeal.ReadP.val_main_v83 (F := Ideal) a9) shapeCasts_S256_S1x256 := by
    intro V h0
    after_results
    rw [h0]
    try simp only [TRef.toBuf, TRef.ofBuf, cast_eq]
    rfl
  exact hs (W6 m ρ c) ((((Keep.keep6 m ρ c main_arg9 (by decide)).trans ((Keep.keep5 m ρ c main_arg9 (by decide)).trans ((Keep.keep4 m ρ c main_arg9 (by decide)).trans ((Keep.keep3 m ρ c main_arg9 (by decide)).trans ((Keep.keep2 m ρ c main_arg9 (by decide)).trans (Keep.keep1 m ρ c main_arg9 (by decide))))))).trans (rfl : W0 m ρ c (Proc.devRef .tc main_arg9) = a9)))
set_option maxHeartbeats 4000000 in
/-- The layer's shift vector as a row. -/
theorem sRow : W7 m ρ c (Proc.devRef .tc main_v60) = shapeCast S1x256 (Cert.ReferenceIdeal.ReadP.val_main_v85 (F := Ideal) a10) shapeCasts_S256_S1x256 := by
  have hs : ∀ (V : Valuation τ sig (Elt Ideal)) (h0 : V (Proc.devRef .tc main_arg10) = a10) , StableHlo.after hostOps2 V (Proc.devRef .tc main_v60) = shapeCast S1x256 (Cert.ReferenceIdeal.ReadP.val_main_v85 (F := Ideal) a10) shapeCasts_S256_S1x256 := by
    intro V h0
    after_results
    rw [h0]
    try simp only [TRef.toBuf, TRef.ofBuf, cast_eq]
    rfl
  exact hs (W6 m ρ c) ((((Keep.keep6 m ρ c main_arg10 (by decide)).trans ((Keep.keep5 m ρ c main_arg10 (by decide)).trans ((Keep.keep4 m ρ c main_arg10 (by decide)).trans ((Keep.keep3 m ρ c main_arg10 (by decide)).trans ((Keep.keep2 m ρ c main_arg10 (by decide)).trans (Keep.keep1 m ρ c main_arg10 (by decide))))))).trans (rfl : W0 m ρ c (Proc.devRef .tc main_arg10) = a10)))
/-- The node features are carried to the post-aggregation region's entry (they are the linear region's input array). -/
theorem xB3 : W7 m ρ c (Proc.devRef .tc main_v35) = Cert.ReferenceIdeal.ReadP.val_main_v60 (F := Ideal) a0 a3 a4 a5 a6 := ((Keep.keep7 m ρ c main_v35 (by decide)).trans (Keep.keepIn6 m ρ c 0 rfl)).trans (xB1 m ρ c)
/-- The post-aggregation region's output: the next node features. -/
theorem xNext : W8 m ρ c (Proc.devRef .tc main_v61) = Cert.ReferenceIdeal.ReadP.val_main_v111 (F := Ideal) a0 a1 a3 a4 a5 a6 a7 a8 a9 a10 := by
  refine (W8_arr m ρ c 5).trans ((Cert.KernelIdeal.Final2.final (V7 m ρ) c).trans ?_)
  funext i
  obtain ⟨r, q, rfl⟩ : ∃ (r : Fin 50000) (q : Fin 256), i = ix2 r q := ⟨i 0, i 1, eq_ix2 i⟩
  rw [Cert.ReferenceIdeal.RefRows.agg_row_0]
  show Cert.Spec.aggRow (fun k => V7 m ρ c main_v51 (ix2 r k)) (fun k => V7 m ρ c main_v35 (ix2 r k)) (fun q' => V7 m ρ c main_v58 (ix2 (0 : Fin 1) q')) (fun q' => V7 m ρ c main_v59 (ix2 (0 : Fin 1) q')) (fun q' => V7 m ρ c main_v60 (ix2 (0 : Fin 1) q')) q = _
  have e1 : V7 m ρ c main_v51 = Cert.ReferenceIdeal.ReadP.val_main_v76 (F := Ideal) a0 a1 a3 a4 a5 a6 a7 := aggB3 m ρ c
  have e2 : V7 m ρ c main_v35 = Cert.ReferenceIdeal.ReadP.val_main_v60 (F := Ideal) a0 a3 a4 a5 a6 := xB3 m ρ c
  have e3 : V7 m ρ c main_v58 = shapeCast S1x256 (Cert.ReferenceIdeal.ReadP.val_main_v78 (F := Ideal) a8) shapeCasts_S256_S1x256 := bRow m ρ c
  have e4 : V7 m ρ c main_v59 = shapeCast S1x256 (Cert.ReferenceIdeal.ReadP.val_main_v83 (F := Ideal) a9) shapeCasts_S256_S1x256 := gRow m ρ c
  have e5 : V7 m ρ c main_v60 = shapeCast S1x256 (Cert.ReferenceIdeal.ReadP.val_main_v85 (F := Ideal) a10) shapeCasts_S256_S1x256 := sRow m ρ c
  rw [e1, e2, e3, e4, e5]
  simp only [shapeCast_a_1a_apply]

end Cert.KernelIdeal.GlueL0

end
-- ==== Proof.Final3.lean ====
/-
  Region 3 (a dense linear map): from what each grid point writes back to the whole output array.

  The grid has 25 points; point t handles rows 2000·t … 2000·t + 1999 of every node-indexed array, and reads the
  parameter arrays whole.  So what point t writes back is rows 2000·t … of ONE function of the arrays as the region
  finds them — the per-row function of Spec.lean at the row's own entries — and, the 25 row blocks tiling the 50000
  rows, the output array ends at that function everywhere.
  (The steps — the index maps decided over the grid, a block's coordinate as index × size + offset, membership in a
  block, the cover — are those of a pointwise kernel's closed form; here an entry depends on its whole row.)
-/
import proofs.«166986_j16578573762731_1_alg».proof.Proof.Gen.KernelIdeal.Frame
import proofs.«166986_j16578573762731_1_alg».proof.Proof.PayLinear
import Idealize.ShloMosaic.Lib.ValueIdx
import Idealize.ShloMosaic.Lib.Pipeline.Value

set_option maxRecDepth 16384

noncomputable section

namespace Cert.KernelIdeal.Final3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- An index's row and channel as numbers below the literal extents. -/
abbrev rowOf (i : S50000x256.Idx) : Fin 50000 := ⟨(i 0).val, (i 0).isLt⟩
abbrev colOf (i : S50000x256.Idx) : Fin 256 := ⟨(i 1).val, (i 1).isLt⟩

/-- The stage as ONE function of the arrays the region finds: entry (r, q) from row r of the node-indexed inputs. -/
def G (c : Dev nD) : S50000x256.Idx → EReal := fun i =>
  Cert.Spec.linearRow (fun k => V c main_v61 (ix2 (rowOf i) k)) (fun k q' => V c main_v63 (ix2 k q')) (colOf i)

/-- The printed index maps, decided over the 25 grid points: node-indexed windows move with the output's row block,
    parameter windows stay at block 0. -/
theorem idx_facts : ∀ t : Fin cfg3.N, win3_0.index t (0 : Fin 2) = win3_2.index t (0 : Fin 2) ∧ win3_0.index t (1 : Fin 2) = 0
    ∧ win3_1.index t (0 : Fin 2) = 0 ∧ win3_1.index t (1 : Fin 2) = 0
    ∧ win3_2.index t (1 : Fin 2) = 0 :=
  (by decide +kernel : ∀ t : Fin grid3.N, _)

/-- Every row block is some point's. -/
theorem idx_onto : ∀ q0 : Fin 25, ∃ t : Fin cfg3.N, win3_2.index t = ![q0.val, 0] :=
  (by decide +kernel : ∀ q0 : Fin 25, ∃ t : Fin grid3.N, win3_2.index t = ![q0.val, 0])

/-- WHAT POINT t WRITES BACK is block t of `G`. -/
theorem flushed_eq (c : Dev nD) (t : Fin cfg3.N) :
    (dat3 (F := Ideal) V c).flushed 2 t = ((cfg3.win 2).blk t).view.read (Elt Ideal) (G V c) := by
  show (cfg3.win 2).cut (grid3.coords t) ((dat3 (F := Ideal) V c).after 2 t) = _
  rw [after3_2]
  unfold out3_2
  rw [View.canon_unit_zero hz]
  simp only [View.ld_unit_zero (S := S2000x256) hz, View.ld_unit_zero (S := S256x256) hz]
  obtain ⟨e00, e01, e10, e11, e21⟩ := idx_facts t
  funext j
  obtain ⟨p, q, rfl⟩ : ∃ (p : Fin 2000) (q : Fin 256), j = ix2 p q := ⟨j 0, j 1, eq_ix2 j⟩
  show k3_pay1 (iblk3 V c 0 t) (iblk3 V c 1 t) (ix2 p q) = G V c (((cfg3.win 2).blk t).view.emb (ix2 p q))
  refine (Cert.KernelIdeal.Pay.linear_pay (iblk3 V c 0 t) (iblk3 V c 1 t) p q).trans ?_
  unfold G
  have r0 : ∀ k : Fin 256, iblk3 V c 0 t (ix2 p k) = V c main_v61 (ix2 (rowOf (((cfg3.win 2).blk t).view.emb (ix2 p q))) k) := fun k => by
    show V c main_v61 (((cfg3.win 0).blk t).view.emb (ix2 p k)) = _
    refine congrArg (V c main_v61) (funext fun a => Fin.ext ?_)
    match a with
    | ⟨0, _⟩ => show win3_0.index t (0 : Fin 2) * 2000 + 1 * p.val = win3_2.index t (0 : Fin 2) * 2000 + 1 * p.val; omega
    | ⟨1, _⟩ => show win3_0.index t (1 : Fin 2) * 256 + 1 * k.val = k.val; omega
  have r1 : ∀ (k : Fin 256) (q' : Fin 256), iblk3 V c 1 t (ix2 k q') = V c main_v63 (ix2 k q') := fun k q' => by
    show V c main_v63 (((cfg3.win 1).blk t).view.emb (ix2 k q')) = _
    refine congrArg (V c main_v63) (funext fun a => Fin.ext ?_)
    match a with
    | ⟨0, _⟩ => show win3_1.index t (0 : Fin 2) * 256 + 1 * k.val = k.val; omega
    | ⟨1, _⟩ => show win3_1.index t (1 : Fin 2) * 256 + 1 * q'.val = q'.val; omega
  have hq : colOf (((cfg3.win 2).blk t).view.emb (ix2 p q)) = q := Fin.ext (by
    show win3_2.index t (1 : Fin 2) * 256 + 1 * q.val = q.val; omega)
  rw [hq]
  simp only [r0, r1]

/-- An index of the array is in point t's block iff each coordinate is in the block's range on its axis. -/
theorem mem_blk (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v64).slice (win3_2.rect t)).set ↔ _
  rw [View.set_slice_whole, Rect.mem_set_unit]
  exact Iff.rfl

/-- Every index is in the block of the point that handles its row: point (row / 2000). -/
theorem cover (i : S50000x256.Idx) :
    ∃ t : Fin cfg3.N, (cfg3.win 2).flush t = true ∧ i ∈ ((cfg3.win 2).blk t).view.set := by
  have hi0 : (i 0).val < 50000 := (i 0).isLt
  have hi1 : (i 1).val < 256 := (i 1).isLt
  obtain ⟨t, ht⟩ := idx_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 256 ≤ (i 1).val ∧ (i 1).val < win3_2.index t (1 : Fin 2) * 256 + 256; omega

/-- THE OUTPUT ARRAY after the region: `G` of the arrays the region found. -/
theorem final (c : Dev nD) : (dat3 (F := Ideal) V c).arrAt 2 cfg3.N = G V c :=
  (dat3 (F := Ideal) V c).arrAt_eq_of_cover 2 (G V c) (fun t _ => flushed_eq V c t) cover

end Cert.KernelIdeal.Final3

end
-- ==== Proof.Final4.lean ====
/-
  Region 4 (a post-aggregation stage): from what each grid point writes back to the whole output array.

  The grid has 25 points; point t handles rows 2000·t … 2000·t + 1999 of every node-indexed array, and reads the
  parameter arrays whole.  So what point t writes back is rows 2000·t … of ONE function of the arrays as the region
  finds them — the per-row function of Spec.lean at the row's own entries — and, the 25 row blocks tiling the 50000
  rows, the output array ends at that function everywhere.
  (The steps — the index maps decided over the grid, a block's coordinate as index × size + offset, membership in a
  block, the cover — are those of a pointwise kernel's closed form; here an entry depends on its whole row.)
-/
import proofs.«166986_j16578573762731_1_alg».proof.Proof.Gen.KernelIdeal.Frame
import proofs.«166986_j16578573762731_1_alg».proof.Proof.PayAgg
import Idealize.ShloMosaic.Lib.ValueIdx
import Idealize.ShloMosaic.Lib.Pipeline.Value

set_option maxRecDepth 16384

noncomputable section

namespace Cert.KernelIdeal.Final4

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- An index's row and channel as numbers below the literal extents. -/
abbrev rowOf (i : S50000x256.Idx) : Fin 50000 := ⟨(i 0).val, (i 0).isLt⟩
abbrev colOf (i : S50000x256.Idx) : Fin 256 := ⟨(i 1).val, (i 1).isLt⟩

/-- The stage as ONE function of the arrays the region finds: entry (r, q) from row r of the node-indexed inputs. -/
def G (c : Dev nD) : S50000x256.Idx → EReal := fun i =>
  Cert.Spec.aggRow (fun k => V c main_v77 (ix2 (rowOf i) k)) (fun k => V c main_v61 (ix2 (rowOf i) k))
    (fun q' => V c main_v84 (ix2 (0 : Fin 1) q')) (fun q' => V c main_v85 (ix2 (0 : Fin 1) q')) (fun q' => V c main_v86 (ix2 (0 : Fin 1) q')) (colOf i)

/-- The printed index maps, decided over the 25 grid points: node-indexed windows move with the output's row block,
    parameter windows stay at block 0. -/
theorem idx_facts : ∀ t : Fin cfg4.N, win4_0.index t (0 : Fin 2) = win4_5.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = win4_5.index t (0 : Fin 2) ∧ win4_4.index t (1 : Fin 2) = 0
    ∧ win4_5.index t (1 : Fin 2) = 0 :=
  (by decide +kernel : ∀ t : Fin grid4.N, _)

/-- Every row block is some point's. -/
theorem idx_onto : ∀ q0 : Fin 25, ∃ t : Fin cfg4.N, win4_5.index t = ![q0.val, 0] :=
  (by decide +kernel : ∀ q0 : Fin 25, ∃ t : Fin grid4.N, win4_5.index t = ![q0.val, 0])

/-- WHAT POINT t WRITES BACK is block t of `G`. -/
theorem flushed_eq (c : Dev nD) (t : Fin cfg4.N) :
    (dat4 (F := Ideal) V c).flushed 5 t = ((cfg4.win 5).blk t).view.read (Elt Ideal) (G V c) := by
  show (cfg4.win 5).cut (grid4.coords t) ((dat4 (F := Ideal) V c).after 5 t) = _
  rw [after4_5]
  unfold out4_5
  rw [View.canon_unit_zero hz]
  simp only [View.ld_unit_zero (S := S2000x256) hz, View.ld_unit_zero (S := S1x256) hz]
  obtain ⟨e00, e01, e10, e11, e20, e21, e30, e31, e40, e41, e51⟩ := idx_facts t
  funext j
  obtain ⟨p, q, rfl⟩ : ∃ (p : Fin 2000) (q : Fin 256), j = ix2 p q := ⟨j 0, j 1, eq_ix2 j⟩
  show k4_pay1 (iblk4 V c 0 t) (iblk4 V c 1 t) (iblk4 V c 2 t) (iblk4 V c 3 t) (iblk4 V c 4 t) (ix2 p q) = G V c (((cfg4.win 5).blk t).view.emb (ix2 p q))
  refine (Cert.KernelIdeal.Pay.agg_pay (iblk4 V c 0 t) (iblk4 V c 1 t) (iblk4 V c 2 t) (iblk4 V c 3 t) (iblk4 V c 4 t) p q).trans ?_
  unfold G
  have r0 : ∀ k : Fin 256, iblk4 V c 0 t (ix2 p k) = V c main_v77 (ix2 (rowOf (((cfg4.win 5).blk t).view.emb (ix2 p q))) k) := fun k => by
    show V c main_v77 (((cfg4.win 0).blk t).view.emb (ix2 p k)) = _
    refine congrArg (V c main_v77) (funext fun a => Fin.ext ?_)
    match a with
    | ⟨0, _⟩ => show win4_0.index t (0 : Fin 2) * 2000 + 1 * p.val = win4_5.index t (0 : Fin 2) * 2000 + 1 * p.val; omega
    | ⟨1, _⟩ => show win4_0.index t (1 : Fin 2) * 256 + 1 * k.val = k.val; omega
  have r1 : ∀ (k : Fin 1) (q' : Fin 256), iblk4 V c 1 t (ix2 k q') = V c main_v84 (ix2 k q') := fun k q' => by
    show V c main_v84 (((cfg4.win 1).blk t).view.emb (ix2 k q')) = _
    refine congrArg (V c main_v84) (funext fun a => Fin.ext ?_)
    match a with
    | ⟨0, _⟩ => show win4_1.index t (0 : Fin 2) * 1 + 1 * k.val = k.val; omega
    | ⟨1, _⟩ => show win4_1.index t (1 : Fin 2) * 256 + 1 * q'.val = q'.val; omega
  have r2 : ∀ (k : Fin 1) (q' : Fin 256), iblk4 V c 2 t (ix2 k q') = V c main_v85 (ix2 k q') := fun k q' => by
    show V c main_v85 (((cfg4.win 2).blk t).view.emb (ix2 k q')) = _
    refine congrArg (V c main_v85) (funext fun a => Fin.ext ?_)
    match a with
    | ⟨0, _⟩ => show win4_2.index t (0 : Fin 2) * 1 + 1 * k.val = k.val; omega
    | ⟨1, _⟩ => show win4_2.index t (1 : Fin 2) * 256 + 1 * q'.val = q'.val; omega
  have r3 : ∀ (k : Fin 1) (q' : Fin 256), iblk4 V c 3 t (ix2 k q') = V c main_v86 (ix2 k q') := fun k q' => by
    show V c main_v86 (((cfg4.win 3).blk t).view.emb (ix2 k q')) = _
    refine congrArg (V c main_v86) (funext fun a => Fin.ext ?_)
    match a with
    | ⟨0, _⟩ => show win4_3.index t (0 : Fin 2) * 1 + 1 * k.val = k.val; omega
    | ⟨1, _⟩ => show win4_3.index t (1 : Fin 2) * 256 + 1 * q'.val = q'.val; omega
  have r4 : ∀ k : Fin 256, iblk4 V c 4 t (ix2 p k) = V c main_v61 (ix2 (rowOf (((cfg4.win 5).blk t).view.emb (ix2 p q))) k) := fun k => by
    show V c main_v61 (((cfg4.win 4).blk t).view.emb (ix2 p k)) = _
    refine congrArg (V c main_v61) (funext fun a => Fin.ext ?_)
    match a with
    | ⟨0, _⟩ => show win4_4.index t (0 : Fin 2) * 2000 + 1 * p.val = win4_5.index t (0 : Fin 2) * 2000 + 1 * p.val; omega
    | ⟨1, _⟩ => show win4_4.index t (1 : Fin 2) * 256 + 1 * k.val = k.val; omega
  have hq : colOf (((cfg4.win 5).blk t).view.emb (ix2 p q)) = q := Fin.ext (by
    show win4_5.index t (1 : Fin 2) * 256 + 1 * q.val = q.val; omega)
  rw [hq]
  simp only [r0, r1, r2, r3, r4]

/-- An index of the array is in point t's block iff each coordinate is in the block's range on its axis. -/
theorem mem_blk (t : Fin cfg4.N) (i : S50000x256.Idx) :
    i ∈ ((cfg4.win 5).blk t).view.set ↔ ∀ a : Fin 2, win4_5.index t a * S2000x256.size a ≤ (i a).val ∧ (i a).val < win4_5.index t a * S2000x256.size a + S2000x256.size a := by
  show i ∈ ((View.whole main_v87).slice (win4_5.rect t)).set ↔ _
  rw [View.set_slice_whole, Rect.mem_set_unit]
  exact Iff.rfl

/-- Every index is in the block of the point that handles its row: point (row / 2000). -/
theorem cover (i : S50000x256.Idx) :
    ∃ t : Fin cfg4.N, (cfg4.win 5).flush t = true ∧ i ∈ ((cfg4.win 5).blk t).view.set := by
  have hi0 : (i 0).val < 50000 := (i 0).isLt
  have hi1 : (i 1).val < 256 := (i 1).isLt
  obtain ⟨t, ht⟩ := idx_onto ⟨(i 0).val / 2000, by omega⟩
  have q0 : win4_5.index t (0 : Fin 2) = (i 0).val / 2000 := congrFun ht 0
  have q1 : win4_5.index t (1 : Fin 2) = 0 := congrFun ht 1
  refine ⟨t, flush4_5 t, ?_⟩
  rw [mem_blk]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 256 ≤ (i 1).val ∧ (i 1).val < win4_5.index t (1 : Fin 2) * 256 + 256; omega

/-- THE OUTPUT ARRAY after the region: `G` of the arrays the region found. -/
theorem final (c : Dev nD) : (dat4 (F := Ideal) V c).arrAt 5 cfg4.N = G V c :=
  (dat4 (F := Ideal) V c).arrAt_eq_of_cover 5 (G V c) (fun t _ => flushed_eq V c t) cover

end Cert.KernelIdeal.Final4

end
-- ==== Proof.RefLinear1.lean ====
/-
  The reference's dense linear map of the second layer read at one node's row: the host product contracts the 256
  channels of the layer's input row of node r against column q of the layer's 256 x 256 weight matrix, so the
  element (r, q) is the sum over k of input (r, k) * weight (k, q).  The input block and the weight slice are
  left as they are.
-/
import proofs.«166986_j16578573762731_1_alg».proof.Proof.RefRead
import proofs.«166986_j16578573762731_1_alg».proof.Proof.Spec
import Idealize.ShloMosaic.Lib.ValueIdx
import Idealize.ShloMosaic.Lib.Pipeline.Value
import Idealize.ShloMosaic.PureOps.Ideal.Laws

noncomputable section

namespace Cert.ReferenceIdeal.RefRows

open Idealize.ShloMosaic Idealize.ShloMosaic.ValueIdx Cert.ReferenceIdeal Cert.ReferenceIdeal.ReadP

variable (x0 : (⟨S50000x3, .f32⟩ : BufTy).Contents (Elt Ideal)) (x1 : (⟨S2x300000, .i32⟩ : BufTy).Contents (Elt Ideal)) (x3 : (⟨S3x256, .f32⟩ : BufTy).Contents (Elt Ideal)) (x4 x5 x6 : (⟨S256, .f32⟩ : BufTy).Contents (Elt Ideal)) (x7 : (⟨S3x256x256, .f32⟩ : BufTy).Contents (Elt Ideal)) (x8 x9 x10 : (⟨S3x256, .f32⟩ : BufTy).Contents (Elt Ideal))

/-- The second layer's dense product at node r, channel q is `linearRow` of the layer's input row of node r and
    the layer's weight matrix. -/
theorem linear_row_1 (r : Fin 50000) (q : Fin 256) :
    val_main_v114 (F := Ideal) x0 x1 x3 x4 x5 x6 x7 x8 x9 x10 (ix2 r q)
      = Cert.Spec.linearRow (fun k => val_main_v111 (F := Ideal) x0 x1 x3 x4 x5 x6 x7 x8 x9 x10 (ix2 r k))
          (fun k q' => val_main_v113 (F := Ideal) x7 (ix2 k q')) q := by
  rw [val_main_v114_apply]
  unfold Cert.Spec.linearRow
  refine Finset.sum_congr rfl fun k _ => ?_
  have el : lidx_main_v114 (ix2 r q) k = ix2 r k := funext fun a => Fin.ext (by match a with | ⟨0, _⟩ => rfl | ⟨1, _⟩ => rfl)
  have er : ridx_main_v114 (ix2 r q) k = ix2 k q := funext fun a => Fin.ext (by match a with | ⟨0, _⟩ => rfl | ⟨1, _⟩ => rfl)
  rw [el, er]

end Cert.ReferenceIdeal.RefRows

end
-- ==== Proof.RefAgg1.lean ====
/-
  The reference's post-aggregation stage of the second layer read at one node's row.  With
  y q' = h (r, q') + b q' the aggregated messages of node r plus the layer's bias row, the host program takes the
  row's mean and variance by two row sums (each started from the zero word, which is the real 0) divided by 256,
  subtracts the mean, multiplies by rsqrt (variance + eps), scales and shifts per channel, rectifies, and adds the
  layer's input at (r, q).  The aggregated block, the layer's input block and the three parameter rows are left
  as they are; every broadcast is read at the index it copies from.
-/
import proofs.«166986_j16578573762731_1_alg».proof.Proof.RefRead
import proofs.«166986_j16578573762731_1_alg».proof.Proof.Spec
import Idealize.ShloMosaic.Lib.ValueIdx
import Idealize.ShloMosaic.Lib.Pipeline.Value
import Idealize.ShloMosaic.PureOps.Ideal.Laws

noncomputable section

namespace Cert.ReferenceIdeal.RefRows

open Idealize.ShloMosaic Idealize.ShloMosaic.ValueIdx Cert.ReferenceIdeal Cert.ReferenceIdeal.ReadP

variable (x0 : (⟨S50000x3, .f32⟩ : BufTy).Contents (Elt Ideal)) (x1 : (⟨S2x300000, .i32⟩ : BufTy).Contents (Elt Ideal)) (x3 : (⟨S3x256, .f32⟩ : BufTy).Contents (Elt Ideal)) (x4 x5 x6 : (⟨S256, .f32⟩ : BufTy).Contents (Elt Ideal)) (x7 : (⟨S3x256x256, .f32⟩ : BufTy).Contents (Elt Ideal)) (x8 x9 x10 : (⟨S3x256, .f32⟩ : BufTy).Contents (Elt Ideal))

/-- The aggregated value plus bias at node r, channel k. -/
theorem agg1_y (r : Fin 50000) (k : Fin 256) :
    val_main_v132 (F := Ideal) x0 x1 x3 x4 x5 x6 x7 x8 x9 x10 (ix2 r k)
      = val_main_v127 (F := Ideal) x0 x1 x3 x4 x5 x6 x7 x8 x9 x10 (ix2 r k) + val_main_v129 (F := Ideal) x8 (ix1 k) := by
  have e : val_main_v129 (F := Ideal) x8 (idx_main_v130 (idx_main_v131 (ix2 r k))) = val_main_v129 (F := Ideal) x8 (ix1 k) :=
    congrArg _ (funext fun a => Fin.ext (by match a with | ⟨0, _⟩ => rfl))
  rw [val_main_v132_apply, val_main_v131_apply, val_main_v130_apply, e]
  rfl

/-- The mean column at node r is the mean of the biased row. -/
theorem agg1_mean (r : Fin 50000) (u : Fin 1) :
    val_main_v140 (F := Ideal) x0 x1 x3 x4 x5 x6 x7 x8 x9 x10 (ix2 r u)
      = Cert.Spec.mean (fun k => val_main_v132 (F := Ideal) x0 x1 x3 x4 x5 x6 x7 x8 x9 x10 (ix2 r k)) := by
  have e : ∀ k : Fin 256, val_main_v132 (F := Ideal) x0 x1 x3 x4 x5 x6 x7 x8 x9 x10 (idx_main_v137 (idx_main_v138 (ix2 r u)) k)
      = val_main_v132 (F := Ideal) x0 x1 x3 x4 x5 x6 x7 x8 x9 x10 (ix2 r k) := fun k =>
    congrArg _ (funext fun a => Fin.ext (by match a with | ⟨0, _⟩ => rfl | ⟨1, _⟩ => rfl))
  rw [val_main_v140_apply, val_main_v138_apply, val_main_v137_apply, val_main_v139_apply, val_main_cst_24_apply,
    val_main_cst_23_apply]
  simp only [e, Ideal.hostDivf_def, Ideal.ofBits_def, Ideal.ofBits_zero_f32, zero_add, Cert.Spec.mean]

/-- The variance column at node r is the variance of the biased row. -/
theorem agg1_var (r : Fin 50000) (u : Fin 1) :
    val_main_v147 (F := Ideal) x0 x1 x3 x4 x5 x6 x7 x8 x9 x10 (ix2 r u)
      = Cert.Spec.var (fun k => val_main_v132 (F := Ideal) x0 x1 x3 x4 x5 x6 x7 x8 x9 x10 (ix2 r k)) := by
  have e : ∀ k : Fin 256, val_main_v143 (F := Ideal) x0 x1 x3 x4 x5 x6 x7 x8 x9 x10 (idx_main_v144 (idx_main_v145 (ix2 r u)) k)
      = val_main_v143 (F := Ideal) x0 x1 x3 x4 x5 x6 x7 x8 x9 x10 (ix2 r k) := fun k =>
    congrArg _ (funext fun a => Fin.ext (by match a with | ⟨0, _⟩ => rfl | ⟨1, _⟩ => rfl))
  have em : ∀ k : Fin 256, val_main_v141 (F := Ideal) x0 x1 x3 x4 x5 x6 x7 x8 x9 x10 (ix2 r k)
      = Cert.Spec.mean (fun k => val_main_v132 (F := Ideal) x0 x1 x3 x4 x5 x6 x7 x8 x9 x10 (ix2 r k)) := fun k =>
    (val_main_v141_apply x0 x1 x3 x4 x5 x6 x7 x8 x9 x10 (ix2 r k)).trans
      ((congrArg _ (funext fun a => Fin.ext (by match a with | ⟨0, _⟩ => rfl | ⟨1, _⟩ => rfl))).trans
        (agg1_mean x0 x1 x3 x4 x5 x6 x7 x8 x9 x10 r (0 : Fin 1)))
  rw [val_main_v147_apply, val_main_v145_apply, val_main_v144_apply, val_main_v146_apply, val_main_cst_26_apply,
    val_main_cst_25_apply]
  simp only [e, val_main_v143_apply, val_main_v142_apply, em, Ideal.hostDivf_def, Ideal.mulf_def, Ideal.subf_def,
    Ideal.ofBits_def, Ideal.ofBits_zero_f32, zero_add, Cert.Spec.var]

/-- The second layer's post-aggregation stage at node r, channel q is `aggRow` of the aggregated row and the layer's
    input row of node r, and the layer's bias, scale and shift rows. -/
theorem agg_row_1 (r : Fin 50000) (q : Fin 256) :
    val_main_v162 (F := Ideal) x0 x1 x3 x4 x5 x6 x7 x8 x9 x10 (ix2 r q)
      = Cert.Spec.aggRow (fun k => val_main_v127 (F := Ideal) x0 x1 x3 x4 x5 x6 x7 x8 x9 x10 (ix2 r k))
          (fun k => val_main_v111 (F := Ideal) x0 x1 x3 x4 x5 x6 x7 x8 x9 x10 (ix2 r k))
          (fun q' => val_main_v129 (F := Ideal) x8 (ix1 q')) (fun q' => val_main_v134 (F := Ideal) x9 (ix1 q'))
          (fun q' => val_main_v136 (F := Ideal) x10 (ix1 q')) q := by
  have em : val_main_v148 (F := Ideal) x0 x1 x3 x4 x5 x6 x7 x8 x9 x10 (ix2 r q)
      = Cert.Spec.mean (fun k => val_main_v132 (F := Ideal) x0 x1 x3 x4 x5 x6 x7 x8 x9 x10 (ix2 r k)) :=
    (val_main_v148_apply x0 x1 x3 x4 x5 x6 x7 x8 x9 x10 (ix2 r q)).trans
      ((congrArg _ (funext fun a => Fin.ext (by match a with | ⟨0, _⟩ => rfl | ⟨1, _⟩ => rfl))).trans
        (agg1_mean x0 x1 x3 x4 x5 x6 x7 x8 x9 x10 r (0 : Fin 1)))
  have ev : val_main_v147 (F := Ideal) x0 x1 x3 x4 x5 x6 x7 x8 x9 x10 (idx_main_v153 (ix2 r q))
      = Cert.Spec.var (fun k => val_main_v132 (F := Ideal) x0 x1 x3 x4 x5 x6 x7 x8 x9 x10 (ix2 r k)) :=
    (congrArg _ (funext fun a => Fin.ext (by match a with | ⟨0, _⟩ => rfl | ⟨1, _⟩ => rfl))).trans
      (agg1_var x0 x1 x3 x4 x5 x6 x7 x8 x9 x10 r (0 : Fin 1))
  have eg : val_main_v134 (F := Ideal) x9 (idx_main_v155 (idx_main_v156 (ix2 r q))) = val_main_v134 (F := Ideal) x9 (ix1 q) :=
    congrArg _ (funext fun a => Fin.ext (by match a with | ⟨0, _⟩ => rfl))
  have eb : val_main_v136 (F := Ideal) x10 (idx_main_v158 (idx_main_v159 (ix2 r q))) = val_main_v136 (F := Ideal) x10 (ix1 q) :=
    congrArg _ (funext fun a => Fin.ext (by match a with | ⟨0, _⟩ => rfl))
  rw [val_main_v162_apply, val_main_v161_apply, val_main_call3_v0_apply, val_main_call3_cst_apply,
    val_main_v160_apply, val_main_v159_apply, val_main_v158_apply, val_main_v157_apply, val_main_v156_apply,
    val_main_v155_apply, val_main_v154_apply, val_main_v153_apply, val_main_v152_apply, val_main_v151_apply,
    val_main_v150_apply, val_main_cst_27_apply, val_main_v149_apply, em, ev, eg, eb]
  simp only [agg1_y, Ideal.addf_def, Ideal.mulf_def, Ideal.subf_def, Ideal.maximumf_def, Ideal.hostUnary_rsqrt_def,
    Ideal.ofBits_def, Cert.Spec.aggRow, Cert.Spec.gn]

end Cert.ReferenceIdeal.RefRows

end
-- ==== Proof.GlueL1.lean ====
/-
  Layer 1 of the idealized kernel program, boundaries 8 to 12.

  From the node features x at boundary 8: the layer's weight matrix is sliced out of the stacked weights; the dense
  linear region writes x times that matrix; the host gathers each edge's source row, scales it by the edge's weight
  and adds it into the destination node's row; the layer's bias, scale and shift vectors are sliced out and laid as
  rows; the post-aggregation region normalises, rectifies and adds x back.  Each buffer is the reference's own stage
  of the arguments: the host steps are the same operations, and each dense region is the same function row by row.
-/
import proofs.«166986_j16578573762731_1_alg».proof.Proof.Gen.KernelIdeal.Frame
import proofs.«166986_j16578573762731_1_alg».proof.Proof.GlueKeep
import proofs.«166986_j16578573762731_1_alg».proof.Proof.GluePre
import proofs.«166986_j16578573762731_1_alg».proof.Proof.GlueL0
import proofs.«166986_j16578573762731_1_alg».proof.Proof.Final3
import proofs.«166986_j16578573762731_1_alg».proof.Proof.Final4
import proofs.«166986_j16578573762731_1_alg».proof.Proof.RefRead
import proofs.«166986_j16578573762731_1_alg».proof.Proof.RefLinear1
import proofs.«166986_j16578573762731_1_alg».proof.Proof.RefAgg1
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.GlueL1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

open Idealize.ShloMosaic.StableHlo
set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)
local notation "a16" => m ((c : Thread nD τ).loc main_arg16)

/-- The node features are carried to the linear region's entry. -/
theorem xB1 : W9 m ρ c (Proc.devRef .tc main_v61) = Cert.ReferenceIdeal.ReadP.val_main_v111 (F := Ideal) a0 a1 a3 a4 a5 a6 a7 a8 a9 a10 := (Keep.keep9 m ρ c main_v61 (by decide)).trans (Cert.KernelIdeal.GlueL0.xNext m ρ c)
set_option maxHeartbeats 4000000 in
/-- The layer's weight matrix. -/
theorem wB1 : W9 m ρ c (Proc.devRef .tc main_v63) = Cert.ReferenceIdeal.ReadP.val_main_v113 (F := Ideal) a7 := by
  have hs : ∀ (V : Valuation τ sig (Elt Ideal)) (h0 : V (Proc.devRef .tc main_arg7) = a7) , StableHlo.after hostOps3 V (Proc.devRef .tc main_v63) = Cert.ReferenceIdeal.ReadP.val_main_v113 (F := Ideal) a7 := by
    intro V h0
    after_results
    rw [h0]
    try simp only [TRef.toBuf, TRef.ofBuf, cast_eq]
    rfl
  exact hs (W8 m ρ c) ((((Keep.keep8 m ρ c main_arg7 (by decide)).trans ((Keep.keep7 m ρ c main_arg7 (by decide)).trans ((Keep.keep6 m ρ c main_arg7 (by decide)).trans ((Keep.keep5 m ρ c main_arg7 (by decide)).trans ((Keep.keep4 m ρ c main_arg7 (by decide)).trans ((Keep.keep3 m ρ c main_arg7 (by decide)).trans ((Keep.keep2 m ρ c main_arg7 (by decide)).trans (Keep.keep1 m ρ c main_arg7 (by decide))))))))).trans (rfl : W0 m ρ c (Proc.devRef .tc main_arg7) = a7)))
/-- The linear region's output: the features times the layer's weights. -/
theorem hB2 : W10 m ρ c (Proc.devRef .tc main_v64) = Cert.ReferenceIdeal.ReadP.val_main_v114 (F := Ideal) a0 a1 a3 a4 a5 a6 a7 a8 a9 a10 := by
  refine (W10_arr m ρ c 2).trans ((Cert.KernelIdeal.Final3.final (V9 m ρ) c).trans ?_)
  funext i
  obtain ⟨r, q, rfl⟩ : ∃ (r : Fin 50000) (q : Fin 256), i = ix2 r q := ⟨i 0, i 1, eq_ix2 i⟩
  rw [Cert.ReferenceIdeal.RefRows.linear_row_1]
  show Cert.Spec.linearRow (fun k => V9 m ρ c main_v61 (ix2 r k)) (fun k q' => V9 m ρ c main_v63 (ix2 k q')) q = _
  have e1 : V9 m ρ c main_v61 = Cert.ReferenceIdeal.ReadP.val_main_v111 (F := Ideal) a0 a1 a3 a4 a5 a6 a7 a8 a9 a10 := xB1 m ρ c
  have e2 : V9 m ρ c main_v63 = Cert.ReferenceIdeal.ReadP.val_main_v113 (F := Ideal) a7 := wB1 m ρ c
  rw [e1, e2]
theorem e3B2 : W10 m ρ c (Proc.devRef .tc main_v3) = Cert.ReferenceIdeal.ReadP.val_main_v3 (F := Ideal) a1 := ((Keep.keep10 m ρ c main_v3 (by decide)).trans ((Keep.keep9 m ρ c main_v3 (by decide)).trans ((Keep.keep8 m ρ c main_v3 (by decide)).trans ((Keep.keep7 m ρ c main_v3 (by decide)).trans ((Keep.keep6 m ρ c main_v3 (by decide)).trans ((Keep.keep5 m ρ c main_v3 (by decide)).trans (Keep.keep4 m ρ c main_v3 (by decide)))))))).trans (Cert.KernelIdeal.GluePre.w3_v3 m ρ c)
theorem e6B2 : W10 m ρ c (Proc.devRef .tc main_v6) = Cert.ReferenceIdeal.ReadP.val_main_v6 (F := Ideal) a1 := ((Keep.keep10 m ρ c main_v6 (by decide)).trans ((Keep.keep9 m ρ c main_v6 (by decide)).trans ((Keep.keep8 m ρ c main_v6 (by decide)).trans ((Keep.keep7 m ρ c main_v6 (by decide)).trans ((Keep.keep6 m ρ c main_v6 (by decide)).trans ((Keep.keep5 m ρ c main_v6 (by decide)).trans (Keep.keep4 m ρ c main_v6 (by decide)))))))).trans (Cert.KernelIdeal.GluePre.w3_v6 m ρ c)
theorem e31B2 : W10 m ρ c (Proc.devRef .tc main_v31) = Cert.ReferenceIdeal.ReadP.val_main_v31 (F := Ideal) a1 := ((Keep.keep10 m ρ c main_v31 (by decide)).trans ((Keep.keep9 m ρ c main_v31 (by decide)).trans ((Keep.keep8 m ρ c main_v31 (by decide)).trans ((Keep.keep7 m ρ c main_v31 (by decide)).trans ((Keep.keep6 m ρ c main_v31 (by decide)).trans ((Keep.keep5 m ρ c main_v31 (by decide)).trans (Keep.keep4 m ρ c main_v31 (by decide)))))))).trans (Cert.KernelIdeal.GluePre.w3_v31 m ρ c)
set_option maxHeartbeats 4000000 in
/-- The aggregated messages: each edge's source row times its weight, summed into its destination row. -/
theorem aggB3 : W11 m ρ c (Proc.devRef .tc main_v77) = Cert.ReferenceIdeal.ReadP.val_main_v127 (F := Ideal) a0 a1 a3 a4 a5 a6 a7 a8 a9 a10 := by
  have hs : ∀ (V : Valuation τ sig (Elt Ideal)) (h0 : V (Proc.devRef .tc main_v64) = Cert.ReferenceIdeal.ReadP.val_main_v114 (F := Ideal) a0 a1 a3 a4 a5 a6 a7 a8 a9 a10) (h1 : V (Proc.devRef .tc main_v3) = Cert.ReferenceIdeal.ReadP.val_main_v3 (F := Ideal) a1) (h2 : V (Proc.devRef .tc main_v6) = Cert.ReferenceIdeal.ReadP.val_main_v6 (F := Ideal) a1) (h3 : V (Proc.devRef .tc main_v31) = Cert.ReferenceIdeal.ReadP.val_main_v31 (F := Ideal) a1) , StableHlo.after hostOps4 V (Proc.devRef .tc main_v77) = Cert.ReferenceIdeal.ReadP.val_main_v127 (F := Ideal) a0 a1 a3 a4 a5 a6 a7 a8 a9 a10 := by
    intro V h0 h1 h2 h3
    after_results
    rw [h0, h1, h2, h3]
    try simp only [TRef.toBuf, TRef.ofBuf, cast_eq]
    rfl
  exact hs (W10 m ρ c) (hB2 m ρ c) (e3B2 m ρ c) (e6B2 m ρ c) (e31B2 m ρ c)
set_option maxHeartbeats 4000000 in
/-- The layer's bias vector as a row. -/
theorem bRow : W11 m ρ c (Proc.devRef .tc main_v84) = shapeCast S1x256 (Cert.ReferenceIdeal.ReadP.val_main_v129 (F := Ideal) a8) shapeCasts_S256_S1x256 := by
  have hs : ∀ (V : Valuation τ sig (Elt Ideal)) (h0 : V (Proc.devRef .tc main_arg8) = a8) , StableHlo.after hostOps4 V (Proc.devRef .tc main_v84) = shapeCast S1x256 (Cert.ReferenceIdeal.ReadP.val_main_v129 (F := Ideal) a8) shapeCasts_S256_S1x256 := by
    intro V h0
    after_results
    rw [h0]
    try simp only [TRef.toBuf, TRef.ofBuf, cast_eq]
    rfl
  exact hs (W10 m ρ c) ((((Keep.keep10 m ρ c main_arg8 (by decide)).trans ((Keep.keep9 m ρ c main_arg8 (by decide)).trans ((Keep.keep8 m ρ c main_arg8 (by decide)).trans ((Keep.keep7 m ρ c main_arg8 (by decide)).trans ((Keep.keep6 m ρ c main_arg8 (by decide)).trans ((Keep.keep5 m ρ c main_arg8 (by decide)).trans ((Keep.keep4 m ρ c main_arg8 (by decide)).trans ((Keep.keep3 m ρ c main_arg8 (by decide)).trans ((Keep.keep2 m ρ c main_arg8 (by decide)).trans (Keep.keep1 m ρ c main_arg8 (by decide))))))))))).trans (rfl : W0 m ρ c (Proc.devRef .tc main_arg8) = a8)))
set_option maxHeartbeats 4000000 in
/-- The layer's scale vector as a row. -/
theorem gRow : W11 m ρ c (Proc.devRef .tc main_v85) = shapeCast S1x256 (Cert.ReferenceIdeal.ReadP.val_main_v134 (F := Ideal) a9) shapeCasts_S256_S1x256 := by
  have hs : ∀ (V : Valuation τ sig (Elt Ideal)) (h0 : V (Proc.devRef .tc main_arg9) = a9) , StableHlo.after hostOps4 V (Proc.devRef .tc main_v85) = shapeCast S1x256 (Cert.ReferenceIdeal.ReadP.val_main_v134 (F := Ideal) a9) shapeCasts_S256_S1x256 := by
    intro V h0
    after_results
    rw [h0]
    try simp only [TRef.toBuf, TRef.ofBuf, cast_eq]
    rfl
  exact hs (W10 m ρ c) ((((Keep.keep10 m ρ c main_arg9 (by decide)).trans ((Keep.keep9 m ρ c main_arg9 (by decide)).trans ((Keep.keep8 m ρ c main_arg9 (by decide)).trans ((Keep.keep7 m ρ c main_arg9 (by decide)).trans ((Keep.keep6 m ρ c main_arg9 (by decide)).trans ((Keep.keep5 m ρ c main_arg9 (by decide)).trans ((Keep.keep4 m ρ c main_arg9 (by decide)).trans ((Keep.keep3 m ρ c main_arg9 (by decide)).trans ((Keep.keep2 m ρ c main_arg9 (by decide)).trans (Keep.keep1 m ρ c main_arg9 (by decide))))))))))).trans (rfl : W0 m ρ c (Proc.devRef .tc main_arg9) = a9)))
set_option maxHeartbeats 4000000 in
/-- The layer's shift vector as a row. -/
theorem sRow : W11 m ρ c (Proc.devRef .tc main_v86) = shapeCast S1x256 (Cert.ReferenceIdeal.ReadP.val_main_v136 (F := Ideal) a10) shapeCasts_S256_S1x256 := by
  have hs : ∀ (V : Valuation τ sig (Elt Ideal)) (h0 : V (Proc.devRef .tc main_arg10) = a10) , StableHlo.after hostOps4 V (Proc.devRef .tc main_v86) = shapeCast S1x256 (Cert.ReferenceIdeal.ReadP.val_main_v136 (F := Ideal) a10) shapeCasts_S256_S1x256 := by
    intro V h0
    after_results
    rw [h0]
    try simp only [TRef.toBuf, TRef.ofBuf, cast_eq]
    rfl
  exact hs (W10 m ρ c) ((((Keep.keep10 m ρ c main_arg10 (by decide)).trans ((Keep.keep9 m ρ c main_arg10 (by decide)).trans ((Keep.keep8 m ρ c main_arg10 (by decide)).trans ((Keep.keep7 m ρ c main_arg10 (by decide)).trans ((Keep.keep6 m ρ c main_arg10 (by decide)).trans ((Keep.keep5 m ρ c main_arg10 (by decide)).trans ((Keep.keep4 m ρ c main_arg10 (by decide)).trans ((Keep.keep3 m ρ c main_arg10 (by decide)).trans ((Keep.keep2 m ρ c main_arg10 (by decide)).trans (Keep.keep1 m ρ c main_arg10 (by decide))))))))))).trans (rfl : W0 m ρ c (Proc.devRef .tc main_arg10) = a10)))
/-- The node features are carried to the post-aggregation region's entry (they are the linear region's input array). -/
theorem xB3 : W11 m ρ c (Proc.devRef .tc main_v61) = Cert.ReferenceIdeal.ReadP.val_main_v111 (F := Ideal) a0 a1 a3 a4 a5 a6 a7 a8 a9 a10 := ((Keep.keep11 m ρ c main_v61 (by decide)).trans (Keep.keepIn10 m ρ c 0 rfl)).trans (xB1 m ρ c)
/-- The post-aggregation region's output: the next node features. -/
theorem xNext : W12 m ρ c (Proc.devRef .tc main_v87) = Cert.ReferenceIdeal.ReadP.val_main_v162 (F := Ideal) a0 a1 a3 a4 a5 a6 a7 a8 a9 a10 := by
  refine (W12_arr m ρ c 5).trans ((Cert.KernelIdeal.Final4.final (V11 m ρ) c).trans ?_)
  funext i
  obtain ⟨r, q, rfl⟩ : ∃ (r : Fin 50000) (q : Fin 256), i = ix2 r q := ⟨i 0, i 1, eq_ix2 i⟩
  rw [Cert.ReferenceIdeal.RefRows.agg_row_1]
  show Cert.Spec.aggRow (fun k => V11 m ρ c main_v77 (ix2 r k)) (fun k => V11 m ρ c main_v61 (ix2 r k)) (fun q' => V11 m ρ c main_v84 (ix2 (0 : Fin 1) q')) (fun q' => V11 m ρ c main_v85 (ix2 (0 : Fin 1) q')) (fun q' => V11 m ρ c main_v86 (ix2 (0 : Fin 1) q')) q = _
  have e1 : V11 m ρ c main_v77 = Cert.ReferenceIdeal.ReadP.val_main_v127 (F := Ideal) a0 a1 a3 a4 a5 a6 a7 a8 a9 a10 := aggB3 m ρ c
  have e2 : V11 m ρ c main_v61 = Cert.ReferenceIdeal.ReadP.val_main_v111 (F := Ideal) a0 a1 a3 a4 a5 a6 a7 a8 a9 a10 := xB3 m ρ c
  have e3 : V11 m ρ c main_v84 = shapeCast S1x256 (Cert.ReferenceIdeal.ReadP.val_main_v129 (F := Ideal) a8) shapeCasts_S256_S1x256 := bRow m ρ c
  have e4 : V11 m ρ c main_v85 = shapeCast S1x256 (Cert.ReferenceIdeal.ReadP.val_main_v134 (F := Ideal) a9) shapeCasts_S256_S1x256 := gRow m ρ c
  have e5 : V11 m ρ c main_v86 = shapeCast S1x256 (Cert.ReferenceIdeal.ReadP.val_main_v136 (F := Ideal) a10) shapeCasts_S256_S1x256 := sRow m ρ c
  rw [e1, e2, e3, e4, e5]
  simp only [shapeCast_a_1a_apply]

end Cert.KernelIdeal.GlueL1

end
-- ==== Proof.Final5.lean ====
/-
  Region 5 (a dense linear map): from what each grid point writes back to the whole output array.

  The grid has 25 points; point t handles rows 2000·t … 2000·t + 1999 of every node-indexed array, and reads the
  parameter arrays whole.  So what point t writes back is rows 2000·t … of ONE function of the arrays as the region
  finds them — the per-row function of Spec.lean at the row's own entries — and, the 25 row blocks tiling the 50000
  rows, the output array ends at that function everywhere.
  (The steps — the index maps decided over the grid, a block's coordinate as index × size + offset, membership in a
  block, the cover — are those of a pointwise kernel's closed form; here an entry depends on its whole row.)
-/
import proofs.«166986_j16578573762731_1_alg».proof.Proof.Gen.KernelIdeal.Frame
import proofs.«166986_j16578573762731_1_alg».proof.Proof.PayLinear
import Idealize.ShloMosaic.Lib.ValueIdx
import Idealize.ShloMosaic.Lib.Pipeline.Value

set_option maxRecDepth 16384

noncomputable section

namespace Cert.KernelIdeal.Final5

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- An index's row and channel as numbers below the literal extents. -/
abbrev rowOf (i : S50000x256.Idx) : Fin 50000 := ⟨(i 0).val, (i 0).isLt⟩
abbrev colOf (i : S50000x256.Idx) : Fin 256 := ⟨(i 1).val, (i 1).isLt⟩

/-- The stage as ONE function of the arrays the region finds: entry (r, q) from row r of the node-indexed inputs. -/
def G (c : Dev nD) : S50000x256.Idx → EReal := fun i =>
  Cert.Spec.linearRow (fun k => V c main_v87 (ix2 (rowOf i) k)) (fun k q' => V c main_v89 (ix2 k q')) (colOf i)

/-- The printed index maps, decided over the 25 grid points: node-indexed windows move with the output's row block,
    parameter windows stay at block 0. -/
theorem idx_facts : ∀ t : Fin cfg5.N, win5_0.index t (0 : Fin 2) = win5_2.index t (0 : Fin 2) ∧ win5_0.index t (1 : Fin 2) = 0
    ∧ win5_1.index t (0 : Fin 2) = 0 ∧ win5_1.index t (1 : Fin 2) = 0
    ∧ win5_2.index t (1 : Fin 2) = 0 :=
  (by decide +kernel : ∀ t : Fin grid5.N, _)

/-- Every row block is some point's. -/
theorem idx_onto : ∀ q0 : Fin 25, ∃ t : Fin cfg5.N, win5_2.index t = ![q0.val, 0] :=
  (by decide +kernel : ∀ q0 : Fin 25, ∃ t : Fin grid5.N, win5_2.index t = ![q0.val, 0])

/-- WHAT POINT t WRITES BACK is block t of `G`. -/
theorem flushed_eq (c : Dev nD) (t : Fin cfg5.N) :
    (dat5 (F := Ideal) V c).flushed 2 t = ((cfg5.win 2).blk t).view.read (Elt Ideal) (G V c) := by
  show (cfg5.win 2).cut (grid5.coords t) ((dat5 (F := Ideal) V c).after 2 t) = _
  rw [after5_2]
  unfold out5_2
  rw [View.canon_unit_zero hz]
  simp only [View.ld_unit_zero (S := S2000x256) hz, View.ld_unit_zero (S := S256x256) hz]
  obtain ⟨e00, e01, e10, e11, e21⟩ := idx_facts t
  funext j
  obtain ⟨p, q, rfl⟩ : ∃ (p : Fin 2000) (q : Fin 256), j = ix2 p q := ⟨j 0, j 1, eq_ix2 j⟩
  show k5_pay1 (iblk5 V c 0 t) (iblk5 V c 1 t) (ix2 p q) = G V c (((cfg5.win 2).blk t).view.emb (ix2 p q))
  refine (Cert.KernelIdeal.Pay.linear_pay (iblk5 V c 0 t) (iblk5 V c 1 t) p q).trans ?_
  unfold G
  have r0 : ∀ k : Fin 256, iblk5 V c 0 t (ix2 p k) = V c main_v87 (ix2 (rowOf (((cfg5.win 2).blk t).view.emb (ix2 p q))) k) := fun k => by
    show V c main_v87 (((cfg5.win 0).blk t).view.emb (ix2 p k)) = _
    refine congrArg (V c main_v87) (funext fun a => Fin.ext ?_)
    match a with
    | ⟨0, _⟩ => show win5_0.index t (0 : Fin 2) * 2000 + 1 * p.val = win5_2.index t (0 : Fin 2) * 2000 + 1 * p.val; omega
    | ⟨1, _⟩ => show win5_0.index t (1 : Fin 2) * 256 + 1 * k.val = k.val; omega
  have r1 : ∀ (k : Fin 256) (q' : Fin 256), iblk5 V c 1 t (ix2 k q') = V c main_v89 (ix2 k q') := fun k q' => by
    show V c main_v89 (((cfg5.win 1).blk t).view.emb (ix2 k q')) = _
    refine congrArg (V c main_v89) (funext fun a => Fin.ext ?_)
    match a with
    | ⟨0, _⟩ => show win5_1.index t (0 : Fin 2) * 256 + 1 * k.val = k.val; omega
    | ⟨1, _⟩ => show win5_1.index t (1 : Fin 2) * 256 + 1 * q'.val = q'.val; omega
  have hq : colOf (((cfg5.win 2).blk t).view.emb (ix2 p q)) = q := Fin.ext (by
    show win5_2.index t (1 : Fin 2) * 256 + 1 * q.val = q.val; omega)
  rw [hq]
  simp only [r0, r1]

/-- An index of the array is in point t's block iff each coordinate is in the block's range on its axis. -/
theorem mem_blk (t : Fin cfg5.N) (i : S50000x256.Idx) :
    i ∈ ((cfg5.win 2).blk t).view.set ↔ ∀ a : Fin 2, win5_2.index t a * S2000x256.size a ≤ (i a).val ∧ (i a).val < win5_2.index t a * S2000x256.size a + S2000x256.size a := by
  show i ∈ ((View.whole main_v90).slice (win5_2.rect t)).set ↔ _
  rw [View.set_slice_whole, Rect.mem_set_unit]
  exact Iff.rfl

/-- Every index is in the block of the point that handles its row: point (row / 2000). -/
theorem cover (i : S50000x256.Idx) :
    ∃ t : Fin cfg5.N, (cfg5.win 2).flush t = true ∧ i ∈ ((cfg5.win 2).blk t).view.set := by
  have hi0 : (i 0).val < 50000 := (i 0).isLt
  have hi1 : (i 1).val < 256 := (i 1).isLt
  obtain ⟨t, ht⟩ := idx_onto ⟨(i 0).val / 2000, by omega⟩
  have q0 : win5_2.index t (0 : Fin 2) = (i 0).val / 2000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 256 ≤ (i 1).val ∧ (i 1).val < win5_2.index t (1 : Fin 2) * 256 + 256; omega

/-- THE OUTPUT ARRAY after the region: `G` of the arrays the region found. -/
theorem final (c : Dev nD) : (dat5 (F := Ideal) V c).arrAt 2 cfg5.N = G V c :=
  (dat5 (F := Ideal) V c).arrAt_eq_of_cover 2 (G V c) (fun t _ => flushed_eq V c t) cover

end Cert.KernelIdeal.Final5

end
-- ==== Proof.Final6.lean ====
/-
  Region 6 (a post-aggregation stage): from what each grid point writes back to the whole output array.

  The grid has 25 points; point t handles rows 2000·t … 2000·t + 1999 of every node-indexed array, and reads the
  parameter arrays whole.  So what point t writes back is rows 2000·t … of ONE function of the arrays as the region
  finds them — the per-row function of Spec.lean at the row's own entries — and, the 25 row blocks tiling the 50000
  rows, the output array ends at that function everywhere.
  (The steps — the index maps decided over the grid, a block's coordinate as index × size + offset, membership in a
  block, the cover — are those of a pointwise kernel's closed form; here an entry depends on its whole row.)
-/
import proofs.«166986_j16578573762731_1_alg».proof.Proof.Gen.KernelIdeal.Frame
import proofs.«166986_j16578573762731_1_alg».proof.Proof.PayAgg
import Idealize.ShloMosaic.Lib.ValueIdx
import Idealize.ShloMosaic.Lib.Pipeline.Value

set_option maxRecDepth 16384

noncomputable section

namespace Cert.KernelIdeal.Final6

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- An index's row and channel as numbers below the literal extents. -/
abbrev rowOf (i : S50000x256.Idx) : Fin 50000 := ⟨(i 0).val, (i 0).isLt⟩
abbrev colOf (i : S50000x256.Idx) : Fin 256 := ⟨(i 1).val, (i 1).isLt⟩

/-- The stage as ONE function of the arrays the region finds: entry (r, q) from row r of the node-indexed inputs. -/
def G (c : Dev nD) : S50000x256.Idx → EReal := fun i =>
  Cert.Spec.aggRow (fun k => V c main_v103 (ix2 (rowOf i) k)) (fun k => V c main_v87 (ix2 (rowOf i) k))
    (fun q' => V c main_v110 (ix2 (0 : Fin 1) q')) (fun q' => V c main_v111 (ix2 (0 : Fin 1) q')) (fun q' => V c main_v112 (ix2 (0 : Fin 1) q')) (colOf i)

/-- The printed index maps, decided over the 25 grid points: node-indexed windows move with the output's row block,
    parameter windows stay at block 0. -/
theorem idx_facts : ∀ t : Fin cfg6.N, win6_0.index t (0 : Fin 2) = win6_5.index t (0 : Fin 2) ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = win6_5.index t (0 : Fin 2) ∧ win6_4.index t (1 : Fin 2) = 0
    ∧ win6_5.index t (1 : Fin 2) = 0 :=
  (by decide +kernel : ∀ t : Fin grid6.N, _)

/-- Every row block is some point's. -/
theorem idx_onto : ∀ q0 : Fin 25, ∃ t : Fin cfg6.N, win6_5.index t = ![q0.val, 0] :=
  (by decide +kernel : ∀ q0 : Fin 25, ∃ t : Fin grid6.N, win6_5.index t = ![q0.val, 0])

/-- WHAT POINT t WRITES BACK is block t of `G`. -/
theorem flushed_eq (c : Dev nD) (t : Fin cfg6.N) :
    (dat6 (F := Ideal) V c).flushed 5 t = ((cfg6.win 5).blk t).view.read (Elt Ideal) (G V c) := by
  show (cfg6.win 5).cut (grid6.coords t) ((dat6 (F := Ideal) V c).after 5 t) = _
  rw [after6_5]
  unfold out6_5
  rw [View.canon_unit_zero hz]
  simp only [View.ld_unit_zero (S := S2000x256) hz, View.ld_unit_zero (S := S1x256) hz]
  obtain ⟨e00, e01, e10, e11, e20, e21, e30, e31, e40, e41, e51⟩ := idx_facts t
  funext j
  obtain ⟨p, q, rfl⟩ : ∃ (p : Fin 2000) (q : Fin 256), j = ix2 p q := ⟨j 0, j 1, eq_ix2 j⟩
  show k6_pay1 (iblk6 V c 0 t) (iblk6 V c 1 t) (iblk6 V c 2 t) (iblk6 V c 3 t) (iblk6 V c 4 t) (ix2 p q) = G V c (((cfg6.win 5).blk t).view.emb (ix2 p q))
  refine (Cert.KernelIdeal.Pay.agg_pay (iblk6 V c 0 t) (iblk6 V c 1 t) (iblk6 V c 2 t) (iblk6 V c 3 t) (iblk6 V c 4 t) p q).trans ?_
  unfold G
  have r0 : ∀ k : Fin 256, iblk6 V c 0 t (ix2 p k) = V c main_v103 (ix2 (rowOf (((cfg6.win 5).blk t).view.emb (ix2 p q))) k) := fun k => by
    show V c main_v103 (((cfg6.win 0).blk t).view.emb (ix2 p k)) = _
    refine congrArg (V c main_v103) (funext fun a => Fin.ext ?_)
    match a with
    | ⟨0, _⟩ => show win6_0.index t (0 : Fin 2) * 2000 + 1 * p.val = win6_5.index t (0 : Fin 2) * 2000 + 1 * p.val; omega
    | ⟨1, _⟩ => show win6_0.index t (1 : Fin 2) * 256 + 1 * k.val = k.val; omega
  have r1 : ∀ (k : Fin 1) (q' : Fin 256), iblk6 V c 1 t (ix2 k q') = V c main_v110 (ix2 k q') := fun k q' => by
    show V c main_v110 (((cfg6.win 1).blk t).view.emb (ix2 k q')) = _
    refine congrArg (V c main_v110) (funext fun a => Fin.ext ?_)
    match a with
    | ⟨0, _⟩ => show win6_1.index t (0 : Fin 2) * 1 + 1 * k.val = k.val; omega
    | ⟨1, _⟩ => show win6_1.index t (1 : Fin 2) * 256 + 1 * q'.val = q'.val; omega
  have r2 : ∀ (k : Fin 1) (q' : Fin 256), iblk6 V c 2 t (ix2 k q') = V c main_v111 (ix2 k q') := fun k q' => by
    show V c main_v111 (((cfg6.win 2).blk t).view.emb (ix2 k q')) = _
    refine congrArg (V c main_v111) (funext fun a => Fin.ext ?_)
    match a with
    | ⟨0, _⟩ => show win6_2.index t (0 : Fin 2) * 1 + 1 * k.val = k.val; omega
    | ⟨1, _⟩ => show win6_2.index t (1 : Fin 2) * 256 + 1 * q'.val = q'.val; omega
  have r3 : ∀ (k : Fin 1) (q' : Fin 256), iblk6 V c 3 t (ix2 k q') = V c main_v112 (ix2 k q') := fun k q' => by
    show V c main_v112 (((cfg6.win 3).blk t).view.emb (ix2 k q')) = _
    refine congrArg (V c main_v112) (funext fun a => Fin.ext ?_)
    match a with
    | ⟨0, _⟩ => show win6_3.index t (0 : Fin 2) * 1 + 1 * k.val = k.val; omega
    | ⟨1, _⟩ => show win6_3.index t (1 : Fin 2) * 256 + 1 * q'.val = q'.val; omega
  have r4 : ∀ k : Fin 256, iblk6 V c 4 t (ix2 p k) = V c main_v87 (ix2 (rowOf (((cfg6.win 5).blk t).view.emb (ix2 p q))) k) := fun k => by
    show V c main_v87 (((cfg6.win 4).blk t).view.emb (ix2 p k)) = _
    refine congrArg (V c main_v87) (funext fun a => Fin.ext ?_)
    match a with
    | ⟨0, _⟩ => show win6_4.index t (0 : Fin 2) * 2000 + 1 * p.val = win6_5.index t (0 : Fin 2) * 2000 + 1 * p.val; omega
    | ⟨1, _⟩ => show win6_4.index t (1 : Fin 2) * 256 + 1 * k.val = k.val; omega
  have hq : colOf (((cfg6.win 5).blk t).view.emb (ix2 p q)) = q := Fin.ext (by
    show win6_5.index t (1 : Fin 2) * 256 + 1 * q.val = q.val; omega)
  rw [hq]
  simp only [r0, r1, r2, r3, r4]

/-- An index of the array is in point t's block iff each coordinate is in the block's range on its axis. -/
theorem mem_blk (t : Fin cfg6.N) (i : S50000x256.Idx) :
    i ∈ ((cfg6.win 5).blk t).view.set ↔ ∀ a : Fin 2, win6_5.index t a * S2000x256.size a ≤ (i a).val ∧ (i a).val < win6_5.index t a * S2000x256.size a + S2000x256.size a := by
  show i ∈ ((View.whole main_v113).slice (win6_5.rect t)).set ↔ _
  rw [View.set_slice_whole, Rect.mem_set_unit]
  exact Iff.rfl

/-- Every index is in the block of the point that handles its row: point (row / 2000). -/
theorem cover (i : S50000x256.Idx) :
    ∃ t : Fin cfg6.N, (cfg6.win 5).flush t = true ∧ i ∈ ((cfg6.win 5).blk t).view.set := by
  have hi0 : (i 0).val < 50000 := (i 0).isLt
  have hi1 : (i 1).val < 256 := (i 1).isLt
  obtain ⟨t, ht⟩ := idx_onto ⟨(i 0).val / 2000, by omega⟩
  have q0 : win6_5.index t (0 : Fin 2) = (i 0).val / 2000 := congrFun ht 0
  have q1 : win6_5.index t (1 : Fin 2) = 0 := congrFun ht 1
  refine ⟨t, flush6_5 t, ?_⟩
  rw [mem_blk]
  intro a
  match a with
  | ⟨0, _⟩ => show win6_5.index t (0 : Fin 2) * 2000 ≤ (i 0).val ∧ (i 0).val < win6_5.index t (0 : Fin 2) * 2000 + 2000; omega
  | ⟨1, _⟩ => show win6_5.index t (1 : Fin 2) * 256 ≤ (i 1).val ∧ (i 1).val < win6_5.index t (1 : Fin 2) * 256 + 256; omega

/-- THE OUTPUT ARRAY after the region: `G` of the arrays the region found. -/
theorem final (c : Dev nD) : (dat6 (F := Ideal) V c).arrAt 5 cfg6.N = G V c :=
  (dat6 (F := Ideal) V c).arrAt_eq_of_cover 5 (G V c) (fun t _ => flushed_eq V c t) cover

end Cert.KernelIdeal.Final6

end
-- ==== Proof.RefLinear2.lean ====
/-
  The reference's dense linear map of the third layer read at one node's row: the host product contracts the 256
  channels of the layer's input row of node r against column q of the layer's 256 x 256 weight matrix, so the
  element (r, q) is the sum over k of input (r, k) * weight (k, q).  The input block and the weight slice are
  left as they are.
-/
import proofs.«166986_j16578573762731_1_alg».proof.Proof.RefRead
import proofs.«166986_j16578573762731_1_alg».proof.Proof.Spec
import Idealize.ShloMosaic.Lib.ValueIdx
import Idealize.ShloMosaic.Lib.Pipeline.Value
import Idealize.ShloMosaic.PureOps.Ideal.Laws

noncomputable section

namespace Cert.ReferenceIdeal.RefRows

open Idealize.ShloMosaic Idealize.ShloMosaic.ValueIdx Cert.ReferenceIdeal Cert.ReferenceIdeal.ReadP

variable (x0 : (⟨S50000x3, .f32⟩ : BufTy).Contents (Elt Ideal)) (x1 : (⟨S2x300000, .i32⟩ : BufTy).Contents (Elt Ideal)) (x3 : (⟨S3x256, .f32⟩ : BufTy).Contents (Elt Ideal)) (x4 x5 x6 : (⟨S256, .f32⟩ : BufTy).Contents (Elt Ideal)) (x7 : (⟨S3x256x256, .f32⟩ : BufTy).Contents (Elt Ideal)) (x8 x9 x10 : (⟨S3x256, .f32⟩ : BufTy).Contents (Elt Ideal))

/-- The third layer's dense product at node r, channel q is `linearRow` of the layer's input row of node r and
    the layer's weight matrix. -/
theorem linear_row_2 (r : Fin 50000) (q : Fin 256) :
    val_main_v165 (F := Ideal) x0 x1 x3 x4 x5 x6 x7 x8 x9 x10 (ix2 r q)
      = Cert.Spec.linearRow (fun k => val_main_v162 (F := Ideal) x0 x1 x3 x4 x5 x6 x7 x8 x9 x10 (ix2 r k))
          (fun k q' => val_main_v164 (F := Ideal) x7 (ix2 k q')) q := by
  rw [val_main_v165_apply]
  unfold Cert.Spec.linearRow
  refine Finset.sum_congr rfl fun k _ => ?_
  have el : lidx_main_v165 (ix2 r q) k = ix2 r k := funext fun a => Fin.ext (by match a with | ⟨0, _⟩ => rfl | ⟨1, _⟩ => rfl)
  have er : ridx_main_v165 (ix2 r q) k = ix2 k q := funext fun a => Fin.ext (by match a with | ⟨0, _⟩ => rfl | ⟨1, _⟩ => rfl)
  rw [el, er]

end Cert.ReferenceIdeal.RefRows

end
-- ==== Proof.RefAgg2.lean ====
/-
  The reference's post-aggregation stage of the third layer read at one node's row.  With
  y q' = h (r, q') + b q' the aggregated messages of node r plus the layer's bias row, the host program takes the
  row's mean and variance by two row sums (each started from the zero word, which is the real 0) divided by 256,
  subtracts the mean, multiplies by rsqrt (variance + eps), scales and shifts per channel, rectifies, and adds the
  layer's input at (r, q).  The aggregated block, the layer's input block and the three parameter rows are left
  as they are; every broadcast is read at the index it copies from.
-/
import proofs.«166986_j16578573762731_1_alg».proof.Proof.RefRead
import proofs.«166986_j16578573762731_1_alg».proof.Proof.Spec
import Idealize.ShloMosaic.Lib.ValueIdx
import Idealize.ShloMosaic.Lib.Pipeline.Value
import Idealize.ShloMosaic.PureOps.Ideal.Laws

noncomputable section

namespace Cert.ReferenceIdeal.RefRows

open Idealize.ShloMosaic Idealize.ShloMosaic.ValueIdx Cert.ReferenceIdeal Cert.ReferenceIdeal.ReadP

variable (x0 : (⟨S50000x3, .f32⟩ : BufTy).Contents (Elt Ideal)) (x1 : (⟨S2x300000, .i32⟩ : BufTy).Contents (Elt Ideal)) (x3 : (⟨S3x256, .f32⟩ : BufTy).Contents (Elt Ideal)) (x4 x5 x6 : (⟨S256, .f32⟩ : BufTy).Contents (Elt Ideal)) (x7 : (⟨S3x256x256, .f32⟩ : BufTy).Contents (Elt Ideal)) (x8 x9 x10 : (⟨S3x256, .f32⟩ : BufTy).Contents (Elt Ideal))

/-- The aggregated value plus bias at node r, channel k. -/
theorem agg2_y (r : Fin 50000) (k : Fin 256) :
    val_main_v183 (F := Ideal) x0 x1 x3 x4 x5 x6 x7 x8 x9 x10 (ix2 r k)
      = val_main_v178 (F := Ideal) x0 x1 x3 x4 x5 x6 x7 x8 x9 x10 (ix2 r k) + val_main_v180 (F := Ideal) x8 (ix1 k) := by
  have e : val_main_v180 (F := Ideal) x8 (idx_main_v181 (idx_main_v182 (ix2 r k))) = val_main_v180 (F := Ideal) x8 (ix1 k) :=
    congrArg _ (funext fun a => Fin.ext (by match a with | ⟨0, _⟩ => rfl))
  rw [val_main_v183_apply, val_main_v182_apply, val_main_v181_apply, e]
  rfl

/-- The mean column at node r is the mean of the biased row. -/
theorem agg2_mean (r : Fin 50000) (u : Fin 1) :
    val_main_v191 (F := Ideal) x0 x1 x3 x4 x5 x6 x7 x8 x9 x10 (ix2 r u)
      = Cert.Spec.mean (fun k => val_main_v183 (F := Ideal) x0 x1 x3 x4 x5 x6 x7 x8 x9 x10 (ix2 r k)) := by
  have e : ∀ k : Fin 256, val_main_v183 (F := Ideal) x0 x1 x3 x4 x5 x6 x7 x8 x9 x10 (idx_main_v188 (idx_main_v189 (ix2 r u)) k)
      = val_main_v183 (F := Ideal) x0 x1 x3 x4 x5 x6 x7 x8 x9 x10 (ix2 r k) := fun k =>
    congrArg _ (funext fun a => Fin.ext (by match a with | ⟨0, _⟩ => rfl | ⟨1, _⟩ => rfl))
  rw [val_main_v191_apply, val_main_v189_apply, val_main_v188_apply, val_main_v190_apply, val_main_cst_32_apply,
    val_main_cst_31_apply]
  simp only [e, Ideal.hostDivf_def, Ideal.ofBits_def, Ideal.ofBits_zero_f32, zero_add, Cert.Spec.mean]

/-- The variance column at node r is the variance of the biased row. -/
theorem agg2_var (r : Fin 50000) (u : Fin 1) :
    val_main_v198 (F := Ideal) x0 x1 x3 x4 x5 x6 x7 x8 x9 x10 (ix2 r u)
      = Cert.Spec.var (fun k => val_main_v183 (F := Ideal) x0 x1 x3 x4 x5 x6 x7 x8 x9 x10 (ix2 r k)) := by
  have e : ∀ k : Fin 256, val_main_v194 (F := Ideal) x0 x1 x3 x4 x5 x6 x7 x8 x9 x10 (idx_main_v195 (idx_main_v196 (ix2 r u)) k)
      = val_main_v194 (F := Ideal) x0 x1 x3 x4 x5 x6 x7 x8 x9 x10 (ix2 r k) := fun k =>
    congrArg _ (funext fun a => Fin.ext (by match a with | ⟨0, _⟩ => rfl | ⟨1, _⟩ => rfl))
  have em : ∀ k : Fin 256, val_main_v192 (F := Ideal) x0 x1 x3 x4 x5 x6 x7 x8 x9 x10 (ix2 r k)
      = Cert.Spec.mean (fun k => val_main_v183 (F := Ideal) x0 x1 x3 x4 x5 x6 x7 x8 x9 x10 (ix2 r k)) := fun k =>
    (val_main_v192_apply x0 x1 x3 x4 x5 x6 x7 x8 x9 x10 (ix2 r k)).trans
      ((congrArg _ (funext fun a => Fin.ext (by match a with | ⟨0, _⟩ => rfl | ⟨1, _⟩ => rfl))).trans
        (agg2_mean x0 x1 x3 x4 x5 x6 x7 x8 x9 x10 r (0 : Fin 1)))
  rw [val_main_v198_apply, val_main_v196_apply, val_main_v195_apply, val_main_v197_apply, val_main_cst_34_apply,
    val_main_cst_33_apply]
  simp only [e, val_main_v194_apply, val_main_v193_apply, em, Ideal.hostDivf_def, Ideal.mulf_def, Ideal.subf_def,
    Ideal.ofBits_def, Ideal.ofBits_zero_f32, zero_add, Cert.Spec.var]

/-- The third layer's post-aggregation stage at node r, channel q is `aggRow` of the aggregated row and the layer's
    input row of node r, and the layer's bias, scale and shift rows. -/
theorem agg_row_2 (r : Fin 50000) (q : Fin 256) :
    val_main_v213 (F := Ideal) x0 x1 x3 x4 x5 x6 x7 x8 x9 x10 (ix2 r q)
      = Cert.Spec.aggRow (fun k => val_main_v178 (F := Ideal) x0 x1 x3 x4 x5 x6 x7 x8 x9 x10 (ix2 r k))
          (fun k => val_main_v162 (F := Ideal) x0 x1 x3 x4 x5 x6 x7 x8 x9 x10 (ix2 r k))
          (fun q' => val_main_v180 (F := Ideal) x8 (ix1 q')) (fun q' => val_main_v185 (F := Ideal) x9 (ix1 q'))
          (fun q' => val_main_v187 (F := Ideal) x10 (ix1 q')) q := by
  have em : val_main_v199 (F := Ideal) x0 x1 x3 x4 x5 x6 x7 x8 x9 x10 (ix2 r q)
      = Cert.Spec.mean (fun k => val_main_v183 (F := Ideal) x0 x1 x3 x4 x5 x6 x7 x8 x9 x10 (ix2 r k)) :=
    (val_main_v199_apply x0 x1 x3 x4 x5 x6 x7 x8 x9 x10 (ix2 r q)).trans
      ((congrArg _ (funext fun a => Fin.ext (by match a with | ⟨0, _⟩ => rfl | ⟨1, _⟩ => rfl))).trans
        (agg2_mean x0 x1 x3 x4 x5 x6 x7 x8 x9 x10 r (0 : Fin 1)))
  have ev : val_main_v198 (F := Ideal) x0 x1 x3 x4 x5 x6 x7 x8 x9 x10 (idx_main_v204 (ix2 r q))
      = Cert.Spec.var (fun k => val_main_v183 (F := Ideal) x0 x1 x3 x4 x5 x6 x7 x8 x9 x10 (ix2 r k)) :=
    (congrArg _ (funext fun a => Fin.ext (by match a with | ⟨0, _⟩ => rfl | ⟨1, _⟩ => rfl))).trans
      (agg2_var x0 x1 x3 x4 x5 x6 x7 x8 x9 x10 r (0 : Fin 1))
  have eg : val_main_v185 (F := Ideal) x9 (idx_main_v206 (idx_main_v207 (ix2 r q))) = val_main_v185 (F := Ideal) x9 (ix1 q) :=
    congrArg _ (funext fun a => Fin.ext (by match a with | ⟨0, _⟩ => rfl))
  have eb : val_main_v187 (F := Ideal) x10 (idx_main_v209 (idx_main_v210 (ix2 r q))) = val_main_v187 (F := Ideal) x10 (ix1 q) :=
    congrArg _ (funext fun a => Fin.ext (by match a with | ⟨0, _⟩ => rfl))
  rw [val_main_v213_apply, val_main_v212_apply, val_main_call4_v0_apply, val_main_call4_cst_apply,
    val_main_v211_apply, val_main_v210_apply, val_main_v209_apply, val_main_v208_apply, val_main_v207_apply,
    val_main_v206_apply, val_main_v205_apply, val_main_v204_apply, val_main_v203_apply, val_main_v202_apply,
    val_main_v201_apply, val_main_cst_35_apply, val_main_v200_apply, em, ev, eg, eb]
  simp only [agg2_y, Ideal.addf_def, Ideal.mulf_def, Ideal.subf_def, Ideal.maximumf_def, Ideal.hostUnary_rsqrt_def,
    Ideal.ofBits_def, Cert.Spec.aggRow, Cert.Spec.gn]

end Cert.ReferenceIdeal.RefRows

end
-- ==== Proof.GlueL2.lean ====
/-
  Layer 2 of the idealized kernel program, boundaries 12 to 16.

  From the node features x at boundary 12: the layer's weight matrix is sliced out of the stacked weights; the dense
  linear region writes x times that matrix; the host gathers each edge's source row, scales it by the edge's weight
  and adds it into the destination node's row; the layer's bias, scale and shift vectors are sliced out and laid as
  rows; the post-aggregation region normalises, rectifies and adds x back.  Each buffer is the reference's own stage
  of the arguments: the host steps are the same operations, and each dense region is the same function row by row.
-/
import proofs.«166986_j16578573762731_1_alg».proof.Proof.Gen.KernelIdeal.Frame
import proofs.«166986_j16578573762731_1_alg».proof.Proof.GlueKeep
import proofs.«166986_j16578573762731_1_alg».proof.Proof.GluePre
import proofs.«166986_j16578573762731_1_alg».proof.Proof.GlueL1
import proofs.«166986_j16578573762731_1_alg».proof.Proof.Final5
import proofs.«166986_j16578573762731_1_alg».proof.Proof.Final6
import proofs.«166986_j16578573762731_1_alg».proof.Proof.RefRead
import proofs.«166986_j16578573762731_1_alg».proof.Proof.RefLinear2
import proofs.«166986_j16578573762731_1_alg».proof.Proof.RefAgg2
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.GlueL2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

open Idealize.ShloMosaic.StableHlo
set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)
local notation "a16" => m ((c : Thread nD τ).loc main_arg16)

/-- The node features are carried to the linear region's entry. -/
theorem xB1 : W13 m ρ c (Proc.devRef .tc main_v87) = Cert.ReferenceIdeal.ReadP.val_main_v162 (F := Ideal) a0 a1 a3 a4 a5 a6 a7 a8 a9 a10 := (Keep.keep13 m ρ c main_v87 (by decide)).trans (Cert.KernelIdeal.GlueL1.xNext m ρ c)
set_option maxHeartbeats 4000000 in
/-- The layer's weight matrix. -/
theorem wB1 : W13 m ρ c (Proc.devRef .tc main_v89) = Cert.ReferenceIdeal.ReadP.val_main_v164 (F := Ideal) a7 := by
  have hs : ∀ (V : Valuation τ sig (Elt Ideal)) (h0 : V (Proc.devRef .tc main_arg7) = a7) , StableHlo.after hostOps5 V (Proc.devRef .tc main_v89) = Cert.ReferenceIdeal.ReadP.val_main_v164 (F := Ideal) a7 := by
    intro V h0
    after_results
    rw [h0]
    try simp only [TRef.toBuf, TRef.ofBuf, cast_eq]
    rfl
  exact hs (W12 m ρ c) ((((Keep.keep12 m ρ c main_arg7 (by decide)).trans ((Keep.keep11 m ρ c main_arg7 (by decide)).trans ((Keep.keep10 m ρ c main_arg7 (by decide)).trans ((Keep.keep9 m ρ c main_arg7 (by decide)).trans ((Keep.keep8 m ρ c main_arg7 (by decide)).trans ((Keep.keep7 m ρ c main_arg7 (by decide)).trans ((Keep.keep6 m ρ c main_arg7 (by decide)).trans ((Keep.keep5 m ρ c main_arg7 (by decide)).trans ((Keep.keep4 m ρ c main_arg7 (by decide)).trans ((Keep.keep3 m ρ c main_arg7 (by decide)).trans ((Keep.keep2 m ρ c main_arg7 (by decide)).trans (Keep.keep1 m ρ c main_arg7 (by decide))))))))))))).trans (rfl : W0 m ρ c (Proc.devRef .tc main_arg7) = a7)))
/-- The linear region's output: the features times the layer's weights. -/
theorem hB2 : W14 m ρ c (Proc.devRef .tc main_v90) = Cert.ReferenceIdeal.ReadP.val_main_v165 (F := Ideal) a0 a1 a3 a4 a5 a6 a7 a8 a9 a10 := by
  refine (W14_arr m ρ c 2).trans ((Cert.KernelIdeal.Final5.final (V13 m ρ) c).trans ?_)
  funext i
  obtain ⟨r, q, rfl⟩ : ∃ (r : Fin 50000) (q : Fin 256), i = ix2 r q := ⟨i 0, i 1, eq_ix2 i⟩
  rw [Cert.ReferenceIdeal.RefRows.linear_row_2]
  show Cert.Spec.linearRow (fun k => V13 m ρ c main_v87 (ix2 r k)) (fun k q' => V13 m ρ c main_v89 (ix2 k q')) q = _
  have e1 : V13 m ρ c main_v87 = Cert.ReferenceIdeal.ReadP.val_main_v162 (F := Ideal) a0 a1 a3 a4 a5 a6 a7 a8 a9 a10 := xB1 m ρ c
  have e2 : V13 m ρ c main_v89 = Cert.ReferenceIdeal.ReadP.val_main_v164 (F := Ideal) a7 := wB1 m ρ c
  rw [e1, e2]
theorem e3B2 : W14 m ρ c (Proc.devRef .tc main_v3) = Cert.ReferenceIdeal.ReadP.val_main_v3 (F := Ideal) a1 := ((Keep.keep14 m ρ c main_v3 (by decide)).trans ((Keep.keep13 m ρ c main_v3 (by decide)).trans ((Keep.keep12 m ρ c main_v3 (by decide)).trans ((Keep.keep11 m ρ c main_v3 (by decide)).trans ((Keep.keep10 m ρ c main_v3 (by decide)).trans ((Keep.keep9 m ρ c main_v3 (by decide)).trans ((Keep.keep8 m ρ c main_v3 (by decide)).trans ((Keep.keep7 m ρ c main_v3 (by decide)).trans ((Keep.keep6 m ρ c main_v3 (by decide)).trans ((Keep.keep5 m ρ c main_v3 (by decide)).trans (Keep.keep4 m ρ c main_v3 (by decide)))))))))))).trans (Cert.KernelIdeal.GluePre.w3_v3 m ρ c)
theorem e6B2 : W14 m ρ c (Proc.devRef .tc main_v6) = Cert.ReferenceIdeal.ReadP.val_main_v6 (F := Ideal) a1 := ((Keep.keep14 m ρ c main_v6 (by decide)).trans ((Keep.keep13 m ρ c main_v6 (by decide)).trans ((Keep.keep12 m ρ c main_v6 (by decide)).trans ((Keep.keep11 m ρ c main_v6 (by decide)).trans ((Keep.keep10 m ρ c main_v6 (by decide)).trans ((Keep.keep9 m ρ c main_v6 (by decide)).trans ((Keep.keep8 m ρ c main_v6 (by decide)).trans ((Keep.keep7 m ρ c main_v6 (by decide)).trans ((Keep.keep6 m ρ c main_v6 (by decide)).trans ((Keep.keep5 m ρ c main_v6 (by decide)).trans (Keep.keep4 m ρ c main_v6 (by decide)))))))))))).trans (Cert.KernelIdeal.GluePre.w3_v6 m ρ c)
theorem e31B2 : W14 m ρ c (Proc.devRef .tc main_v31) = Cert.ReferenceIdeal.ReadP.val_main_v31 (F := Ideal) a1 := ((Keep.keep14 m ρ c main_v31 (by decide)).trans ((Keep.keep13 m ρ c main_v31 (by decide)).trans ((Keep.keep12 m ρ c main_v31 (by decide)).trans ((Keep.keep11 m ρ c main_v31 (by decide)).trans ((Keep.keep10 m ρ c main_v31 (by decide)).trans ((Keep.keep9 m ρ c main_v31 (by decide)).trans ((Keep.keep8 m ρ c main_v31 (by decide)).trans ((Keep.keep7 m ρ c main_v31 (by decide)).trans ((Keep.keep6 m ρ c main_v31 (by decide)).trans ((Keep.keep5 m ρ c main_v31 (by decide)).trans (Keep.keep4 m ρ c main_v31 (by decide)))))))))))).trans (Cert.KernelIdeal.GluePre.w3_v31 m ρ c)
set_option maxHeartbeats 4000000 in
/-- The aggregated messages: each edge's source row times its weight, summed into its destination row. -/
theorem aggB3 : W15 m ρ c (Proc.devRef .tc main_v103) = Cert.ReferenceIdeal.ReadP.val_main_v178 (F := Ideal) a0 a1 a3 a4 a5 a6 a7 a8 a9 a10 := by
  have hs : ∀ (V : Valuation τ sig (Elt Ideal)) (h0 : V (Proc.devRef .tc main_v90) = Cert.ReferenceIdeal.ReadP.val_main_v165 (F := Ideal) a0 a1 a3 a4 a5 a6 a7 a8 a9 a10) (h1 : V (Proc.devRef .tc main_v3) = Cert.ReferenceIdeal.ReadP.val_main_v3 (F := Ideal) a1) (h2 : V (Proc.devRef .tc main_v6) = Cert.ReferenceIdeal.ReadP.val_main_v6 (F := Ideal) a1) (h3 : V (Proc.devRef .tc main_v31) = Cert.ReferenceIdeal.ReadP.val_main_v31 (F := Ideal) a1) , StableHlo.after hostOps6 V (Proc.devRef .tc main_v103) = Cert.ReferenceIdeal.ReadP.val_main_v178 (F := Ideal) a0 a1 a3 a4 a5 a6 a7 a8 a9 a10 := by
    intro V h0 h1 h2 h3
    after_results
    rw [h0, h1, h2, h3]
    try simp only [TRef.toBuf, TRef.ofBuf, cast_eq]
    rfl
  exact hs (W14 m ρ c) (hB2 m ρ c) (e3B2 m ρ c) (e6B2 m ρ c) (e31B2 m ρ c)
set_option maxHeartbeats 4000000 in
/-- The layer's bias vector as a row. -/
theorem bRow : W15 m ρ c (Proc.devRef .tc main_v110) = shapeCast S1x256 (Cert.ReferenceIdeal.ReadP.val_main_v180 (F := Ideal) a8) shapeCasts_S256_S1x256 := by
  have hs : ∀ (V : Valuation τ sig (Elt Ideal)) (h0 : V (Proc.devRef .tc main_arg8) = a8) , StableHlo.after hostOps6 V (Proc.devRef .tc main_v110) = shapeCast S1x256 (Cert.ReferenceIdeal.ReadP.val_main_v180 (F := Ideal) a8) shapeCasts_S256_S1x256 := by
    intro V h0
    after_results
    rw [h0]
    try simp only [TRef.toBuf, TRef.ofBuf, cast_eq]
    rfl
  exact hs (W14 m ρ c) ((((Keep.keep14 m ρ c main_arg8 (by decide)).trans ((Keep.keep13 m ρ c main_arg8 (by decide)).trans ((Keep.keep12 m ρ c main_arg8 (by decide)).trans ((Keep.keep11 m ρ c main_arg8 (by decide)).trans ((Keep.keep10 m ρ c main_arg8 (by decide)).trans ((Keep.keep9 m ρ c main_arg8 (by decide)).trans ((Keep.keep8 m ρ c main_arg8 (by decide)).trans ((Keep.keep7 m ρ c main_arg8 (by decide)).trans ((Keep.keep6 m ρ c main_arg8 (by decide)).trans ((Keep.keep5 m ρ c main_arg8 (by decide)).trans ((Keep.keep4 m ρ c main_arg8 (by decide)).trans ((Keep.keep3 m ρ c main_arg8 (by decide)).trans ((Keep.keep2 m ρ c main_arg8 (by decide)).trans (Keep.keep1 m ρ c main_arg8 (by decide))))))))))))))).trans (rfl : W0 m ρ c (Proc.devRef .tc main_arg8) = a8)))
set_option maxHeartbeats 4000000 in
/-- The layer's scale vector as a row. -/
theorem gRow : W15 m ρ c (Proc.devRef .tc main_v111) = shapeCast S1x256 (Cert.ReferenceIdeal.ReadP.val_main_v185 (F := Ideal) a9) shapeCasts_S256_S1x256 := by
  have hs : ∀ (V : Valuation τ sig (Elt Ideal)) (h0 : V (Proc.devRef .tc main_arg9) = a9) , StableHlo.after hostOps6 V (Proc.devRef .tc main_v111) = shapeCast S1x256 (Cert.ReferenceIdeal.ReadP.val_main_v185 (F := Ideal) a9) shapeCasts_S256_S1x256 := by
    intro V h0
    after_results
    rw [h0]
    try simp only [TRef.toBuf, TRef.ofBuf, cast_eq]
    rfl
  exact hs (W14 m ρ c) ((((Keep.keep14 m ρ c main_arg9 (by decide)).trans ((Keep.keep13 m ρ c main_arg9 (by decide)).trans ((Keep.keep12 m ρ c main_arg9 (by decide)).trans ((Keep.keep11 m ρ c main_arg9 (by decide)).trans ((Keep.keep10 m ρ c main_arg9 (by decide)).trans ((Keep.keep9 m ρ c main_arg9 (by decide)).trans ((Keep.keep8 m ρ c main_arg9 (by decide)).trans ((Keep.keep7 m ρ c main_arg9 (by decide)).trans ((Keep.keep6 m ρ c main_arg9 (by decide)).trans ((Keep.keep5 m ρ c main_arg9 (by decide)).trans ((Keep.keep4 m ρ c main_arg9 (by decide)).trans ((Keep.keep3 m ρ c main_arg9 (by decide)).trans ((Keep.keep2 m ρ c main_arg9 (by decide)).trans (Keep.keep1 m ρ c main_arg9 (by decide))))))))))))))).trans (rfl : W0 m ρ c (Proc.devRef .tc main_arg9) = a9)))
set_option maxHeartbeats 4000000 in
/-- The layer's shift vector as a row. -/
theorem sRow : W15 m ρ c (Proc.devRef .tc main_v112) = shapeCast S1x256 (Cert.ReferenceIdeal.ReadP.val_main_v187 (F := Ideal) a10) shapeCasts_S256_S1x256 := by
  have hs : ∀ (V : Valuation τ sig (Elt Ideal)) (h0 : V (Proc.devRef .tc main_arg10) = a10) , StableHlo.after hostOps6 V (Proc.devRef .tc main_v112) = shapeCast S1x256 (Cert.ReferenceIdeal.ReadP.val_main_v187 (F := Ideal) a10) shapeCasts_S256_S1x256 := by
    intro V h0
    after_results
    rw [h0]
    try simp only [TRef.toBuf, TRef.ofBuf, cast_eq]
    rfl
  exact hs (W14 m ρ c) ((((Keep.keep14 m ρ c main_arg10 (by decide)).trans ((Keep.keep13 m ρ c main_arg10 (by decide)).trans ((Keep.keep12 m ρ c main_arg10 (by decide)).trans ((Keep.keep11 m ρ c main_arg10 (by decide)).trans ((Keep.keep10 m ρ c main_arg10 (by decide)).trans ((Keep.keep9 m ρ c main_arg10 (by decide)).trans ((Keep.keep8 m ρ c main_arg10 (by decide)).trans ((Keep.keep7 m ρ c main_arg10 (by decide)).trans ((Keep.keep6 m ρ c main_arg10 (by decide)).trans ((Keep.keep5 m ρ c main_arg10 (by decide)).trans ((Keep.keep4 m ρ c main_arg10 (by decide)).trans ((Keep.keep3 m ρ c main_arg10 (by decide)).trans ((Keep.keep2 m ρ c main_arg10 (by decide)).trans (Keep.keep1 m ρ c main_arg10 (by decide))))))))))))))).trans (rfl : W0 m ρ c (Proc.devRef .tc main_arg10) = a10)))
/-- The node features are carried to the post-aggregation region's entry (they are the linear region's input array). -/
theorem xB3 : W15 m ρ c (Proc.devRef .tc main_v87) = Cert.ReferenceIdeal.ReadP.val_main_v162 (F := Ideal) a0 a1 a3 a4 a5 a6 a7 a8 a9 a10 := ((Keep.keep15 m ρ c main_v87 (by decide)).trans (Keep.keepIn14 m ρ c 0 rfl)).trans (xB1 m ρ c)
/-- The post-aggregation region's output: the next node features. -/
theorem xNext : W16 m ρ c (Proc.devRef .tc main_v113) = Cert.ReferenceIdeal.ReadP.val_main_v213 (F := Ideal) a0 a1 a3 a4 a5 a6 a7 a8 a9 a10 := by
  refine (W16_arr m ρ c 5).trans ((Cert.KernelIdeal.Final6.final (V15 m ρ) c).trans ?_)
  funext i
  obtain ⟨r, q, rfl⟩ : ∃ (r : Fin 50000) (q : Fin 256), i = ix2 r q := ⟨i 0, i 1, eq_ix2 i⟩
  rw [Cert.ReferenceIdeal.RefRows.agg_row_2]
  show Cert.Spec.aggRow (fun k => V15 m ρ c main_v103 (ix2 r k)) (fun k => V15 m ρ c main_v87 (ix2 r k)) (fun q' => V15 m ρ c main_v110 (ix2 (0 : Fin 1) q')) (fun q' => V15 m ρ c main_v111 (ix2 (0 : Fin 1) q')) (fun q' => V15 m ρ c main_v112 (ix2 (0 : Fin 1) q')) q = _
  have e1 : V15 m ρ c main_v103 = Cert.ReferenceIdeal.ReadP.val_main_v178 (F := Ideal) a0 a1 a3 a4 a5 a6 a7 a8 a9 a10 := aggB3 m ρ c
  have e2 : V15 m ρ c main_v87 = Cert.ReferenceIdeal.ReadP.val_main_v162 (F := Ideal) a0 a1 a3 a4 a5 a6 a7 a8 a9 a10 := xB3 m ρ c
  have e3 : V15 m ρ c main_v110 = shapeCast S1x256 (Cert.ReferenceIdeal.ReadP.val_main_v180 (F := Ideal) a8) shapeCasts_S256_S1x256 := bRow m ρ c
  have e4 : V15 m ρ c main_v111 = shapeCast S1x256 (Cert.ReferenceIdeal.ReadP.val_main_v185 (F := Ideal) a9) shapeCasts_S256_S1x256 := gRow m ρ c
  have e5 : V15 m ρ c main_v112 = shapeCast S1x256 (Cert.ReferenceIdeal.ReadP.val_main_v187 (F := Ideal) a10) shapeCasts_S256_S1x256 := sRow m ρ c
  rw [e1, e2, e3, e4, e5]
  simp only [shapeCast_a_1a_apply]

end Cert.KernelIdeal.GlueL2

end
-- ==== Proof.GlueTail.lean ====
/-
  The tail of the idealized kernel program, boundaries 16 to 19: the result.

  After the last dense region the host sums the node features per graph, divides by each graph's node count, and
  applies the two output layers with a normalisation between them.  These are the reference's last operations,
  applied to the last node features, so the result buffer is the reference's result stage of the arguments.
-/
import proofs.«166986_j16578573762731_1_alg».proof.Proof.Gen.KernelIdeal.Frame
import proofs.«166986_j16578573762731_1_alg».proof.Proof.GlueKeep
import proofs.«166986_j16578573762731_1_alg».proof.Proof.GlueL2
import proofs.«166986_j16578573762731_1_alg».proof.Proof.RefRead
import Idealize.ShloMosaic.Lib.Pipeline.Value
import Idealize.ShloMosaic.Lib.ValueIdx
import Idealize.ShloMosaic.Lib.StableHlo.Run

set_option maxRecDepth 16384

noncomputable section

namespace Cert.KernelIdeal.GlueTail

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

open Idealize.ShloMosaic.StableHlo
set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)
local notation "a16" => m ((c : Thread nD τ).loc main_arg16)

set_option maxHeartbeats 4000000 in
/-- Boundary 17: the pooled features through the first output layer, before the rectifier. -/
theorem t17 : W17 m ρ c (Proc.devRef .tc main_v129) = Cert.ReferenceIdeal.ReadP.val_main_v229 (F := Ideal) a0 a1 a2 a3 a4 a5 a6 a7 a8 a9 a10 a11 a12 := by
  have hs : ∀ (V : Valuation τ sig (Elt Ideal)) (h0 : V (Proc.devRef .tc main_v113) = Cert.ReferenceIdeal.ReadP.val_main_v213 (F := Ideal) a0 a1 a3 a4 a5 a6 a7 a8 a9 a10) (h1 : V (Proc.devRef .tc main_arg2) = a2) (h2 : V (Proc.devRef .tc main_arg11) = a11) (h3 : V (Proc.devRef .tc main_arg12) = a12) , StableHlo.after hostOps7 V (Proc.devRef .tc main_v129) = Cert.ReferenceIdeal.ReadP.val_main_v229 (F := Ideal) a0 a1 a2 a3 a4 a5 a6 a7 a8 a9 a10 a11 a12 := by
    intro V h0 h1 h2 h3
    after_results
    rw [h0, h1, h2, h3]
    try simp only [TRef.toBuf, TRef.ofBuf, cast_eq]
    rfl
  exact hs (W16 m ρ c) (Cert.KernelIdeal.GlueL2.xNext m ρ c) ((((Keep.keep16 m ρ c main_arg2 (by decide)).trans ((Keep.keep15 m ρ c main_arg2 (by decide)).trans ((Keep.keep14 m ρ c main_arg2 (by decide)).trans ((Keep.keep13 m ρ c main_arg2 (by decide)).trans ((Keep.keep12 m ρ c main_arg2 (by decide)).trans ((Keep.keep11 m ρ c main_arg2 (by decide)).trans ((Keep.keep10 m ρ c main_arg2 (by decide)).trans ((Keep.keep9 m ρ c main_arg2 (by decide)).trans ((Keep.keep8 m ρ c main_arg2 (by decide)).trans ((Keep.keep7 m ρ c main_arg2 (by decide)).trans ((Keep.keep6 m ρ c main_arg2 (by decide)).trans ((Keep.keep5 m ρ c main_arg2 (by decide)).trans ((Keep.keep4 m ρ c main_arg2 (by decide)).trans ((Keep.keep3 m ρ c main_arg2 (by decide)).trans ((Keep.keep2 m ρ c main_arg2 (by decide)).trans (Keep.keep1 m ρ c main_arg2 (by decide))))))))))))))))).trans (rfl : W0 m ρ c (Proc.devRef .tc main_arg2) = a2))) ((((Keep.keep16 m ρ c main_arg11 (by decide)).trans ((Keep.keep15 m ρ c main_arg11 (by decide)).trans ((Keep.keep14 m ρ c main_arg11 (by decide)).trans ((Keep.keep13 m ρ c main_arg11 (by decide)).trans ((Keep.keep12 m ρ c main_arg11 (by decide)).trans ((Keep.keep11 m ρ c main_arg11 (by decide)).trans ((Keep.keep10 m ρ c main_arg11 (by decide)).trans ((Keep.keep9 m ρ c main_arg11 (by decide)).trans ((Keep.keep8 m ρ c main_arg11 (by decide)).trans ((Keep.keep7 m ρ c main_arg11 (by decide)).trans ((Keep.keep6 m ρ c main_arg11 (by decide)).trans ((Keep.keep5 m ρ c main_arg11 (by decide)).trans ((Keep.keep4 m ρ c main_arg11 (by decide)).trans ((Keep.keep3 m ρ c main_arg11 (by decide)).trans ((Keep.keep2 m ρ c main_arg11 (by decide)).trans (Keep.keep1 m ρ c main_arg11 (by decide))))))))))))))))).trans (rfl : W0 m ρ c (Proc.devRef .tc main_arg11) = a11))) ((((Keep.keep16 m ρ c main_arg12 (by decide)).trans ((Keep.keep15 m ρ c main_arg12 (by decide)).trans ((Keep.keep14 m ρ c main_arg12 (by decide)).trans ((Keep.keep13 m ρ c main_arg12 (by decide)).trans ((Keep.keep12 m ρ c main_arg12 (by decide)).trans ((Keep.keep11 m ρ c main_arg12 (by decide)).trans ((Keep.keep10 m ρ c main_arg12 (by decide)).trans ((Keep.keep9 m ρ c main_arg12 (by decide)).trans ((Keep.keep8 m ρ c main_arg12 (by decide)).trans ((Keep.keep7 m ρ c main_arg12 (by decide)).trans ((Keep.keep6 m ρ c main_arg12 (by decide)).trans ((Keep.keep5 m ρ c main_arg12 (by decide)).trans ((Keep.keep4 m ρ c main_arg12 (by decide)).trans ((Keep.keep3 m ρ c main_arg12 (by decide)).trans ((Keep.keep2 m ρ c main_arg12 (by decide)).trans (Keep.keep1 m ρ c main_arg12 (by decide))))))))))))))))).trans (rfl : W0 m ρ c (Proc.devRef .tc main_arg12) = a12)))
set_option maxHeartbeats 4000000 in
/-- Boundary 18: rectified. -/
theorem t18 : W18 m ρ c (Proc.devRef .tc main_v130) = Cert.ReferenceIdeal.ReadP.val_main_v230 (F := Ideal) a0 a1 a2 a3 a4 a5 a6 a7 a8 a9 a10 a11 a12 := by
  have hs : ∀ (V : Valuation τ sig (Elt Ideal)) (h0 : V (Proc.devRef .tc main_v129) = Cert.ReferenceIdeal.ReadP.val_main_v229 (F := Ideal) a0 a1 a2 a3 a4 a5 a6 a7 a8 a9 a10 a11 a12) , StableHlo.after hostOps7_1 V (Proc.devRef .tc main_v130) = Cert.ReferenceIdeal.ReadP.val_main_v230 (F := Ideal) a0 a1 a2 a3 a4 a5 a6 a7 a8 a9 a10 a11 a12 := by
    intro V h0
    after_results
    rw [h0]
    try simp only [TRef.toBuf, TRef.ofBuf, cast_eq]
    rfl
  exact hs (W17 m ρ c) (t17 m ρ c)
set_option maxHeartbeats 4000000 in
/-- Boundary 19: THE RESULT is the reference's result stage of the arguments. -/
theorem t19 : W19 m ρ c (Proc.devRef .tc main_v158) = Cert.ReferenceIdeal.ReadP.val_main_v258 (F := Ideal) a0 a1 a2 a3 a4 a5 a6 a7 a8 a9 a10 a11 a12 a13 a14 a15 a16 := by
  have hs : ∀ (V : Valuation τ sig (Elt Ideal)) (h0 : V (Proc.devRef .tc main_v130) = Cert.ReferenceIdeal.ReadP.val_main_v230 (F := Ideal) a0 a1 a2 a3 a4 a5 a6 a7 a8 a9 a10 a11 a12) (h1 : V (Proc.devRef .tc main_arg13) = a13) (h2 : V (Proc.devRef .tc main_arg14) = a14) (h3 : V (Proc.devRef .tc main_arg15) = a15) (h4 : V (Proc.devRef .tc main_arg16) = a16) , StableHlo.after hostOps7_2 V (Proc.devRef .tc main_v158) = Cert.ReferenceIdeal.ReadP.val_main_v258 (F := Ideal) a0 a1 a2 a3 a4 a5 a6 a7 a8 a9 a10 a11 a12 a13 a14 a15 a16 := by
    intro V h0 h1 h2 h3 h4
    after_results
    rw [h0, h1, h2, h3, h4]
    try simp only [TRef.toBuf, TRef.ofBuf, cast_eq]
    rfl
  exact hs (W18 m ρ c) (t18 m ρ c) ((((Keep.keep18 m ρ c main_arg13 (by decide)).trans ((Keep.keep17 m ρ c main_arg13 (by decide)).trans ((Keep.keep16 m ρ c main_arg13 (by decide)).trans ((Keep.keep15 m ρ c main_arg13 (by decide)).trans ((Keep.keep14 m ρ c main_arg13 (by decide)).trans ((Keep.keep13 m ρ c main_arg13 (by decide)).trans ((Keep.keep12 m ρ c main_arg13 (by decide)).trans ((Keep.keep11 m ρ c main_arg13 (by decide)).trans ((Keep.keep10 m ρ c main_arg13 (by decide)).trans ((Keep.keep9 m ρ c main_arg13 (by decide)).trans ((Keep.keep8 m ρ c main_arg13 (by decide)).trans ((Keep.keep7 m ρ c main_arg13 (by decide)).trans ((Keep.keep6 m ρ c main_arg13 (by decide)).trans ((Keep.keep5 m ρ c main_arg13 (by decide)).trans ((Keep.keep4 m ρ c main_arg13 (by decide)).trans ((Keep.keep3 m ρ c main_arg13 (by decide)).trans ((Keep.keep2 m ρ c main_arg13 (by decide)).trans (Keep.keep1 m ρ c main_arg13 (by decide))))))))))))))))))).trans (rfl : W0 m ρ c (Proc.devRef .tc main_arg13) = a13))) ((((Keep.keep18 m ρ c main_arg14 (by decide)).trans ((Keep.keep17 m ρ c main_arg14 (by decide)).trans ((Keep.keep16 m ρ c main_arg14 (by decide)).trans ((Keep.keep15 m ρ c main_arg14 (by decide)).trans ((Keep.keep14 m ρ c main_arg14 (by decide)).trans ((Keep.keep13 m ρ c main_arg14 (by decide)).trans ((Keep.keep12 m ρ c main_arg14 (by decide)).trans ((Keep.keep11 m ρ c main_arg14 (by decide)).trans ((Keep.keep10 m ρ c main_arg14 (by decide)).trans ((Keep.keep9 m ρ c main_arg14 (by decide)).trans ((Keep.keep8 m ρ c main_arg14 (by decide)).trans ((Keep.keep7 m ρ c main_arg14 (by decide)).trans ((Keep.keep6 m ρ c main_arg14 (by decide)).trans ((Keep.keep5 m ρ c main_arg14 (by decide)).trans ((Keep.keep4 m ρ c main_arg14 (by decide)).trans ((Keep.keep3 m ρ c main_arg14 (by decide)).trans ((Keep.keep2 m ρ c main_arg14 (by decide)).trans (Keep.keep1 m ρ c main_arg14 (by decide))))))))))))))))))).trans (rfl : W0 m ρ c (Proc.devRef .tc main_arg14) = a14))) ((((Keep.keep18 m ρ c main_arg15 (by decide)).trans ((Keep.keep17 m ρ c main_arg15 (by decide)).trans ((Keep.keep16 m ρ c main_arg15 (by decide)).trans ((Keep.keep15 m ρ c main_arg15 (by decide)).trans ((Keep.keep14 m ρ c main_arg15 (by decide)).trans ((Keep.keep13 m ρ c main_arg15 (by decide)).trans ((Keep.keep12 m ρ c main_arg15 (by decide)).trans ((Keep.keep11 m ρ c main_arg15 (by decide)).trans ((Keep.keep10 m ρ c main_arg15 (by decide)).trans ((Keep.keep9 m ρ c main_arg15 (by decide)).trans ((Keep.keep8 m ρ c main_arg15 (by decide)).trans ((Keep.keep7 m ρ c main_arg15 (by decide)).trans ((Keep.keep6 m ρ c main_arg15 (by decide)).trans ((Keep.keep5 m ρ c main_arg15 (by decide)).trans ((Keep.keep4 m ρ c main_arg15 (by decide)).trans ((Keep.keep3 m ρ c main_arg15 (by decide)).trans ((Keep.keep2 m ρ c main_arg15 (by decide)).trans (Keep.keep1 m ρ c main_arg15 (by decide))))))))))))))))))).trans (rfl : W0 m ρ c (Proc.devRef .tc main_arg15) = a15))) ((((Keep.keep18 m ρ c main_arg16 (by decide)).trans ((Keep.keep17 m ρ c main_arg16 (by decide)).trans ((Keep.keep16 m ρ c main_arg16 (by decide)).trans ((Keep.keep15 m ρ c main_arg16 (by decide)).trans ((Keep.keep14 m ρ c main_arg16 (by decide)).trans ((Keep.keep13 m ρ c main_arg16 (by decide)).trans ((Keep.keep12 m ρ c main_arg16 (by decide)).trans ((Keep.keep11 m ρ c main_arg16 (by decide)).trans ((Keep.keep10 m ρ c main_arg16 (by decide)).trans ((Keep.keep9 m ρ c main_arg16 (by decide)).trans ((Keep.keep8 m ρ c main_arg16 (by decide)).trans ((Keep.keep7 m ρ c main_arg16 (by decide)).trans ((Keep.keep6 m ρ c main_arg16 (by decide)).trans ((Keep.keep5 m ρ c main_arg16 (by decide)).trans ((Keep.keep4 m ρ c main_arg16 (by decide)).trans ((Keep.keep3 m ρ c main_arg16 (by decide)).trans ((Keep.keep2 m ρ c main_arg16 (by decide)).trans (Keep.keep1 m ρ c main_arg16 (by decide))))))))))))))))))).trans (rfl : W0 m ρ c (Proc.devRef .tc main_arg16) = a16)))

end Cert.KernelIdeal.GlueTail

end
-- ==== Proof.LibAfter.lean ====
/-
  The final contents of a buffer under a straight line of host operations in single-assignment form.

  `after l V` folds the operations of the line `l` over the buffer contents `V`.  When every operation writes ONE
  buffer and no buffer is written twice (`WritesAre l wr`: `wr` lists, in order, the reference each operation writes),
  a buffer's final contents are those its own operation leaves, and an operand that is not written from its reader's
  position on already holds its final contents when it is read.  So the final contents of operation k's result are
  its function applied to the FINAL contents of its operands (`step_unary`, `step_binary`, ...): the whole run is read
  one operation at a time, each fact using only the facts of its operands.  The side conditions are memberships of a
  reference in a tail of the literal list `wr`, decided by computation.
-/
import Idealize.ShloMosaic.Lib.StableHlo.Run

noncomputable section

namespace Cert.LibAfter

open Idealize.ShloMosaic Idealize.ShloMosaic.TcCoe Idealize.SL.Sem Idealize.ShloMosaic.StableHlo

variable {τ : Topo} {sig : RefSig} {Val : EltTy → Type}

/-- Two lines folded one after the other are their concatenation folded as one. -/
theorem after_append (l₁ l₂ : List (HloOp τ sig Val)) (V : Valuation τ sig Val) :
    after (l₁ ++ l₂) V = after l₂ (after l₁ V) := by
  induction l₁ generalizing V with
  | nil => rfl
  | cons op l ih => exact ih _

/-- `wr` lists, in order, the one reference each operation of the line writes. -/
def WritesAre (l : List (HloOp τ sig Val)) (wr : List (Ref sig .tc)) : Prop :=
  l.map HloOp.writes = wr.map fun r => ({Proc.devRef .tc r} : Finset (DevRef τ sig))

/-- A reference not written from position `j` on is written by no operation from position `j` on. -/
theorem not_mem_writes_of_drop {l : List (HloOp τ sig Val)} {wr : List (Ref sig .tc)} (hw : WritesAre l wr) (j : Nat)
    {r : Ref sig .tc} (hr : r ∉ wr.drop j) : ∀ o ∈ l.drop j, Proc.devRef .tc r ∉ o.writes := by
  intro o ho hmem
  have h1 : o.writes ∈ (l.map HloOp.writes).drop j := by
    rw [← List.map_drop]; exact List.mem_map_of_mem ho
  rw [hw, ← List.map_drop] at h1
  obtain ⟨r', hr', he⟩ := List.mem_map.mp h1
  rw [← he, Finset.mem_singleton] at hmem
  exact hr (Proc.devRef_injective _ hmem ▸ hr')

/-- What the whole line leaves at a reference not written after position `k` is what operation `k` leaves there,
    run from the contents after the first `k` operations. -/
theorem after_eq_result {l : List (HloOp τ sig Val)} {wr : List (Ref sig .tc)} (hw : WritesAre l wr)
    (V : Valuation τ sig Val) (k : Nat) {op : HloOp τ sig Val} (hop : l[k]? = some op) {r : Ref sig .tc}
    (hr : r ∉ wr.drop (k + 1)) :
    after l V (Proc.devRef .tc r) = op.result (after (l.take k) V) (Proc.devRef .tc r) := by
  obtain ⟨hk, rfl⟩ := List.getElem?_eq_some_iff.mp hop
  calc after l V (Proc.devRef .tc r)
      = after (l.take k ++ l[k] :: l.drop (k + 1)) V (Proc.devRef .tc r) := by
        rw [← List.drop_eq_getElem_cons hk, List.take_append_drop]
    _ = after (l.drop (k + 1)) (l[k].result (after (l.take k) V)) (Proc.devRef .tc r) := by
        rw [after_append, after_cons]
    _ = _ := after_of_forall_not_mem _ _ (not_mem_writes_of_drop hw (k + 1) hr)

/-- A reference not written from position `k` on holds after the first `k` operations what it holds at the end. -/
theorem after_take_eq {l : List (HloOp τ sig Val)} {wr : List (Ref sig .tc)} (hw : WritesAre l wr)
    (V : Valuation τ sig Val) (k : Nat) {r : Ref sig .tc} (hr : r ∉ wr.drop k) :
    after (l.take k) V (Proc.devRef .tc r) = after l V (Proc.devRef .tc r) :=
  calc after (l.take k) V (Proc.devRef .tc r)
      = after (l.drop k) (after (l.take k) V) (Proc.devRef .tc r) :=
        (after_of_forall_not_mem _ _ (not_mem_writes_of_drop hw k hr)).symm
    _ = after (l.take k ++ l.drop k) V (Proc.devRef .tc r) := by rw [after_append]
    _ = after l V (Proc.devRef .tc r) := by rw [List.take_append_drop]

/-- A reference the line never writes holds at the end what it held at the start. -/
theorem after_of_not_written {l : List (HloOp τ sig Val)} {wr : List (Ref sig .tc)} (hw : WritesAre l wr)
    (V : Valuation τ sig Val) {r : Ref sig .tc} (hr : r ∉ wr) :
    after l V (Proc.devRef .tc r) = V (Proc.devRef .tc r) :=
  after_of_forall_not_mem _ _ (not_mem_writes_of_drop (j := 0) hw hr)

variable {l : List (HloOp τ sig Val)} {wr : List (Ref sig .tc)} {x a b c y : Ref sig .tc}

/-- The end contents of a constant's buffer. -/
theorem step_nullary (hw : WritesAre l wr) (V : Valuation τ sig Val) (k : Nat) {v : y.ty.Contents Val} {hy} (hop : l[k]? = some (nullary y v hy)) (h : y ∉ wr.drop (k + 1)) :
    after l V (Proc.devRef .tc y) = v := by
  rw [after_eq_result hw V k hop h, nullary_result]

/-- The end contents of a one-operand operation's result, from the end contents of its operand. -/
theorem step_unary (hw : WritesAre l wr) (V : Valuation τ sig Val) (k : Nat) {f : x.ty.Contents Val → y.ty.Contents Val} {hx hy} (hop : l[k]? = some (unary x y f hx hy))
    (h : y ∉ wr.drop (k + 1)) (h1 : x ∉ wr.drop k) :
    after l V (Proc.devRef .tc y) = f (after l V (Proc.devRef .tc x)) := by
  rw [after_eq_result hw V k hop h, unary_result, after_take_eq hw V k h1]

/-- The end contents of a reshape's result, from the end contents of its operand. -/
theorem step_reshape (hw : WritesAre l wr) (V : Valuation τ sig Val) (k : Nat) {he hn hx hy} (hop : l[k]? = some (reshape (Val := Val) x y he hn hx hy))
    (h : y ∉ wr.drop (k + 1)) (h1 : x ∉ wr.drop k) :
    after l V (Proc.devRef .tc y) = fun i => he ▸ shapeCast y.ty.shape (after l V (Proc.devRef .tc x)) hn i := by
  rw [after_eq_result hw V k hop h, reshape_result, after_take_eq hw V k h1]

/-- The end contents of a two-operand operation's result, from the end contents of its operands. -/
theorem step_binary (hw : WritesAre l wr) (V : Valuation τ sig Val) (k : Nat) {f : a.ty.Contents Val → b.ty.Contents Val → y.ty.Contents Val} {ha hb hy}
    (hop : l[k]? = some (binary a b y f ha hb hy)) (h : y ∉ wr.drop (k + 1)) (h1 : a ∉ wr.drop k) (h2 : b ∉ wr.drop k) :
    after l V (Proc.devRef .tc y) = f (after l V (Proc.devRef .tc a)) (after l V (Proc.devRef .tc b)) := by
  rw [after_eq_result hw V k hop h, binary_result, after_take_eq hw V k h1, after_take_eq hw V k h2]

/-- The end contents of a three-operand operation's result, from the end contents of its operands. -/
theorem step_ternary (hw : WritesAre l wr) (V : Valuation τ sig Val) (k : Nat) {f : c.ty.Contents Val → a.ty.Contents Val → b.ty.Contents Val → y.ty.Contents Val} {hc ha hb hy}
    (hop : l[k]? = some (ternary c a b y f hc ha hb hy)) (h : y ∉ wr.drop (k + 1)) (h0 : c ∉ wr.drop k)
    (h1 : a ∉ wr.drop k) (h2 : b ∉ wr.drop k) :
    after l V (Proc.devRef .tc y)
      = f (after l V (Proc.devRef .tc c)) (after l V (Proc.devRef .tc a)) (after l V (Proc.devRef .tc b)) := by
  rw [after_eq_result hw V k hop h, ternary_result, after_take_eq hw V k h0, after_take_eq hw V k h1,
    after_take_eq hw V k h2]

end Cert.LibAfter

end
-- ==== Proof.RefRunA.lean ====
/-
  The reference's run, first part: the edge data and the input projection (operations 0 to 78 of 318).

  The 318 host operations are in single-assignment form: each writes one buffer, and no buffer is written twice
  (`ops_writes`: the literal list `wr` of the written references, in order).  So the final contents of each buffer
  are its operation's function applied to the final contents of its operands, and every fact below reads ONE
  operation: `ev_<buffer>` says the buffer ends at the stage `val_<buffer>` of the arguments' contents, from the
  same facts of its operands and the stage's definition.  No operation writes an argument, so each argument ends
  as it began (`ev_main_argK`).  This part covers the self-loop and edge index lists, the degree normalisation of
  the edges, and the input projection with its per-node normalisation.
-/
import proofs.«166986_j16578573762731_1_alg».proof.Proof.RefOps
import proofs.«166986_j16578573762731_1_alg».proof.Proof.RefRead
import proofs.«166986_j16578573762731_1_alg».proof.Proof.LibAfter

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP Cert.LibAfter

variable {F : FTy → Type} [FloatOps F]

/-- The reference each of the 318 operations writes, in order. -/
abbrev wr : List (Ref sig .tc) :=
  [
    main_v0, main_v1, main_v2, main_v3, main_v4, main_v5, main_v6, main_cst,
    main_v7, main_cst_0, main_v8, main_v9, main_v10, main_cst_1, main_v11, main_v12,
    main_cst_2, main_v13, main_v14, main_v15, main_cst_3, main_call0_v0, main_call0_v1, main_v16,
    main_c, main_v17, main_v18, main_c_4, main_v19, main_v20, main_v21, main_v22,
    main_v23, main_c_5, main_v24, main_v25, main_c_6, main_v26, main_v27, main_v28,
    main_v29, main_v30, main_v31, main_v32, main_v33, main_v34, main_v35, main_call1_cst,
    main_call1_v0, main_v36, main_cst_7, main_v37, main_v38, main_cst_8, main_v39, main_v40,
    main_v41, main_v42, main_v43, main_cst_9, main_v44, main_v45, main_cst_10, main_v46,
    main_v47, main_v48, main_v49, main_cst_11, main_v50, main_v51, main_v52, main_v53,
    main_v54, main_v55, main_v56, main_v57, main_v58, main_v59, main_v60, main_v61,
    main_v62, main_v63, main_c_12, main_v64, main_v65, main_c_13, main_v66, main_v67,
    main_v68, main_v69, main_v70, main_v71, main_v72, main_v73, main_cst_14, main_v74,
    main_v75, main_v76, main_v77, main_v78, main_v79, main_v80, main_v81, main_v82,
    main_v83, main_v84, main_v85, main_cst_15, main_v86, main_v87, main_cst_16, main_v88,
    main_v89, main_v90, main_v91, main_v92, main_cst_17, main_v93, main_v94, main_cst_18,
    main_v95, main_v96, main_v97, main_v98, main_cst_19, main_v99, main_v100, main_v101,
    main_v102, main_v103, main_v104, main_v105, main_v106, main_v107, main_v108, main_v109,
    main_call2_cst, main_call2_v0, main_v110, main_v111, main_v112, main_v113, main_v114, main_c_20,
    main_v115, main_v116, main_c_21, main_v117, main_v118, main_v119, main_v120, main_v121,
    main_v122, main_v123, main_v124, main_cst_22, main_v125, main_v126, main_v127, main_v128,
    main_v129, main_v130, main_v131, main_v132, main_v133, main_v134, main_v135, main_v136,
    main_cst_23, main_v137, main_v138, main_cst_24, main_v139, main_v140, main_v141, main_v142,
    main_v143, main_cst_25, main_v144, main_v145, main_cst_26, main_v146, main_v147, main_v148,
    main_v149, main_cst_27, main_v150, main_v151, main_v152, main_v153, main_v154, main_v155,
    main_v156, main_v157, main_v158, main_v159, main_v160, main_call3_cst, main_call3_v0, main_v161,
    main_v162, main_v163, main_v164, main_v165, main_c_28, main_v166, main_v167, main_c_29,
    main_v168, main_v169, main_v170, main_v171, main_v172, main_v173, main_v174, main_v175,
    main_cst_30, main_v176, main_v177, main_v178, main_v179, main_v180, main_v181, main_v182,
    main_v183, main_v184, main_v185, main_v186, main_v187, main_cst_31, main_v188, main_v189,
    main_cst_32, main_v190, main_v191, main_v192, main_v193, main_v194, main_cst_33, main_v195,
    main_v196, main_cst_34, main_v197, main_v198, main_v199, main_v200, main_cst_35, main_v201,
    main_v202, main_v203, main_v204, main_v205, main_v206, main_v207, main_v208, main_v209,
    main_v210, main_v211, main_call4_cst, main_call4_v0, main_v212, main_v213, main_cst_36, main_v214,
    main_v215, main_v216, main_cst_37, main_v217, main_cst_38, main_v218, main_v219, main_v220,
    main_cst_39, main_v221, main_v222, main_v223, main_v224, main_v225, main_v226, main_v227,
    main_v228, main_v229, main_call5_cst, main_call5_v0, main_v230, main_cst_40, main_v231, main_v232,
    main_cst_41, main_v233, main_v234, main_v235, main_v236, main_v237, main_cst_42, main_v238,
    main_v239, main_cst_43, main_v240, main_v241, main_v242, main_v243, main_cst_44, main_v244,
    main_v245, main_v246, main_v247, main_v248, main_v249, main_v250, main_v251, main_v252,
    main_v253, main_v254, main_v255, main_v256, main_v257, main_v258 ]

/-- Each operation of the line writes exactly the reference `wr` lists at its position. -/
theorem ops_writes : WritesAre (ops (F := F)) wr := rfl

/-- Argument 0 of @main as the contents `V` gives its buffer. -/
abbrev xa0 (V : Valuation τ sig (Elt F)) : (⟨S50000x3, .f32⟩ : BufTy).Contents (Elt F) := V (Proc.devRef .tc main_arg0)
/-- Argument 1 of @main as the contents `V` gives its buffer. -/
abbrev xa1 (V : Valuation τ sig (Elt F)) : (⟨S2x300000, .i32⟩ : BufTy).Contents (Elt F) := V (Proc.devRef .tc main_arg1)
/-- Argument 2 of @main as the contents `V` gives its buffer. -/
abbrev xa2 (V : Valuation τ sig (Elt F)) : (⟨S50000, .i32⟩ : BufTy).Contents (Elt F) := V (Proc.devRef .tc main_arg2)
/-- Argument 3 of @main as the contents `V` gives its buffer. -/
abbrev xa3 (V : Valuation τ sig (Elt F)) : (⟨S3x256, .f32⟩ : BufTy).Contents (Elt F) := V (Proc.devRef .tc main_arg3)
/-- Argument 4 of @main as the contents `V` gives its buffer. -/
abbrev xa4 (V : Valuation τ sig (Elt F)) : (⟨S256, .f32⟩ : BufTy).Contents (Elt F) := V (Proc.devRef .tc main_arg4)
/-- Argument 5 of @main as the contents `V` gives its buffer. -/
abbrev xa5 (V : Valuation τ sig (Elt F)) : (⟨S256, .f32⟩ : BufTy).Contents (Elt F) := V (Proc.devRef .tc main_arg5)
/-- Argument 6 of @main as the contents `V` gives its buffer. -/
abbrev xa6 (V : Valuation τ sig (Elt F)) : (⟨S256, .f32⟩ : BufTy).Contents (Elt F) := V (Proc.devRef .tc main_arg6)
/-- Argument 7 of @main as the contents `V` gives its buffer. -/
abbrev xa7 (V : Valuation τ sig (Elt F)) : (⟨S3x256x256, .f32⟩ : BufTy).Contents (Elt F) := V (Proc.devRef .tc main_arg7)
/-- Argument 8 of @main as the contents `V` gives its buffer. -/
abbrev xa8 (V : Valuation τ sig (Elt F)) : (⟨S3x256, .f32⟩ : BufTy).Contents (Elt F) := V (Proc.devRef .tc main_arg8)
/-- Argument 9 of @main as the contents `V` gives its buffer. -/
abbrev xa9 (V : Valuation τ sig (Elt F)) : (⟨S3x256, .f32⟩ : BufTy).Contents (Elt F) := V (Proc.devRef .tc main_arg9)
/-- Argument 10 of @main as the contents `V` gives its buffer. -/
abbrev xa10 (V : Valuation τ sig (Elt F)) : (⟨S3x256, .f32⟩ : BufTy).Contents (Elt F) := V (Proc.devRef .tc main_arg10)
/-- Argument 11 of @main as the contents `V` gives its buffer. -/
abbrev xa11 (V : Valuation τ sig (Elt F)) : (⟨S256x256, .f32⟩ : BufTy).Contents (Elt F) := V (Proc.devRef .tc main_arg11)
/-- Argument 12 of @main as the contents `V` gives its buffer. -/
abbrev xa12 (V : Valuation τ sig (Elt F)) : (⟨S256, .f32⟩ : BufTy).Contents (Elt F) := V (Proc.devRef .tc main_arg12)
/-- Argument 13 of @main as the contents `V` gives its buffer. -/
abbrev xa13 (V : Valuation τ sig (Elt F)) : (⟨S256, .f32⟩ : BufTy).Contents (Elt F) := V (Proc.devRef .tc main_arg13)
/-- Argument 14 of @main as the contents `V` gives its buffer. -/
abbrev xa14 (V : Valuation τ sig (Elt F)) : (⟨S256, .f32⟩ : BufTy).Contents (Elt F) := V (Proc.devRef .tc main_arg14)
/-- Argument 15 of @main as the contents `V` gives its buffer. -/
abbrev xa15 (V : Valuation τ sig (Elt F)) : (⟨S256x128, .f32⟩ : BufTy).Contents (Elt F) := V (Proc.devRef .tc main_arg15)
/-- Argument 16 of @main as the contents `V` gives its buffer. -/
abbrev xa16 (V : Valuation τ sig (Elt F)) : (⟨S128, .f32⟩ : BufTy).Contents (Elt F) := V (Proc.devRef .tc main_arg16)

variable (V : Valuation τ sig (Elt F))

theorem ev_main_arg0 : after ops V (Proc.devRef .tc main_arg0) = xa0 V :=
  after_of_not_written ops_writes V (by decide)
theorem ev_main_arg1 : after ops V (Proc.devRef .tc main_arg1) = xa1 V :=
  after_of_not_written ops_writes V (by decide)
theorem ev_main_arg2 : after ops V (Proc.devRef .tc main_arg2) = xa2 V :=
  after_of_not_written ops_writes V (by decide)
theorem ev_main_arg3 : after ops V (Proc.devRef .tc main_arg3) = xa3 V :=
  after_of_not_written ops_writes V (by decide)
theorem ev_main_arg4 : after ops V (Proc.devRef .tc main_arg4) = xa4 V :=
  after_of_not_written ops_writes V (by decide)
theorem ev_main_arg5 : after ops V (Proc.devRef .tc main_arg5) = xa5 V :=
  after_of_not_written ops_writes V (by decide)
theorem ev_main_arg6 : after ops V (Proc.devRef .tc main_arg6) = xa6 V :=
  after_of_not_written ops_writes V (by decide)
theorem ev_main_arg7 : after ops V (Proc.devRef .tc main_arg7) = xa7 V :=
  after_of_not_written ops_writes V (by decide)
theorem ev_main_arg8 : after ops V (Proc.devRef .tc main_arg8) = xa8 V :=
  after_of_not_written ops_writes V (by decide)
theorem ev_main_arg9 : after ops V (Proc.devRef .tc main_arg9) = xa9 V :=
  after_of_not_written ops_writes V (by decide)
theorem ev_main_arg10 : after ops V (Proc.devRef .tc main_arg10) = xa10 V :=
  after_of_not_written ops_writes V (by decide)
theorem ev_main_arg11 : after ops V (Proc.devRef .tc main_arg11) = xa11 V :=
  after_of_not_written ops_writes V (by decide)
theorem ev_main_arg12 : after ops V (Proc.devRef .tc main_arg12) = xa12 V :=
  after_of_not_written ops_writes V (by decide)
theorem ev_main_arg13 : after ops V (Proc.devRef .tc main_arg13) = xa13 V :=
  after_of_not_written ops_writes V (by decide)
theorem ev_main_arg14 : after ops V (Proc.devRef .tc main_arg14) = xa14 V :=
  after_of_not_written ops_writes V (by decide)
theorem ev_main_arg15 : after ops V (Proc.devRef .tc main_arg15) = xa15 V :=
  after_of_not_written ops_writes V (by decide)
theorem ev_main_arg16 : after ops V (Proc.devRef .tc main_arg16) = xa16 V :=
  after_of_not_written ops_writes V (by decide)

theorem ev_main_v0 : after ops V (Proc.devRef .tc main_v0) = val_main_v0 (F := F) := by
  rw [step_nullary ops_writes V 0 rfl (by decide)]; rfl
theorem ev_main_v1 : after ops V (Proc.devRef .tc main_v1) = val_main_v1 (F := F) (xa1 V) := by
  rw [step_unary ops_writes V 1 rfl (by decide) (by decide), ev_main_arg1]; rfl
theorem ev_main_v2 : after ops V (Proc.devRef .tc main_v2) = val_main_v2 (F := F) (xa1 V) := by
  rw [step_reshape ops_writes V 2 rfl (by decide) (by decide), ev_main_v1]; rfl
theorem ev_main_v3 : after ops V (Proc.devRef .tc main_v3) = val_main_v3 (F := F) (xa1 V) := by
  rw [step_binary ops_writes V 3 rfl (by decide) (by decide) (by decide), ev_main_v2, ev_main_v0]; rfl
theorem ev_main_v4 : after ops V (Proc.devRef .tc main_v4) = val_main_v4 (F := F) (xa1 V) := by
  rw [step_unary ops_writes V 4 rfl (by decide) (by decide), ev_main_arg1]; rfl
theorem ev_main_v5 : after ops V (Proc.devRef .tc main_v5) = val_main_v5 (F := F) (xa1 V) := by
  rw [step_reshape ops_writes V 5 rfl (by decide) (by decide), ev_main_v4]; rfl
theorem ev_main_v6 : after ops V (Proc.devRef .tc main_v6) = val_main_v6 (F := F) (xa1 V) := by
  rw [step_binary ops_writes V 6 rfl (by decide) (by decide) (by decide), ev_main_v5, ev_main_v0]; rfl
theorem ev_main_cst : after ops V (Proc.devRef .tc main_cst) = val_main_cst (F := F) := by
  rw [step_nullary ops_writes V 7 rfl (by decide)]; rfl
theorem ev_main_v7 : after ops V (Proc.devRef .tc main_v7) = val_main_v7 (F := F) := by
  rw [step_unary ops_writes V 8 rfl (by decide) (by decide), ev_main_cst]; rfl
theorem ev_main_cst_0 : after ops V (Proc.devRef .tc main_cst_0) = val_main_cst_0 (F := F) := by
  rw [step_nullary ops_writes V 9 rfl (by decide)]; rfl
theorem ev_main_v8 : after ops V (Proc.devRef .tc main_v8) = val_main_v8 (F := F) := by
  rw [step_unary ops_writes V 10 rfl (by decide) (by decide), ev_main_cst_0]; rfl
theorem ev_main_v9 : after ops V (Proc.devRef .tc main_v9) = val_main_v9 (F := F) (xa1 V) := by
  rw [step_unary ops_writes V 11 rfl (by decide) (by decide), ev_main_v6]; rfl
theorem ev_main_v10 : after ops V (Proc.devRef .tc main_v10) = val_main_v10 (F := F) (xa1 V) := by
  rw [step_ternary ops_writes V 12 rfl (by decide) (by decide) (by decide) (by decide), ev_main_v8, ev_main_v9, ev_main_v7]; rfl
theorem ev_main_cst_1 : after ops V (Proc.devRef .tc main_cst_1) = val_main_cst_1 (F := F) := by
  rw [step_nullary ops_writes V 13 rfl (by decide)]; rfl
theorem ev_main_v11 : after ops V (Proc.devRef .tc main_v11) = val_main_v11 (F := F) := by
  rw [step_unary ops_writes V 14 rfl (by decide) (by decide), ev_main_cst_1]; rfl
theorem ev_main_v12 : after ops V (Proc.devRef .tc main_v12) = val_main_v12 (F := F) (xa1 V) := by
  rw [step_binary ops_writes V 15 rfl (by decide) (by decide) (by decide), ev_main_v10, ev_main_v11]; rfl
theorem ev_main_cst_2 : after ops V (Proc.devRef .tc main_cst_2) = val_main_cst_2 (F := F) := by
  rw [step_nullary ops_writes V 16 rfl (by decide)]; rfl
theorem ev_main_v13 : after ops V (Proc.devRef .tc main_v13) = val_main_v13 (F := F) := by
  rw [step_unary ops_writes V 17 rfl (by decide) (by decide), ev_main_cst_2]; rfl
theorem ev_main_v14 : after ops V (Proc.devRef .tc main_v14) = val_main_v14 (F := F) (xa1 V) := by
  rw [step_binary ops_writes V 18 rfl (by decide) (by decide) (by decide), ev_main_v10, ev_main_v13]; rfl
theorem ev_main_v15 : after ops V (Proc.devRef .tc main_v15) = val_main_v15 (F := F) (xa1 V) := by
  rw [step_unary ops_writes V 19 rfl (by decide) (by decide), ev_main_v14]; rfl
theorem ev_main_cst_3 : after ops V (Proc.devRef .tc main_cst_3) = val_main_cst_3 (F := F) := by
  rw [step_nullary ops_writes V 20 rfl (by decide)]; rfl
theorem ev_main_call0_v0 : after ops V (Proc.devRef .tc main_call0_v0) = val_main_call0_v0 (F := F) := by
  rw [step_unary ops_writes V 21 rfl (by decide) (by decide), ev_main_cst_3]; rfl
theorem ev_main_call0_v1 : after ops V (Proc.devRef .tc main_call0_v1) = val_main_call0_v1 (F := F) := by
  rw [step_unary ops_writes V 22 rfl (by decide) (by decide), ev_main_call0_v0]; rfl
theorem ev_main_v16 : after ops V (Proc.devRef .tc main_v16) = val_main_v16 (F := F) (xa1 V) := by
  rw [step_ternary ops_writes V 23 rfl (by decide) (by decide) (by decide) (by decide), ev_main_v12, ev_main_v15, ev_main_call0_v1]; rfl
theorem ev_main_c : after ops V (Proc.devRef .tc main_c) = val_main_c (F := F) := by
  rw [step_nullary ops_writes V 24 rfl (by decide)]; rfl
theorem ev_main_v17 : after ops V (Proc.devRef .tc main_v17) = val_main_v17 (F := F) := by
  rw [step_unary ops_writes V 25 rfl (by decide) (by decide), ev_main_c]; rfl
theorem ev_main_v18 : after ops V (Proc.devRef .tc main_v18) = val_main_v18 (F := F) (xa1 V) := by
  rw [step_binary ops_writes V 26 rfl (by decide) (by decide) (by decide), ev_main_v3, ev_main_v17]; rfl
theorem ev_main_c_4 : after ops V (Proc.devRef .tc main_c_4) = val_main_c_4 (F := F) := by
  rw [step_nullary ops_writes V 27 rfl (by decide)]; rfl
theorem ev_main_v19 : after ops V (Proc.devRef .tc main_v19) = val_main_v19 (F := F) := by
  rw [step_unary ops_writes V 28 rfl (by decide) (by decide), ev_main_c_4]; rfl
theorem ev_main_v20 : after ops V (Proc.devRef .tc main_v20) = val_main_v20 (F := F) (xa1 V) := by
  rw [step_binary ops_writes V 29 rfl (by decide) (by decide) (by decide), ev_main_v3, ev_main_v19]; rfl
theorem ev_main_v21 : after ops V (Proc.devRef .tc main_v21) = val_main_v21 (F := F) (xa1 V) := by
  rw [step_ternary ops_writes V 30 rfl (by decide) (by decide) (by decide) (by decide), ev_main_v18, ev_main_v20, ev_main_v3]; rfl
theorem ev_main_v22 : after ops V (Proc.devRef .tc main_v22) = val_main_v22 (F := F) (xa1 V) := by
  rw [step_unary ops_writes V 31 rfl (by decide) (by decide), ev_main_v21]; rfl
theorem ev_main_v23 : after ops V (Proc.devRef .tc main_v23) = val_main_v23 (F := F) (xa1 V) := by
  rw [step_binary ops_writes V 32 rfl (by decide) (by decide) (by decide), ev_main_v16, ev_main_v22]; rfl
theorem ev_main_c_5 : after ops V (Proc.devRef .tc main_c_5) = val_main_c_5 (F := F) := by
  rw [step_nullary ops_writes V 33 rfl (by decide)]; rfl
theorem ev_main_v24 : after ops V (Proc.devRef .tc main_v24) = val_main_v24 (F := F) := by
  rw [step_unary ops_writes V 34 rfl (by decide) (by decide), ev_main_c_5]; rfl
theorem ev_main_v25 : after ops V (Proc.devRef .tc main_v25) = val_main_v25 (F := F) (xa1 V) := by
  rw [step_binary ops_writes V 35 rfl (by decide) (by decide) (by decide), ev_main_v6, ev_main_v24]; rfl
theorem ev_main_c_6 : after ops V (Proc.devRef .tc main_c_6) = val_main_c_6 (F := F) := by
  rw [step_nullary ops_writes V 36 rfl (by decide)]; rfl
theorem ev_main_v26 : after ops V (Proc.devRef .tc main_v26) = val_main_v26 (F := F) := by
  rw [step_unary ops_writes V 37 rfl (by decide) (by decide), ev_main_c_6]; rfl
theorem ev_main_v27 : after ops V (Proc.devRef .tc main_v27) = val_main_v27 (F := F) (xa1 V) := by
  rw [step_binary ops_writes V 38 rfl (by decide) (by decide) (by decide), ev_main_v6, ev_main_v26]; rfl
theorem ev_main_v28 : after ops V (Proc.devRef .tc main_v28) = val_main_v28 (F := F) (xa1 V) := by
  rw [step_ternary ops_writes V 39 rfl (by decide) (by decide) (by decide) (by decide), ev_main_v25, ev_main_v27, ev_main_v6]; rfl
theorem ev_main_v29 : after ops V (Proc.devRef .tc main_v29) = val_main_v29 (F := F) (xa1 V) := by
  rw [step_unary ops_writes V 40 rfl (by decide) (by decide), ev_main_v28]; rfl
theorem ev_main_v30 : after ops V (Proc.devRef .tc main_v30) = val_main_v30 (F := F) (xa1 V) := by
  rw [step_binary ops_writes V 41 rfl (by decide) (by decide) (by decide), ev_main_v16, ev_main_v29]; rfl
theorem ev_main_v31 : after ops V (Proc.devRef .tc main_v31) = val_main_v31 (F := F) (xa1 V) := by
  rw [step_binary ops_writes V 42 rfl (by decide) (by decide) (by decide), ev_main_v23, ev_main_v30]; rfl
theorem ev_main_v32 : after ops V (Proc.devRef .tc main_v32) = val_main_v32 (F := F) (xa0 V) (xa3 V) := by
  rw [step_binary ops_writes V 43 rfl (by decide) (by decide) (by decide), ev_main_arg0, ev_main_arg3]; rfl
theorem ev_main_v33 : after ops V (Proc.devRef .tc main_v33) = val_main_v33 (F := F) (xa4 V) := by
  rw [step_unary ops_writes V 44 rfl (by decide) (by decide), ev_main_arg4]; rfl
theorem ev_main_v34 : after ops V (Proc.devRef .tc main_v34) = val_main_v34 (F := F) (xa4 V) := by
  rw [step_unary ops_writes V 45 rfl (by decide) (by decide), ev_main_v33]; rfl
theorem ev_main_v35 : after ops V (Proc.devRef .tc main_v35) = val_main_v35 (F := F) (xa0 V) (xa3 V) (xa4 V) := by
  rw [step_binary ops_writes V 46 rfl (by decide) (by decide) (by decide), ev_main_v32, ev_main_v34]; rfl
theorem ev_main_call1_cst : after ops V (Proc.devRef .tc main_call1_cst) = val_main_call1_cst (F := F) := by
  rw [step_nullary ops_writes V 47 rfl (by decide)]; rfl
theorem ev_main_call1_v0 : after ops V (Proc.devRef .tc main_call1_v0) = val_main_call1_v0 (F := F) := by
  rw [step_unary ops_writes V 48 rfl (by decide) (by decide), ev_main_call1_cst]; rfl
theorem ev_main_v36 : after ops V (Proc.devRef .tc main_v36) = val_main_v36 (F := F) (xa0 V) (xa3 V) (xa4 V) := by
  rw [step_binary ops_writes V 49 rfl (by decide) (by decide) (by decide), ev_main_v35, ev_main_call1_v0]; rfl
theorem ev_main_cst_7 : after ops V (Proc.devRef .tc main_cst_7) = val_main_cst_7 (F := F) := by
  rw [step_nullary ops_writes V 50 rfl (by decide)]; rfl
theorem ev_main_v37 : after ops V (Proc.devRef .tc main_v37) = val_main_v37 (F := F) (xa0 V) (xa3 V) (xa4 V) := by
  rw [step_binary ops_writes V 51 rfl (by decide) (by decide) (by decide), ev_main_v36, ev_main_cst_7]; rfl
theorem ev_main_v38 : after ops V (Proc.devRef .tc main_v38) = val_main_v38 (F := F) (xa0 V) (xa3 V) (xa4 V) := by
  rw [step_unary ops_writes V 52 rfl (by decide) (by decide), ev_main_v37]; rfl
theorem ev_main_cst_8 : after ops V (Proc.devRef .tc main_cst_8) = val_main_cst_8 (F := F) := by
  rw [step_nullary ops_writes V 53 rfl (by decide)]; rfl
theorem ev_main_v39 : after ops V (Proc.devRef .tc main_v39) = val_main_v39 (F := F) := by
  rw [step_unary ops_writes V 54 rfl (by decide) (by decide), ev_main_cst_8]; rfl
theorem ev_main_v40 : after ops V (Proc.devRef .tc main_v40) = val_main_v40 (F := F) (xa0 V) (xa3 V) (xa4 V) := by
  rw [step_binary ops_writes V 55 rfl (by decide) (by decide) (by decide), ev_main_v38, ev_main_v39]; rfl
theorem ev_main_v41 : after ops V (Proc.devRef .tc main_v41) = val_main_v41 (F := F) (xa0 V) (xa3 V) (xa4 V) := by
  rw [step_unary ops_writes V 56 rfl (by decide) (by decide), ev_main_v40]; rfl
theorem ev_main_v42 : after ops V (Proc.devRef .tc main_v42) = val_main_v42 (F := F) (xa0 V) (xa3 V) (xa4 V) := by
  rw [step_binary ops_writes V 57 rfl (by decide) (by decide) (by decide), ev_main_v36, ev_main_v41]; rfl
theorem ev_main_v43 : after ops V (Proc.devRef .tc main_v43) = val_main_v43 (F := F) (xa0 V) (xa3 V) (xa4 V) := by
  rw [step_binary ops_writes V 58 rfl (by decide) (by decide) (by decide), ev_main_v42]; rfl
theorem ev_main_cst_9 : after ops V (Proc.devRef .tc main_cst_9) = val_main_cst_9 (F := F) := by
  rw [step_nullary ops_writes V 59 rfl (by decide)]; rfl
theorem ev_main_v44 : after ops V (Proc.devRef .tc main_v44) = val_main_v44 (F := F) (xa0 V) (xa3 V) (xa4 V) := by
  rw [step_binary ops_writes V 60 rfl (by decide) (by decide) (by decide), ev_main_v43, ev_main_cst_9]; rfl
theorem ev_main_v45 : after ops V (Proc.devRef .tc main_v45) = val_main_v45 (F := F) (xa0 V) (xa3 V) (xa4 V) := by
  rw [step_unary ops_writes V 61 rfl (by decide) (by decide), ev_main_v44]; rfl
theorem ev_main_cst_10 : after ops V (Proc.devRef .tc main_cst_10) = val_main_cst_10 (F := F) := by
  rw [step_nullary ops_writes V 62 rfl (by decide)]; rfl
theorem ev_main_v46 : after ops V (Proc.devRef .tc main_v46) = val_main_v46 (F := F) := by
  rw [step_unary ops_writes V 63 rfl (by decide) (by decide), ev_main_cst_10]; rfl
theorem ev_main_v47 : after ops V (Proc.devRef .tc main_v47) = val_main_v47 (F := F) (xa0 V) (xa3 V) (xa4 V) := by
  rw [step_binary ops_writes V 64 rfl (by decide) (by decide) (by decide), ev_main_v45, ev_main_v46]; rfl
theorem ev_main_v48 : after ops V (Proc.devRef .tc main_v48) = val_main_v48 (F := F) (xa0 V) (xa3 V) (xa4 V) := by
  rw [step_unary ops_writes V 65 rfl (by decide) (by decide), ev_main_v40]; rfl
theorem ev_main_v49 : after ops V (Proc.devRef .tc main_v49) = val_main_v49 (F := F) (xa0 V) (xa3 V) (xa4 V) := by
  rw [step_binary ops_writes V 66 rfl (by decide) (by decide) (by decide), ev_main_v36, ev_main_v48]; rfl
theorem ev_main_cst_11 : after ops V (Proc.devRef .tc main_cst_11) = val_main_cst_11 (F := F) := by
  rw [step_nullary ops_writes V 67 rfl (by decide)]; rfl
theorem ev_main_v50 : after ops V (Proc.devRef .tc main_v50) = val_main_v50 (F := F) := by
  rw [step_unary ops_writes V 68 rfl (by decide) (by decide), ev_main_cst_11]; rfl
theorem ev_main_v51 : after ops V (Proc.devRef .tc main_v51) = val_main_v51 (F := F) (xa0 V) (xa3 V) (xa4 V) := by
  rw [step_binary ops_writes V 69 rfl (by decide) (by decide) (by decide), ev_main_v47, ev_main_v50]; rfl
theorem ev_main_v52 : after ops V (Proc.devRef .tc main_v52) = val_main_v52 (F := F) (xa0 V) (xa3 V) (xa4 V) := by
  rw [step_unary ops_writes V 70 rfl (by decide) (by decide), ev_main_v51]; rfl
theorem ev_main_v53 : after ops V (Proc.devRef .tc main_v53) = val_main_v53 (F := F) (xa0 V) (xa3 V) (xa4 V) := by
  rw [step_unary ops_writes V 71 rfl (by decide) (by decide), ev_main_v52]; rfl
theorem ev_main_v54 : after ops V (Proc.devRef .tc main_v54) = val_main_v54 (F := F) (xa0 V) (xa3 V) (xa4 V) := by
  rw [step_binary ops_writes V 72 rfl (by decide) (by decide) (by decide), ev_main_v49, ev_main_v53]; rfl
theorem ev_main_v55 : after ops V (Proc.devRef .tc main_v55) = val_main_v55 (F := F) (xa5 V) := by
  rw [step_unary ops_writes V 73 rfl (by decide) (by decide), ev_main_arg5]; rfl
theorem ev_main_v56 : after ops V (Proc.devRef .tc main_v56) = val_main_v56 (F := F) (xa5 V) := by
  rw [step_unary ops_writes V 74 rfl (by decide) (by decide), ev_main_v55]; rfl
theorem ev_main_v57 : after ops V (Proc.devRef .tc main_v57) = val_main_v57 (F := F) (xa0 V) (xa3 V) (xa4 V) (xa5 V) := by
  rw [step_binary ops_writes V 75 rfl (by decide) (by decide) (by decide), ev_main_v54, ev_main_v56]; rfl
theorem ev_main_v58 : after ops V (Proc.devRef .tc main_v58) = val_main_v58 (F := F) (xa6 V) := by
  rw [step_unary ops_writes V 76 rfl (by decide) (by decide), ev_main_arg6]; rfl
theorem ev_main_v59 : after ops V (Proc.devRef .tc main_v59) = val_main_v59 (F := F) (xa6 V) := by
  rw [step_unary ops_writes V 77 rfl (by decide) (by decide), ev_main_v58]; rfl
theorem ev_main_v60 : after ops V (Proc.devRef .tc main_v60) = val_main_v60 (F := F) (xa0 V) (xa3 V) (xa4 V) (xa5 V) (xa6 V) := by
  rw [step_binary ops_writes V 78 rfl (by decide) (by decide) (by decide), ev_main_v57, ev_main_v59]; rfl

end Cert.ReferenceIdeal.RunP

end
-- ==== Proof.RefRunB.lean ====
/-
  The reference's run, second part: the first layer (operations 79 to 139 of 318) — the dense linear map, the
  gather of the edges' source rows, their scaling, the scatter-add onto the target nodes, and the post-aggregation
  normalisation, rectifier and residual.  One fact per operation, as in the first part.
-/
import proofs.«166986_j16578573762731_1_alg».proof.Proof.RefRunA

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP Cert.LibAfter

variable {F : FTy → Type} [FloatOps F]

variable (V : Valuation τ sig (Elt F))

theorem ev_main_v61 : after ops V (Proc.devRef .tc main_v61) = val_main_v61 (F := F) (xa7 V) := by
  rw [step_unary ops_writes V 79 rfl (by decide) (by decide), ev_main_arg7]; rfl
theorem ev_main_v62 : after ops V (Proc.devRef .tc main_v62) = val_main_v62 (F := F) (xa7 V) := by
  rw [step_reshape ops_writes V 80 rfl (by decide) (by decide), ev_main_v61]; rfl
theorem ev_main_v63 : after ops V (Proc.devRef .tc main_v63) = val_main_v63 (F := F) (xa0 V) (xa3 V) (xa4 V) (xa5 V) (xa6 V) (xa7 V) := by
  rw [step_binary ops_writes V 81 rfl (by decide) (by decide) (by decide), ev_main_v60, ev_main_v62]; rfl
theorem ev_main_c_12 : after ops V (Proc.devRef .tc main_c_12) = val_main_c_12 (F := F) := by
  rw [step_nullary ops_writes V 82 rfl (by decide)]; rfl
theorem ev_main_v64 : after ops V (Proc.devRef .tc main_v64) = val_main_v64 (F := F) := by
  rw [step_unary ops_writes V 83 rfl (by decide) (by decide), ev_main_c_12]; rfl
theorem ev_main_v65 : after ops V (Proc.devRef .tc main_v65) = val_main_v65 (F := F) (xa1 V) := by
  rw [step_binary ops_writes V 84 rfl (by decide) (by decide) (by decide), ev_main_v3, ev_main_v64]; rfl
theorem ev_main_c_13 : after ops V (Proc.devRef .tc main_c_13) = val_main_c_13 (F := F) := by
  rw [step_nullary ops_writes V 85 rfl (by decide)]; rfl
theorem ev_main_v66 : after ops V (Proc.devRef .tc main_v66) = val_main_v66 (F := F) := by
  rw [step_unary ops_writes V 86 rfl (by decide) (by decide), ev_main_c_13]; rfl
theorem ev_main_v67 : after ops V (Proc.devRef .tc main_v67) = val_main_v67 (F := F) (xa1 V) := by
  rw [step_binary ops_writes V 87 rfl (by decide) (by decide) (by decide), ev_main_v3, ev_main_v66]; rfl
theorem ev_main_v68 : after ops V (Proc.devRef .tc main_v68) = val_main_v68 (F := F) (xa1 V) := by
  rw [step_ternary ops_writes V 88 rfl (by decide) (by decide) (by decide) (by decide), ev_main_v65, ev_main_v67, ev_main_v3]; rfl
theorem ev_main_v69 : after ops V (Proc.devRef .tc main_v69) = val_main_v69 (F := F) (xa1 V) := by
  rw [step_unary ops_writes V 89 rfl (by decide) (by decide), ev_main_v68]; rfl
theorem ev_main_v70 : after ops V (Proc.devRef .tc main_v70) = val_main_v70 (F := F) (xa0 V) (xa1 V) (xa3 V) (xa4 V) (xa5 V) (xa6 V) (xa7 V) := by
  rw [step_binary ops_writes V 90 rfl (by decide) (by decide) (by decide), ev_main_v63, ev_main_v69]; rfl
theorem ev_main_v71 : after ops V (Proc.devRef .tc main_v71) = val_main_v71 (F := F) (xa1 V) := by
  rw [step_unary ops_writes V 91 rfl (by decide) (by decide), ev_main_v31]; rfl
theorem ev_main_v72 : after ops V (Proc.devRef .tc main_v72) = val_main_v72 (F := F) (xa1 V) := by
  rw [step_unary ops_writes V 92 rfl (by decide) (by decide), ev_main_v71]; rfl
theorem ev_main_v73 : after ops V (Proc.devRef .tc main_v73) = val_main_v73 (F := F) (xa0 V) (xa1 V) (xa3 V) (xa4 V) (xa5 V) (xa6 V) (xa7 V) := by
  rw [step_binary ops_writes V 93 rfl (by decide) (by decide) (by decide), ev_main_v70, ev_main_v72]; rfl
theorem ev_main_cst_14 : after ops V (Proc.devRef .tc main_cst_14) = val_main_cst_14 (F := F) := by
  rw [step_nullary ops_writes V 94 rfl (by decide)]; rfl
theorem ev_main_v74 : after ops V (Proc.devRef .tc main_v74) = val_main_v74 (F := F) := by
  rw [step_unary ops_writes V 95 rfl (by decide) (by decide), ev_main_cst_14]; rfl
theorem ev_main_v75 : after ops V (Proc.devRef .tc main_v75) = val_main_v75 (F := F) (xa1 V) := by
  rw [step_unary ops_writes V 96 rfl (by decide) (by decide), ev_main_v6]; rfl
theorem ev_main_v76 : after ops V (Proc.devRef .tc main_v76) = val_main_v76 (F := F) (xa0 V) (xa1 V) (xa3 V) (xa4 V) (xa5 V) (xa6 V) (xa7 V) := by
  rw [step_ternary ops_writes V 97 rfl (by decide) (by decide) (by decide) (by decide), ev_main_v74, ev_main_v75, ev_main_v73]; rfl
theorem ev_main_v77 : after ops V (Proc.devRef .tc main_v77) = val_main_v77 (F := F) (xa8 V) := by
  rw [step_unary ops_writes V 98 rfl (by decide) (by decide), ev_main_arg8]; rfl
theorem ev_main_v78 : after ops V (Proc.devRef .tc main_v78) = val_main_v78 (F := F) (xa8 V) := by
  rw [step_reshape ops_writes V 99 rfl (by decide) (by decide), ev_main_v77]; rfl
theorem ev_main_v79 : after ops V (Proc.devRef .tc main_v79) = val_main_v79 (F := F) (xa8 V) := by
  rw [step_unary ops_writes V 100 rfl (by decide) (by decide), ev_main_v78]; rfl
theorem ev_main_v80 : after ops V (Proc.devRef .tc main_v80) = val_main_v80 (F := F) (xa8 V) := by
  rw [step_unary ops_writes V 101 rfl (by decide) (by decide), ev_main_v79]; rfl
theorem ev_main_v81 : after ops V (Proc.devRef .tc main_v81) = val_main_v81 (F := F) (xa0 V) (xa1 V) (xa3 V) (xa4 V) (xa5 V) (xa6 V) (xa7 V) (xa8 V) := by
  rw [step_binary ops_writes V 102 rfl (by decide) (by decide) (by decide), ev_main_v76, ev_main_v80]; rfl
theorem ev_main_v82 : after ops V (Proc.devRef .tc main_v82) = val_main_v82 (F := F) (xa9 V) := by
  rw [step_unary ops_writes V 103 rfl (by decide) (by decide), ev_main_arg9]; rfl
theorem ev_main_v83 : after ops V (Proc.devRef .tc main_v83) = val_main_v83 (F := F) (xa9 V) := by
  rw [step_reshape ops_writes V 104 rfl (by decide) (by decide), ev_main_v82]; rfl
theorem ev_main_v84 : after ops V (Proc.devRef .tc main_v84) = val_main_v84 (F := F) (xa10 V) := by
  rw [step_unary ops_writes V 105 rfl (by decide) (by decide), ev_main_arg10]; rfl
theorem ev_main_v85 : after ops V (Proc.devRef .tc main_v85) = val_main_v85 (F := F) (xa10 V) := by
  rw [step_reshape ops_writes V 106 rfl (by decide) (by decide), ev_main_v84]; rfl
theorem ev_main_cst_15 : after ops V (Proc.devRef .tc main_cst_15) = val_main_cst_15 (F := F) := by
  rw [step_nullary ops_writes V 107 rfl (by decide)]; rfl
theorem ev_main_v86 : after ops V (Proc.devRef .tc main_v86) = val_main_v86 (F := F) (xa0 V) (xa1 V) (xa3 V) (xa4 V) (xa5 V) (xa6 V) (xa7 V) (xa8 V) := by
  rw [step_binary ops_writes V 108 rfl (by decide) (by decide) (by decide), ev_main_v81, ev_main_cst_15]; rfl
theorem ev_main_v87 : after ops V (Proc.devRef .tc main_v87) = val_main_v87 (F := F) (xa0 V) (xa1 V) (xa3 V) (xa4 V) (xa5 V) (xa6 V) (xa7 V) (xa8 V) := by
  rw [step_unary ops_writes V 109 rfl (by decide) (by decide), ev_main_v86]; rfl
theorem ev_main_cst_16 : after ops V (Proc.devRef .tc main_cst_16) = val_main_cst_16 (F := F) := by
  rw [step_nullary ops_writes V 110 rfl (by decide)]; rfl
theorem ev_main_v88 : after ops V (Proc.devRef .tc main_v88) = val_main_v88 (F := F) := by
  rw [step_unary ops_writes V 111 rfl (by decide) (by decide), ev_main_cst_16]; rfl
theorem ev_main_v89 : after ops V (Proc.devRef .tc main_v89) = val_main_v89 (F := F) (xa0 V) (xa1 V) (xa3 V) (xa4 V) (xa5 V) (xa6 V) (xa7 V) (xa8 V) := by
  rw [step_binary ops_writes V 112 rfl (by decide) (by decide) (by decide), ev_main_v87, ev_main_v88]; rfl
theorem ev_main_v90 : after ops V (Proc.devRef .tc main_v90) = val_main_v90 (F := F) (xa0 V) (xa1 V) (xa3 V) (xa4 V) (xa5 V) (xa6 V) (xa7 V) (xa8 V) := by
  rw [step_unary ops_writes V 113 rfl (by decide) (by decide), ev_main_v89]; rfl
theorem ev_main_v91 : after ops V (Proc.devRef .tc main_v91) = val_main_v91 (F := F) (xa0 V) (xa1 V) (xa3 V) (xa4 V) (xa5 V) (xa6 V) (xa7 V) (xa8 V) := by
  rw [step_binary ops_writes V 114 rfl (by decide) (by decide) (by decide), ev_main_v81, ev_main_v90]; rfl
theorem ev_main_v92 : after ops V (Proc.devRef .tc main_v92) = val_main_v92 (F := F) (xa0 V) (xa1 V) (xa3 V) (xa4 V) (xa5 V) (xa6 V) (xa7 V) (xa8 V) := by
  rw [step_binary ops_writes V 115 rfl (by decide) (by decide) (by decide), ev_main_v91]; rfl
theorem ev_main_cst_17 : after ops V (Proc.devRef .tc main_cst_17) = val_main_cst_17 (F := F) := by
  rw [step_nullary ops_writes V 116 rfl (by decide)]; rfl
theorem ev_main_v93 : after ops V (Proc.devRef .tc main_v93) = val_main_v93 (F := F) (xa0 V) (xa1 V) (xa3 V) (xa4 V) (xa5 V) (xa6 V) (xa7 V) (xa8 V) := by
  rw [step_binary ops_writes V 117 rfl (by decide) (by decide) (by decide), ev_main_v92, ev_main_cst_17]; rfl
theorem ev_main_v94 : after ops V (Proc.devRef .tc main_v94) = val_main_v94 (F := F) (xa0 V) (xa1 V) (xa3 V) (xa4 V) (xa5 V) (xa6 V) (xa7 V) (xa8 V) := by
  rw [step_unary ops_writes V 118 rfl (by decide) (by decide), ev_main_v93]; rfl
theorem ev_main_cst_18 : after ops V (Proc.devRef .tc main_cst_18) = val_main_cst_18 (F := F) := by
  rw [step_nullary ops_writes V 119 rfl (by decide)]; rfl
theorem ev_main_v95 : after ops V (Proc.devRef .tc main_v95) = val_main_v95 (F := F) := by
  rw [step_unary ops_writes V 120 rfl (by decide) (by decide), ev_main_cst_18]; rfl
theorem ev_main_v96 : after ops V (Proc.devRef .tc main_v96) = val_main_v96 (F := F) (xa0 V) (xa1 V) (xa3 V) (xa4 V) (xa5 V) (xa6 V) (xa7 V) (xa8 V) := by
  rw [step_binary ops_writes V 121 rfl (by decide) (by decide) (by decide), ev_main_v94, ev_main_v95]; rfl
theorem ev_main_v97 : after ops V (Proc.devRef .tc main_v97) = val_main_v97 (F := F) (xa0 V) (xa1 V) (xa3 V) (xa4 V) (xa5 V) (xa6 V) (xa7 V) (xa8 V) := by
  rw [step_unary ops_writes V 122 rfl (by decide) (by decide), ev_main_v89]; rfl
theorem ev_main_v98 : after ops V (Proc.devRef .tc main_v98) = val_main_v98 (F := F) (xa0 V) (xa1 V) (xa3 V) (xa4 V) (xa5 V) (xa6 V) (xa7 V) (xa8 V) := by
  rw [step_binary ops_writes V 123 rfl (by decide) (by decide) (by decide), ev_main_v81, ev_main_v97]; rfl
theorem ev_main_cst_19 : after ops V (Proc.devRef .tc main_cst_19) = val_main_cst_19 (F := F) := by
  rw [step_nullary ops_writes V 124 rfl (by decide)]; rfl
theorem ev_main_v99 : after ops V (Proc.devRef .tc main_v99) = val_main_v99 (F := F) := by
  rw [step_unary ops_writes V 125 rfl (by decide) (by decide), ev_main_cst_19]; rfl
theorem ev_main_v100 : after ops V (Proc.devRef .tc main_v100) = val_main_v100 (F := F) (xa0 V) (xa1 V) (xa3 V) (xa4 V) (xa5 V) (xa6 V) (xa7 V) (xa8 V) := by
  rw [step_binary ops_writes V 126 rfl (by decide) (by decide) (by decide), ev_main_v96, ev_main_v99]; rfl
theorem ev_main_v101 : after ops V (Proc.devRef .tc main_v101) = val_main_v101 (F := F) (xa0 V) (xa1 V) (xa3 V) (xa4 V) (xa5 V) (xa6 V) (xa7 V) (xa8 V) := by
  rw [step_unary ops_writes V 127 rfl (by decide) (by decide), ev_main_v100]; rfl
theorem ev_main_v102 : after ops V (Proc.devRef .tc main_v102) = val_main_v102 (F := F) (xa0 V) (xa1 V) (xa3 V) (xa4 V) (xa5 V) (xa6 V) (xa7 V) (xa8 V) := by
  rw [step_unary ops_writes V 128 rfl (by decide) (by decide), ev_main_v101]; rfl
theorem ev_main_v103 : after ops V (Proc.devRef .tc main_v103) = val_main_v103 (F := F) (xa0 V) (xa1 V) (xa3 V) (xa4 V) (xa5 V) (xa6 V) (xa7 V) (xa8 V) := by
  rw [step_binary ops_writes V 129 rfl (by decide) (by decide) (by decide), ev_main_v98, ev_main_v102]; rfl
theorem ev_main_v104 : after ops V (Proc.devRef .tc main_v104) = val_main_v104 (F := F) (xa9 V) := by
  rw [step_unary ops_writes V 130 rfl (by decide) (by decide), ev_main_v83]; rfl
theorem ev_main_v105 : after ops V (Proc.devRef .tc main_v105) = val_main_v105 (F := F) (xa9 V) := by
  rw [step_unary ops_writes V 131 rfl (by decide) (by decide), ev_main_v104]; rfl
theorem ev_main_v106 : after ops V (Proc.devRef .tc main_v106) = val_main_v106 (F := F) (xa0 V) (xa1 V) (xa3 V) (xa4 V) (xa5 V) (xa6 V) (xa7 V) (xa8 V) (xa9 V) := by
  rw [step_binary ops_writes V 132 rfl (by decide) (by decide) (by decide), ev_main_v103, ev_main_v105]; rfl
theorem ev_main_v107 : after ops V (Proc.devRef .tc main_v107) = val_main_v107 (F := F) (xa10 V) := by
  rw [step_unary ops_writes V 133 rfl (by decide) (by decide), ev_main_v85]; rfl
theorem ev_main_v108 : after ops V (Proc.devRef .tc main_v108) = val_main_v108 (F := F) (xa10 V) := by
  rw [step_unary ops_writes V 134 rfl (by decide) (by decide), ev_main_v107]; rfl
theorem ev_main_v109 : after ops V (Proc.devRef .tc main_v109) = val_main_v109 (F := F) (xa0 V) (xa1 V) (xa3 V) (xa4 V) (xa5 V) (xa6 V) (xa7 V) (xa8 V) (xa9 V) (xa10 V) := by
  rw [step_binary ops_writes V 135 rfl (by decide) (by decide) (by decide), ev_main_v106, ev_main_v108]; rfl
theorem ev_main_call2_cst : after ops V (Proc.devRef .tc main_call2_cst) = val_main_call2_cst (F := F) := by
  rw [step_nullary ops_writes V 136 rfl (by decide)]; rfl
theorem ev_main_call2_v0 : after ops V (Proc.devRef .tc main_call2_v0) = val_main_call2_v0 (F := F) := by
  rw [step_unary ops_writes V 137 rfl (by decide) (by decide), ev_main_call2_cst]; rfl
theorem ev_main_v110 : after ops V (Proc.devRef .tc main_v110) = val_main_v110 (F := F) (xa0 V) (xa1 V) (xa3 V) (xa4 V) (xa5 V) (xa6 V) (xa7 V) (xa8 V) (xa9 V) (xa10 V) := by
  rw [step_binary ops_writes V 138 rfl (by decide) (by decide) (by decide), ev_main_v109, ev_main_call2_v0]; rfl
theorem ev_main_v111 : after ops V (Proc.devRef .tc main_v111) = val_main_v111 (F := F) (xa0 V) (xa1 V) (xa3 V) (xa4 V) (xa5 V) (xa6 V) (xa7 V) (xa8 V) (xa9 V) (xa10 V) := by
  rw [step_binary ops_writes V 139 rfl (by decide) (by decide) (by decide), ev_main_v110, ev_main_v60]; rfl

end Cert.ReferenceIdeal.RunP

end
-- ==== Proof.RefRunC.lean ====
/-
  The reference's run, third part: the second layer (operations 140 to 200 of 318), operation by operation as
  in the first layer.
-/
import proofs.«166986_j16578573762731_1_alg».proof.Proof.RefRunB

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP Cert.LibAfter

variable {F : FTy → Type} [FloatOps F]

variable (V : Valuation τ sig (Elt F))

theorem ev_main_v112 : after ops V (Proc.devRef .tc main_v112) = val_main_v112 (F := F) (xa7 V) := by
  rw [step_unary ops_writes V 140 rfl (by decide) (by decide), ev_main_arg7]; rfl
theorem ev_main_v113 : after ops V (Proc.devRef .tc main_v113) = val_main_v113 (F := F) (xa7 V) := by
  rw [step_reshape ops_writes V 141 rfl (by decide) (by decide), ev_main_v112]; rfl
theorem ev_main_v114 : after ops V (Proc.devRef .tc main_v114) = val_main_v114 (F := F) (xa0 V) (xa1 V) (xa3 V) (xa4 V) (xa5 V) (xa6 V) (xa7 V) (xa8 V) (xa9 V) (xa10 V) := by
  rw [step_binary ops_writes V 142 rfl (by decide) (by decide) (by decide), ev_main_v111, ev_main_v113]; rfl
theorem ev_main_c_20 : after ops V (Proc.devRef .tc main_c_20) = val_main_c_20 (F := F) := by
  rw [step_nullary ops_writes V 143 rfl (by decide)]; rfl
theorem ev_main_v115 : after ops V (Proc.devRef .tc main_v115) = val_main_v115 (F := F) := by
  rw [step_unary ops_writes V 144 rfl (by decide) (by decide), ev_main_c_20]; rfl
theorem ev_main_v116 : after ops V (Proc.devRef .tc main_v116) = val_main_v116 (F := F) (xa1 V) := by
  rw [step_binary ops_writes V 145 rfl (by decide) (by decide) (by decide), ev_main_v3, ev_main_v115]; rfl
theorem ev_main_c_21 : after ops V (Proc.devRef .tc main_c_21) = val_main_c_21 (F := F) := by
  rw [step_nullary ops_writes V 146 rfl (by decide)]; rfl
theorem ev_main_v117 : after ops V (Proc.devRef .tc main_v117) = val_main_v117 (F := F) := by
  rw [step_unary ops_writes V 147 rfl (by decide) (by decide), ev_main_c_21]; rfl
theorem ev_main_v118 : after ops V (Proc.devRef .tc main_v118) = val_main_v118 (F := F) (xa1 V) := by
  rw [step_binary ops_writes V 148 rfl (by decide) (by decide) (by decide), ev_main_v3, ev_main_v117]; rfl
theorem ev_main_v119 : after ops V (Proc.devRef .tc main_v119) = val_main_v119 (F := F) (xa1 V) := by
  rw [step_ternary ops_writes V 149 rfl (by decide) (by decide) (by decide) (by decide), ev_main_v116, ev_main_v118, ev_main_v3]; rfl
theorem ev_main_v120 : after ops V (Proc.devRef .tc main_v120) = val_main_v120 (F := F) (xa1 V) := by
  rw [step_unary ops_writes V 150 rfl (by decide) (by decide), ev_main_v119]; rfl
theorem ev_main_v121 : after ops V (Proc.devRef .tc main_v121) = val_main_v121 (F := F) (xa0 V) (xa1 V) (xa3 V) (xa4 V) (xa5 V) (xa6 V) (xa7 V) (xa8 V) (xa9 V) (xa10 V) := by
  rw [step_binary ops_writes V 151 rfl (by decide) (by decide) (by decide), ev_main_v114, ev_main_v120]; rfl
theorem ev_main_v122 : after ops V (Proc.devRef .tc main_v122) = val_main_v122 (F := F) (xa1 V) := by
  rw [step_unary ops_writes V 152 rfl (by decide) (by decide), ev_main_v31]; rfl
theorem ev_main_v123 : after ops V (Proc.devRef .tc main_v123) = val_main_v123 (F := F) (xa1 V) := by
  rw [step_unary ops_writes V 153 rfl (by decide) (by decide), ev_main_v122]; rfl
theorem ev_main_v124 : after ops V (Proc.devRef .tc main_v124) = val_main_v124 (F := F) (xa0 V) (xa1 V) (xa3 V) (xa4 V) (xa5 V) (xa6 V) (xa7 V) (xa8 V) (xa9 V) (xa10 V) := by
  rw [step_binary ops_writes V 154 rfl (by decide) (by decide) (by decide), ev_main_v121, ev_main_v123]; rfl
theorem ev_main_cst_22 : after ops V (Proc.devRef .tc main_cst_22) = val_main_cst_22 (F := F) := by
  rw [step_nullary ops_writes V 155 rfl (by decide)]; rfl
theorem ev_main_v125 : after ops V (Proc.devRef .tc main_v125) = val_main_v125 (F := F) := by
  rw [step_unary ops_writes V 156 rfl (by decide) (by decide), ev_main_cst_22]; rfl
theorem ev_main_v126 : after ops V (Proc.devRef .tc main_v126) = val_main_v126 (F := F) (xa1 V) := by
  rw [step_unary ops_writes V 157 rfl (by decide) (by decide), ev_main_v6]; rfl
theorem ev_main_v127 : after ops V (Proc.devRef .tc main_v127) = val_main_v127 (F := F) (xa0 V) (xa1 V) (xa3 V) (xa4 V) (xa5 V) (xa6 V) (xa7 V) (xa8 V) (xa9 V) (xa10 V) := by
  rw [step_ternary ops_writes V 158 rfl (by decide) (by decide) (by decide) (by decide), ev_main_v125, ev_main_v126, ev_main_v124]; rfl
theorem ev_main_v128 : after ops V (Proc.devRef .tc main_v128) = val_main_v128 (F := F) (xa8 V) := by
  rw [step_unary ops_writes V 159 rfl (by decide) (by decide), ev_main_arg8]; rfl
theorem ev_main_v129 : after ops V (Proc.devRef .tc main_v129) = val_main_v129 (F := F) (xa8 V) := by
  rw [step_reshape ops_writes V 160 rfl (by decide) (by decide), ev_main_v128]; rfl
theorem ev_main_v130 : after ops V (Proc.devRef .tc main_v130) = val_main_v130 (F := F) (xa8 V) := by
  rw [step_unary ops_writes V 161 rfl (by decide) (by decide), ev_main_v129]; rfl
theorem ev_main_v131 : after ops V (Proc.devRef .tc main_v131) = val_main_v131 (F := F) (xa8 V) := by
  rw [step_unary ops_writes V 162 rfl (by decide) (by decide), ev_main_v130]; rfl
theorem ev_main_v132 : after ops V (Proc.devRef .tc main_v132) = val_main_v132 (F := F) (xa0 V) (xa1 V) (xa3 V) (xa4 V) (xa5 V) (xa6 V) (xa7 V) (xa8 V) (xa9 V) (xa10 V) := by
  rw [step_binary ops_writes V 163 rfl (by decide) (by decide) (by decide), ev_main_v127, ev_main_v131]; rfl
theorem ev_main_v133 : after ops V (Proc.devRef .tc main_v133) = val_main_v133 (F := F) (xa9 V) := by
  rw [step_unary ops_writes V 164 rfl (by decide) (by decide), ev_main_arg9]; rfl
theorem ev_main_v134 : after ops V (Proc.devRef .tc main_v134) = val_main_v134 (F := F) (xa9 V) := by
  rw [step_reshape ops_writes V 165 rfl (by decide) (by decide), ev_main_v133]; rfl
theorem ev_main_v135 : after ops V (Proc.devRef .tc main_v135) = val_main_v135 (F := F) (xa10 V) := by
  rw [step_unary ops_writes V 166 rfl (by decide) (by decide), ev_main_arg10]; rfl
theorem ev_main_v136 : after ops V (Proc.devRef .tc main_v136) = val_main_v136 (F := F) (xa10 V) := by
  rw [step_reshape ops_writes V 167 rfl (by decide) (by decide), ev_main_v135]; rfl
theorem ev_main_cst_23 : after ops V (Proc.devRef .tc main_cst_23) = val_main_cst_23 (F := F) := by
  rw [step_nullary ops_writes V 168 rfl (by decide)]; rfl
theorem ev_main_v137 : after ops V (Proc.devRef .tc main_v137) = val_main_v137 (F := F) (xa0 V) (xa1 V) (xa3 V) (xa4 V) (xa5 V) (xa6 V) (xa7 V) (xa8 V) (xa9 V) (xa10 V) := by
  rw [step_binary ops_writes V 169 rfl (by decide) (by decide) (by decide), ev_main_v132, ev_main_cst_23]; rfl
theorem ev_main_v138 : after ops V (Proc.devRef .tc main_v138) = val_main_v138 (F := F) (xa0 V) (xa1 V) (xa3 V) (xa4 V) (xa5 V) (xa6 V) (xa7 V) (xa8 V) (xa9 V) (xa10 V) := by
  rw [step_unary ops_writes V 170 rfl (by decide) (by decide), ev_main_v137]; rfl
theorem ev_main_cst_24 : after ops V (Proc.devRef .tc main_cst_24) = val_main_cst_24 (F := F) := by
  rw [step_nullary ops_writes V 171 rfl (by decide)]; rfl
theorem ev_main_v139 : after ops V (Proc.devRef .tc main_v139) = val_main_v139 (F := F) := by
  rw [step_unary ops_writes V 172 rfl (by decide) (by decide), ev_main_cst_24]; rfl
theorem ev_main_v140 : after ops V (Proc.devRef .tc main_v140) = val_main_v140 (F := F) (xa0 V) (xa1 V) (xa3 V) (xa4 V) (xa5 V) (xa6 V) (xa7 V) (xa8 V) (xa9 V) (xa10 V) := by
  rw [step_binary ops_writes V 173 rfl (by decide) (by decide) (by decide), ev_main_v138, ev_main_v139]; rfl
theorem ev_main_v141 : after ops V (Proc.devRef .tc main_v141) = val_main_v141 (F := F) (xa0 V) (xa1 V) (xa3 V) (xa4 V) (xa5 V) (xa6 V) (xa7 V) (xa8 V) (xa9 V) (xa10 V) := by
  rw [step_unary ops_writes V 174 rfl (by decide) (by decide), ev_main_v140]; rfl
theorem ev_main_v142 : after ops V (Proc.devRef .tc main_v142) = val_main_v142 (F := F) (xa0 V) (xa1 V) (xa3 V) (xa4 V) (xa5 V) (xa6 V) (xa7 V) (xa8 V) (xa9 V) (xa10 V) := by
  rw [step_binary ops_writes V 175 rfl (by decide) (by decide) (by decide), ev_main_v132, ev_main_v141]; rfl
theorem ev_main_v143 : after ops V (Proc.devRef .tc main_v143) = val_main_v143 (F := F) (xa0 V) (xa1 V) (xa3 V) (xa4 V) (xa5 V) (xa6 V) (xa7 V) (xa8 V) (xa9 V) (xa10 V) := by
  rw [step_binary ops_writes V 176 rfl (by decide) (by decide) (by decide), ev_main_v142]; rfl
theorem ev_main_cst_25 : after ops V (Proc.devRef .tc main_cst_25) = val_main_cst_25 (F := F) := by
  rw [step_nullary ops_writes V 177 rfl (by decide)]; rfl
theorem ev_main_v144 : after ops V (Proc.devRef .tc main_v144) = val_main_v144 (F := F) (xa0 V) (xa1 V) (xa3 V) (xa4 V) (xa5 V) (xa6 V) (xa7 V) (xa8 V) (xa9 V) (xa10 V) := by
  rw [step_binary ops_writes V 178 rfl (by decide) (by decide) (by decide), ev_main_v143, ev_main_cst_25]; rfl
theorem ev_main_v145 : after ops V (Proc.devRef .tc main_v145) = val_main_v145 (F := F) (xa0 V) (xa1 V) (xa3 V) (xa4 V) (xa5 V) (xa6 V) (xa7 V) (xa8 V) (xa9 V) (xa10 V) := by
  rw [step_unary ops_writes V 179 rfl (by decide) (by decide), ev_main_v144]; rfl
theorem ev_main_cst_26 : after ops V (Proc.devRef .tc main_cst_26) = val_main_cst_26 (F := F) := by
  rw [step_nullary ops_writes V 180 rfl (by decide)]; rfl
theorem ev_main_v146 : after ops V (Proc.devRef .tc main_v146) = val_main_v146 (F := F) := by
  rw [step_unary ops_writes V 181 rfl (by decide) (by decide), ev_main_cst_26]; rfl
theorem ev_main_v147 : after ops V (Proc.devRef .tc main_v147) = val_main_v147 (F := F) (xa0 V) (xa1 V) (xa3 V) (xa4 V) (xa5 V) (xa6 V) (xa7 V) (xa8 V) (xa9 V) (xa10 V) := by
  rw [step_binary ops_writes V 182 rfl (by decide) (by decide) (by decide), ev_main_v145, ev_main_v146]; rfl
theorem ev_main_v148 : after ops V (Proc.devRef .tc main_v148) = val_main_v148 (F := F) (xa0 V) (xa1 V) (xa3 V) (xa4 V) (xa5 V) (xa6 V) (xa7 V) (xa8 V) (xa9 V) (xa10 V) := by
  rw [step_unary ops_writes V 183 rfl (by decide) (by decide), ev_main_v140]; rfl
theorem ev_main_v149 : after ops V (Proc.devRef .tc main_v149) = val_main_v149 (F := F) (xa0 V) (xa1 V) (xa3 V) (xa4 V) (xa5 V) (xa6 V) (xa7 V) (xa8 V) (xa9 V) (xa10 V) := by
  rw [step_binary ops_writes V 184 rfl (by decide) (by decide) (by decide), ev_main_v132, ev_main_v148]; rfl
theorem ev_main_cst_27 : after ops V (Proc.devRef .tc main_cst_27) = val_main_cst_27 (F := F) := by
  rw [step_nullary ops_writes V 185 rfl (by decide)]; rfl
theorem ev_main_v150 : after ops V (Proc.devRef .tc main_v150) = val_main_v150 (F := F) := by
  rw [step_unary ops_writes V 186 rfl (by decide) (by decide), ev_main_cst_27]; rfl
theorem ev_main_v151 : after ops V (Proc.devRef .tc main_v151) = val_main_v151 (F := F) (xa0 V) (xa1 V) (xa3 V) (xa4 V) (xa5 V) (xa6 V) (xa7 V) (xa8 V) (xa9 V) (xa10 V) := by
  rw [step_binary ops_writes V 187 rfl (by decide) (by decide) (by decide), ev_main_v147, ev_main_v150]; rfl
theorem ev_main_v152 : after ops V (Proc.devRef .tc main_v152) = val_main_v152 (F := F) (xa0 V) (xa1 V) (xa3 V) (xa4 V) (xa5 V) (xa6 V) (xa7 V) (xa8 V) (xa9 V) (xa10 V) := by
  rw [step_unary ops_writes V 188 rfl (by decide) (by decide), ev_main_v151]; rfl
theorem ev_main_v153 : after ops V (Proc.devRef .tc main_v153) = val_main_v153 (F := F) (xa0 V) (xa1 V) (xa3 V) (xa4 V) (xa5 V) (xa6 V) (xa7 V) (xa8 V) (xa9 V) (xa10 V) := by
  rw [step_unary ops_writes V 189 rfl (by decide) (by decide), ev_main_v152]; rfl
theorem ev_main_v154 : after ops V (Proc.devRef .tc main_v154) = val_main_v154 (F := F) (xa0 V) (xa1 V) (xa3 V) (xa4 V) (xa5 V) (xa6 V) (xa7 V) (xa8 V) (xa9 V) (xa10 V) := by
  rw [step_binary ops_writes V 190 rfl (by decide) (by decide) (by decide), ev_main_v149, ev_main_v153]; rfl
theorem ev_main_v155 : after ops V (Proc.devRef .tc main_v155) = val_main_v155 (F := F) (xa9 V) := by
  rw [step_unary ops_writes V 191 rfl (by decide) (by decide), ev_main_v134]; rfl
theorem ev_main_v156 : after ops V (Proc.devRef .tc main_v156) = val_main_v156 (F := F) (xa9 V) := by
  rw [step_unary ops_writes V 192 rfl (by decide) (by decide), ev_main_v155]; rfl
theorem ev_main_v157 : after ops V (Proc.devRef .tc main_v157) = val_main_v157 (F := F) (xa0 V) (xa1 V) (xa3 V) (xa4 V) (xa5 V) (xa6 V) (xa7 V) (xa8 V) (xa9 V) (xa10 V) := by
  rw [step_binary ops_writes V 193 rfl (by decide) (by decide) (by decide), ev_main_v154, ev_main_v156]; rfl
theorem ev_main_v158 : after ops V (Proc.devRef .tc main_v158) = val_main_v158 (F := F) (xa10 V) := by
  rw [step_unary ops_writes V 194 rfl (by decide) (by decide), ev_main_v136]; rfl
theorem ev_main_v159 : after ops V (Proc.devRef .tc main_v159) = val_main_v159 (F := F) (xa10 V) := by
  rw [step_unary ops_writes V 195 rfl (by decide) (by decide), ev_main_v158]; rfl
theorem ev_main_v160 : after ops V (Proc.devRef .tc main_v160) = val_main_v160 (F := F) (xa0 V) (xa1 V) (xa3 V) (xa4 V) (xa5 V) (xa6 V) (xa7 V) (xa8 V) (xa9 V) (xa10 V) := by
  rw [step_binary ops_writes V 196 rfl (by decide) (by decide) (by decide), ev_main_v157, ev_main_v159]; rfl
theorem ev_main_call3_cst : after ops V (Proc.devRef .tc main_call3_cst) = val_main_call3_cst (F := F) := by
  rw [step_nullary ops_writes V 197 rfl (by decide)]; rfl
theorem ev_main_call3_v0 : after ops V (Proc.devRef .tc main_call3_v0) = val_main_call3_v0 (F := F) := by
  rw [step_unary ops_writes V 198 rfl (by decide) (by decide), ev_main_call3_cst]; rfl
theorem ev_main_v161 : after ops V (Proc.devRef .tc main_v161) = val_main_v161 (F := F) (xa0 V) (xa1 V) (xa3 V) (xa4 V) (xa5 V) (xa6 V) (xa7 V) (xa8 V) (xa9 V) (xa10 V) := by
  rw [step_binary ops_writes V 199 rfl (by decide) (by decide) (by decide), ev_main_v160, ev_main_call3_v0]; rfl
theorem ev_main_v162 : after ops V (Proc.devRef .tc main_v162) = val_main_v162 (F := F) (xa0 V) (xa1 V) (xa3 V) (xa4 V) (xa5 V) (xa6 V) (xa7 V) (xa8 V) (xa9 V) (xa10 V) := by
  rw [step_binary ops_writes V 200 rfl (by decide) (by decide) (by decide), ev_main_v161, ev_main_v111]; rfl

end Cert.ReferenceIdeal.RunP

end
-- ==== Proof.RefRunD.lean ====
/-
  The reference's run, fourth part: the third layer (operations 201 to 261 of 318), operation by operation as
  in the first layer.
-/
import proofs.«166986_j16578573762731_1_alg».proof.Proof.RefRunC

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP Cert.LibAfter

variable {F : FTy → Type} [FloatOps F]

variable (V : Valuation τ sig (Elt F))

theorem ev_main_v163 : after ops V (Proc.devRef .tc main_v163) = val_main_v163 (F := F) (xa7 V) := by
  rw [step_unary ops_writes V 201 rfl (by decide) (by decide), ev_main_arg7]; rfl
theorem ev_main_v164 : after ops V (Proc.devRef .tc main_v164) = val_main_v164 (F := F) (xa7 V) := by
  rw [step_reshape ops_writes V 202 rfl (by decide) (by decide), ev_main_v163]; rfl
theorem ev_main_v165 : after ops V (Proc.devRef .tc main_v165) = val_main_v165 (F := F) (xa0 V) (xa1 V) (xa3 V) (xa4 V) (xa5 V) (xa6 V) (xa7 V) (xa8 V) (xa9 V) (xa10 V) := by
  rw [step_binary ops_writes V 203 rfl (by decide) (by decide) (by decide), ev_main_v162, ev_main_v164]; rfl
theorem ev_main_c_28 : after ops V (Proc.devRef .tc main_c_28) = val_main_c_28 (F := F) := by
  rw [step_nullary ops_writes V 204 rfl (by decide)]; rfl
theorem ev_main_v166 : after ops V (Proc.devRef .tc main_v166) = val_main_v166 (F := F) := by
  rw [step_unary ops_writes V 205 rfl (by decide) (by decide), ev_main_c_28]; rfl
theorem ev_main_v167 : after ops V (Proc.devRef .tc main_v167) = val_main_v167 (F := F) (xa1 V) := by
  rw [step_binary ops_writes V 206 rfl (by decide) (by decide) (by decide), ev_main_v3, ev_main_v166]; rfl
theorem ev_main_c_29 : after ops V (Proc.devRef .tc main_c_29) = val_main_c_29 (F := F) := by
  rw [step_nullary ops_writes V 207 rfl (by decide)]; rfl
theorem ev_main_v168 : after ops V (Proc.devRef .tc main_v168) = val_main_v168 (F := F) := by
  rw [step_unary ops_writes V 208 rfl (by decide) (by decide), ev_main_c_29]; rfl
theorem ev_main_v169 : after ops V (Proc.devRef .tc main_v169) = val_main_v169 (F := F) (xa1 V) := by
  rw [step_binary ops_writes V 209 rfl (by decide) (by decide) (by decide), ev_main_v3, ev_main_v168]; rfl
theorem ev_main_v170 : after ops V (Proc.devRef .tc main_v170) = val_main_v170 (F := F) (xa1 V) := by
  rw [step_ternary ops_writes V 210 rfl (by decide) (by decide) (by decide) (by decide), ev_main_v167, ev_main_v169, ev_main_v3]; rfl
theorem ev_main_v171 : after ops V (Proc.devRef .tc main_v171) = val_main_v171 (F := F) (xa1 V) := by
  rw [step_unary ops_writes V 211 rfl (by decide) (by decide), ev_main_v170]; rfl
theorem ev_main_v172 : after ops V (Proc.devRef .tc main_v172) = val_main_v172 (F := F) (xa0 V) (xa1 V) (xa3 V) (xa4 V) (xa5 V) (xa6 V) (xa7 V) (xa8 V) (xa9 V) (xa10 V) := by
  rw [step_binary ops_writes V 212 rfl (by decide) (by decide) (by decide), ev_main_v165, ev_main_v171]; rfl
theorem ev_main_v173 : after ops V (Proc.devRef .tc main_v173) = val_main_v173 (F := F) (xa1 V) := by
  rw [step_unary ops_writes V 213 rfl (by decide) (by decide), ev_main_v31]; rfl
theorem ev_main_v174 : after ops V (Proc.devRef .tc main_v174) = val_main_v174 (F := F) (xa1 V) := by
  rw [step_unary ops_writes V 214 rfl (by decide) (by decide), ev_main_v173]; rfl
theorem ev_main_v175 : after ops V (Proc.devRef .tc main_v175) = val_main_v175 (F := F) (xa0 V) (xa1 V) (xa3 V) (xa4 V) (xa5 V) (xa6 V) (xa7 V) (xa8 V) (xa9 V) (xa10 V) := by
  rw [step_binary ops_writes V 215 rfl (by decide) (by decide) (by decide), ev_main_v172, ev_main_v174]; rfl
theorem ev_main_cst_30 : after ops V (Proc.devRef .tc main_cst_30) = val_main_cst_30 (F := F) := by
  rw [step_nullary ops_writes V 216 rfl (by decide)]; rfl
theorem ev_main_v176 : after ops V (Proc.devRef .tc main_v176) = val_main_v176 (F := F) := by
  rw [step_unary ops_writes V 217 rfl (by decide) (by decide), ev_main_cst_30]; rfl
theorem ev_main_v177 : after ops V (Proc.devRef .tc main_v177) = val_main_v177 (F := F) (xa1 V) := by
  rw [step_unary ops_writes V 218 rfl (by decide) (by decide), ev_main_v6]; rfl
theorem ev_main_v178 : after ops V (Proc.devRef .tc main_v178) = val_main_v178 (F := F) (xa0 V) (xa1 V) (xa3 V) (xa4 V) (xa5 V) (xa6 V) (xa7 V) (xa8 V) (xa9 V) (xa10 V) := by
  rw [step_ternary ops_writes V 219 rfl (by decide) (by decide) (by decide) (by decide), ev_main_v176, ev_main_v177, ev_main_v175]; rfl
theorem ev_main_v179 : after ops V (Proc.devRef .tc main_v179) = val_main_v179 (F := F) (xa8 V) := by
  rw [step_unary ops_writes V 220 rfl (by decide) (by decide), ev_main_arg8]; rfl
theorem ev_main_v180 : after ops V (Proc.devRef .tc main_v180) = val_main_v180 (F := F) (xa8 V) := by
  rw [step_reshape ops_writes V 221 rfl (by decide) (by decide), ev_main_v179]; rfl
theorem ev_main_v181 : after ops V (Proc.devRef .tc main_v181) = val_main_v181 (F := F) (xa8 V) := by
  rw [step_unary ops_writes V 222 rfl (by decide) (by decide), ev_main_v180]; rfl
theorem ev_main_v182 : after ops V (Proc.devRef .tc main_v182) = val_main_v182 (F := F) (xa8 V) := by
  rw [step_unary ops_writes V 223 rfl (by decide) (by decide), ev_main_v181]; rfl
theorem ev_main_v183 : after ops V (Proc.devRef .tc main_v183) = val_main_v183 (F := F) (xa0 V) (xa1 V) (xa3 V) (xa4 V) (xa5 V) (xa6 V) (xa7 V) (xa8 V) (xa9 V) (xa10 V) := by
  rw [step_binary ops_writes V 224 rfl (by decide) (by decide) (by decide), ev_main_v178, ev_main_v182]; rfl
theorem ev_main_v184 : after ops V (Proc.devRef .tc main_v184) = val_main_v184 (F := F) (xa9 V) := by
  rw [step_unary ops_writes V 225 rfl (by decide) (by decide), ev_main_arg9]; rfl
theorem ev_main_v185 : after ops V (Proc.devRef .tc main_v185) = val_main_v185 (F := F) (xa9 V) := by
  rw [step_reshape ops_writes V 226 rfl (by decide) (by decide), ev_main_v184]; rfl
theorem ev_main_v186 : after ops V (Proc.devRef .tc main_v186) = val_main_v186 (F := F) (xa10 V) := by
  rw [step_unary ops_writes V 227 rfl (by decide) (by decide), ev_main_arg10]; rfl
theorem ev_main_v187 : after ops V (Proc.devRef .tc main_v187) = val_main_v187 (F := F) (xa10 V) := by
  rw [step_reshape ops_writes V 228 rfl (by decide) (by decide), ev_main_v186]; rfl
theorem ev_main_cst_31 : after ops V (Proc.devRef .tc main_cst_31) = val_main_cst_31 (F := F) := by
  rw [step_nullary ops_writes V 229 rfl (by decide)]; rfl
theorem ev_main_v188 : after ops V (Proc.devRef .tc main_v188) = val_main_v188 (F := F) (xa0 V) (xa1 V) (xa3 V) (xa4 V) (xa5 V) (xa6 V) (xa7 V) (xa8 V) (xa9 V) (xa10 V) := by
  rw [step_binary ops_writes V 230 rfl (by decide) (by decide) (by decide), ev_main_v183, ev_main_cst_31]; rfl
theorem ev_main_v189 : after ops V (Proc.devRef .tc main_v189) = val_main_v189 (F := F) (xa0 V) (xa1 V) (xa3 V) (xa4 V) (xa5 V) (xa6 V) (xa7 V) (xa8 V) (xa9 V) (xa10 V) := by
  rw [step_unary ops_writes V 231 rfl (by decide) (by decide), ev_main_v188]; rfl
theorem ev_main_cst_32 : after ops V (Proc.devRef .tc main_cst_32) = val_main_cst_32 (F := F) := by
  rw [step_nullary ops_writes V 232 rfl (by decide)]; rfl
theorem ev_main_v190 : after ops V (Proc.devRef .tc main_v190) = val_main_v190 (F := F) := by
  rw [step_unary ops_writes V 233 rfl (by decide) (by decide), ev_main_cst_32]; rfl
theorem ev_main_v191 : after ops V (Proc.devRef .tc main_v191) = val_main_v191 (F := F) (xa0 V) (xa1 V) (xa3 V) (xa4 V) (xa5 V) (xa6 V) (xa7 V) (xa8 V) (xa9 V) (xa10 V) := by
  rw [step_binary ops_writes V 234 rfl (by decide) (by decide) (by decide), ev_main_v189, ev_main_v190]; rfl
theorem ev_main_v192 : after ops V (Proc.devRef .tc main_v192) = val_main_v192 (F := F) (xa0 V) (xa1 V) (xa3 V) (xa4 V) (xa5 V) (xa6 V) (xa7 V) (xa8 V) (xa9 V) (xa10 V) := by
  rw [step_unary ops_writes V 235 rfl (by decide) (by decide), ev_main_v191]; rfl
theorem ev_main_v193 : after ops V (Proc.devRef .tc main_v193) = val_main_v193 (F := F) (xa0 V) (xa1 V) (xa3 V) (xa4 V) (xa5 V) (xa6 V) (xa7 V) (xa8 V) (xa9 V) (xa10 V) := by
  rw [step_binary ops_writes V 236 rfl (by decide) (by decide) (by decide), ev_main_v183, ev_main_v192]; rfl
theorem ev_main_v194 : after ops V (Proc.devRef .tc main_v194) = val_main_v194 (F := F) (xa0 V) (xa1 V) (xa3 V) (xa4 V) (xa5 V) (xa6 V) (xa7 V) (xa8 V) (xa9 V) (xa10 V) := by
  rw [step_binary ops_writes V 237 rfl (by decide) (by decide) (by decide), ev_main_v193]; rfl
theorem ev_main_cst_33 : after ops V (Proc.devRef .tc main_cst_33) = val_main_cst_33 (F := F) := by
  rw [step_nullary ops_writes V 238 rfl (by decide)]; rfl
theorem ev_main_v195 : after ops V (Proc.devRef .tc main_v195) = val_main_v195 (F := F) (xa0 V) (xa1 V) (xa3 V) (xa4 V) (xa5 V) (xa6 V) (xa7 V) (xa8 V) (xa9 V) (xa10 V) := by
  rw [step_binary ops_writes V 239 rfl (by decide) (by decide) (by decide), ev_main_v194, ev_main_cst_33]; rfl
theorem ev_main_v196 : after ops V (Proc.devRef .tc main_v196) = val_main_v196 (F := F) (xa0 V) (xa1 V) (xa3 V) (xa4 V) (xa5 V) (xa6 V) (xa7 V) (xa8 V) (xa9 V) (xa10 V) := by
  rw [step_unary ops_writes V 240 rfl (by decide) (by decide), ev_main_v195]; rfl
theorem ev_main_cst_34 : after ops V (Proc.devRef .tc main_cst_34) = val_main_cst_34 (F := F) := by
  rw [step_nullary ops_writes V 241 rfl (by decide)]; rfl
theorem ev_main_v197 : after ops V (Proc.devRef .tc main_v197) = val_main_v197 (F := F) := by
  rw [step_unary ops_writes V 242 rfl (by decide) (by decide), ev_main_cst_34]; rfl
theorem ev_main_v198 : after ops V (Proc.devRef .tc main_v198) = val_main_v198 (F := F) (xa0 V) (xa1 V) (xa3 V) (xa4 V) (xa5 V) (xa6 V) (xa7 V) (xa8 V) (xa9 V) (xa10 V) := by
  rw [step_binary ops_writes V 243 rfl (by decide) (by decide) (by decide), ev_main_v196, ev_main_v197]; rfl
theorem ev_main_v199 : after ops V (Proc.devRef .tc main_v199) = val_main_v199 (F := F) (xa0 V) (xa1 V) (xa3 V) (xa4 V) (xa5 V) (xa6 V) (xa7 V) (xa8 V) (xa9 V) (xa10 V) := by
  rw [step_unary ops_writes V 244 rfl (by decide) (by decide), ev_main_v191]; rfl
theorem ev_main_v200 : after ops V (Proc.devRef .tc main_v200) = val_main_v200 (F := F) (xa0 V) (xa1 V) (xa3 V) (xa4 V) (xa5 V) (xa6 V) (xa7 V) (xa8 V) (xa9 V) (xa10 V) := by
  rw [step_binary ops_writes V 245 rfl (by decide) (by decide) (by decide), ev_main_v183, ev_main_v199]; rfl
theorem ev_main_cst_35 : after ops V (Proc.devRef .tc main_cst_35) = val_main_cst_35 (F := F) := by
  rw [step_nullary ops_writes V 246 rfl (by decide)]; rfl
theorem ev_main_v201 : after ops V (Proc.devRef .tc main_v201) = val_main_v201 (F := F) := by
  rw [step_unary ops_writes V 247 rfl (by decide) (by decide), ev_main_cst_35]; rfl
theorem ev_main_v202 : after ops V (Proc.devRef .tc main_v202) = val_main_v202 (F := F) (xa0 V) (xa1 V) (xa3 V) (xa4 V) (xa5 V) (xa6 V) (xa7 V) (xa8 V) (xa9 V) (xa10 V) := by
  rw [step_binary ops_writes V 248 rfl (by decide) (by decide) (by decide), ev_main_v198, ev_main_v201]; rfl
theorem ev_main_v203 : after ops V (Proc.devRef .tc main_v203) = val_main_v203 (F := F) (xa0 V) (xa1 V) (xa3 V) (xa4 V) (xa5 V) (xa6 V) (xa7 V) (xa8 V) (xa9 V) (xa10 V) := by
  rw [step_unary ops_writes V 249 rfl (by decide) (by decide), ev_main_v202]; rfl
theorem ev_main_v204 : after ops V (Proc.devRef .tc main_v204) = val_main_v204 (F := F) (xa0 V) (xa1 V) (xa3 V) (xa4 V) (xa5 V) (xa6 V) (xa7 V) (xa8 V) (xa9 V) (xa10 V) := by
  rw [step_unary ops_writes V 250 rfl (by decide) (by decide), ev_main_v203]; rfl
theorem ev_main_v205 : after ops V (Proc.devRef .tc main_v205) = val_main_v205 (F := F) (xa0 V) (xa1 V) (xa3 V) (xa4 V) (xa5 V) (xa6 V) (xa7 V) (xa8 V) (xa9 V) (xa10 V) := by
  rw [step_binary ops_writes V 251 rfl (by decide) (by decide) (by decide), ev_main_v200, ev_main_v204]; rfl
theorem ev_main_v206 : after ops V (Proc.devRef .tc main_v206) = val_main_v206 (F := F) (xa9 V) := by
  rw [step_unary ops_writes V 252 rfl (by decide) (by decide), ev_main_v185]; rfl
theorem ev_main_v207 : after ops V (Proc.devRef .tc main_v207) = val_main_v207 (F := F) (xa9 V) := by
  rw [step_unary ops_writes V 253 rfl (by decide) (by decide), ev_main_v206]; rfl
theorem ev_main_v208 : after ops V (Proc.devRef .tc main_v208) = val_main_v208 (F := F) (xa0 V) (xa1 V) (xa3 V) (xa4 V) (xa5 V) (xa6 V) (xa7 V) (xa8 V) (xa9 V) (xa10 V) := by
  rw [step_binary ops_writes V 254 rfl (by decide) (by decide) (by decide), ev_main_v205, ev_main_v207]; rfl
theorem ev_main_v209 : after ops V (Proc.devRef .tc main_v209) = val_main_v209 (F := F) (xa10 V) := by
  rw [step_unary ops_writes V 255 rfl (by decide) (by decide), ev_main_v187]; rfl
theorem ev_main_v210 : after ops V (Proc.devRef .tc main_v210) = val_main_v210 (F := F) (xa10 V) := by
  rw [step_unary ops_writes V 256 rfl (by decide) (by decide), ev_main_v209]; rfl
theorem ev_main_v211 : after ops V (Proc.devRef .tc main_v211) = val_main_v211 (F := F) (xa0 V) (xa1 V) (xa3 V) (xa4 V) (xa5 V) (xa6 V) (xa7 V) (xa8 V) (xa9 V) (xa10 V) := by
  rw [step_binary ops_writes V 257 rfl (by decide) (by decide) (by decide), ev_main_v208, ev_main_v210]; rfl
theorem ev_main_call4_cst : after ops V (Proc.devRef .tc main_call4_cst) = val_main_call4_cst (F := F) := by
  rw [step_nullary ops_writes V 258 rfl (by decide)]; rfl
theorem ev_main_call4_v0 : after ops V (Proc.devRef .tc main_call4_v0) = val_main_call4_v0 (F := F) := by
  rw [step_unary ops_writes V 259 rfl (by decide) (by decide), ev_main_call4_cst]; rfl
theorem ev_main_v212 : after ops V (Proc.devRef .tc main_v212) = val_main_v212 (F := F) (xa0 V) (xa1 V) (xa3 V) (xa4 V) (xa5 V) (xa6 V) (xa7 V) (xa8 V) (xa9 V) (xa10 V) := by
  rw [step_binary ops_writes V 260 rfl (by decide) (by decide) (by decide), ev_main_v211, ev_main_call4_v0]; rfl
theorem ev_main_v213 : after ops V (Proc.devRef .tc main_v213) = val_main_v213 (F := F) (xa0 V) (xa1 V) (xa3 V) (xa4 V) (xa5 V) (xa6 V) (xa7 V) (xa8 V) (xa9 V) (xa10 V) := by
  rw [step_binary ops_writes V 261 rfl (by decide) (by decide) (by decide), ev_main_v212, ev_main_v162]; rfl

end Cert.ReferenceIdeal.RunP

end
-- ==== Proof.RefRunE.lean ====
/-
  The reference's run, fifth part: the tail (operations 262 to 317 of 318) — the per-graph pooling of the node
  features, the pooled rows' normalisation, and the two small dense maps that give the result.  One fact per
  operation, as in the earlier parts.
-/
import proofs.«166986_j16578573762731_1_alg».proof.Proof.RefRunD

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP Cert.LibAfter

variable {F : FTy → Type} [FloatOps F]

variable (V : Valuation τ sig (Elt F))

theorem ev_main_cst_36 : after ops V (Proc.devRef .tc main_cst_36) = val_main_cst_36 (F := F) := by
  rw [step_nullary ops_writes V 262 rfl (by decide)]; rfl
theorem ev_main_v214 : after ops V (Proc.devRef .tc main_v214) = val_main_v214 (F := F) := by
  rw [step_unary ops_writes V 263 rfl (by decide) (by decide), ev_main_cst_36]; rfl
theorem ev_main_v215 : after ops V (Proc.devRef .tc main_v215) = val_main_v215 (F := F) (xa2 V) := by
  rw [step_unary ops_writes V 264 rfl (by decide) (by decide), ev_main_arg2]; rfl
theorem ev_main_v216 : after ops V (Proc.devRef .tc main_v216) = val_main_v216 (F := F) (xa0 V) (xa1 V) (xa2 V) (xa3 V) (xa4 V) (xa5 V) (xa6 V) (xa7 V) (xa8 V) (xa9 V) (xa10 V) := by
  rw [step_ternary ops_writes V 265 rfl (by decide) (by decide) (by decide) (by decide), ev_main_v214, ev_main_v215, ev_main_v213]; rfl
theorem ev_main_cst_37 : after ops V (Proc.devRef .tc main_cst_37) = val_main_cst_37 (F := F) := by
  rw [step_nullary ops_writes V 266 rfl (by decide)]; rfl
theorem ev_main_v217 : after ops V (Proc.devRef .tc main_v217) = val_main_v217 (F := F) := by
  rw [step_unary ops_writes V 267 rfl (by decide) (by decide), ev_main_cst_37]; rfl
theorem ev_main_cst_38 : after ops V (Proc.devRef .tc main_cst_38) = val_main_cst_38 (F := F) := by
  rw [step_nullary ops_writes V 268 rfl (by decide)]; rfl
theorem ev_main_v218 : after ops V (Proc.devRef .tc main_v218) = val_main_v218 (F := F) := by
  rw [step_unary ops_writes V 269 rfl (by decide) (by decide), ev_main_cst_38]; rfl
theorem ev_main_v219 : after ops V (Proc.devRef .tc main_v219) = val_main_v219 (F := F) (xa2 V) := by
  rw [step_unary ops_writes V 270 rfl (by decide) (by decide), ev_main_arg2]; rfl
theorem ev_main_v220 : after ops V (Proc.devRef .tc main_v220) = val_main_v220 (F := F) (xa2 V) := by
  rw [step_ternary ops_writes V 271 rfl (by decide) (by decide) (by decide) (by decide), ev_main_v218, ev_main_v219, ev_main_v217]; rfl
theorem ev_main_cst_39 : after ops V (Proc.devRef .tc main_cst_39) = val_main_cst_39 (F := F) := by
  rw [step_nullary ops_writes V 272 rfl (by decide)]; rfl
theorem ev_main_v221 : after ops V (Proc.devRef .tc main_v221) = val_main_v221 (F := F) := by
  rw [step_unary ops_writes V 273 rfl (by decide) (by decide), ev_main_cst_39]; rfl
theorem ev_main_v222 : after ops V (Proc.devRef .tc main_v222) = val_main_v222 (F := F) (xa2 V) := by
  rw [step_binary ops_writes V 274 rfl (by decide) (by decide) (by decide), ev_main_v220, ev_main_v221]; rfl
theorem ev_main_v223 : after ops V (Proc.devRef .tc main_v223) = val_main_v223 (F := F) (xa2 V) := by
  rw [step_unary ops_writes V 275 rfl (by decide) (by decide), ev_main_v222]; rfl
theorem ev_main_v224 : after ops V (Proc.devRef .tc main_v224) = val_main_v224 (F := F) (xa2 V) := by
  rw [step_unary ops_writes V 276 rfl (by decide) (by decide), ev_main_v223]; rfl
theorem ev_main_v225 : after ops V (Proc.devRef .tc main_v225) = val_main_v225 (F := F) (xa0 V) (xa1 V) (xa2 V) (xa3 V) (xa4 V) (xa5 V) (xa6 V) (xa7 V) (xa8 V) (xa9 V) (xa10 V) := by
  rw [step_binary ops_writes V 277 rfl (by decide) (by decide) (by decide), ev_main_v216, ev_main_v224]; rfl
theorem ev_main_v226 : after ops V (Proc.devRef .tc main_v226) = val_main_v226 (F := F) (xa0 V) (xa1 V) (xa2 V) (xa3 V) (xa4 V) (xa5 V) (xa6 V) (xa7 V) (xa8 V) (xa9 V) (xa10 V) (xa11 V) := by
  rw [step_binary ops_writes V 278 rfl (by decide) (by decide) (by decide), ev_main_v225, ev_main_arg11]; rfl
theorem ev_main_v227 : after ops V (Proc.devRef .tc main_v227) = val_main_v227 (F := F) (xa12 V) := by
  rw [step_unary ops_writes V 279 rfl (by decide) (by decide), ev_main_arg12]; rfl
theorem ev_main_v228 : after ops V (Proc.devRef .tc main_v228) = val_main_v228 (F := F) (xa12 V) := by
  rw [step_unary ops_writes V 280 rfl (by decide) (by decide), ev_main_v227]; rfl
theorem ev_main_v229 : after ops V (Proc.devRef .tc main_v229) = val_main_v229 (F := F) (xa0 V) (xa1 V) (xa2 V) (xa3 V) (xa4 V) (xa5 V) (xa6 V) (xa7 V) (xa8 V) (xa9 V) (xa10 V) (xa11 V) (xa12 V) := by
  rw [step_binary ops_writes V 281 rfl (by decide) (by decide) (by decide), ev_main_v226, ev_main_v228]; rfl
theorem ev_main_call5_cst : after ops V (Proc.devRef .tc main_call5_cst) = val_main_call5_cst (F := F) := by
  rw [step_nullary ops_writes V 282 rfl (by decide)]; rfl
theorem ev_main_call5_v0 : after ops V (Proc.devRef .tc main_call5_v0) = val_main_call5_v0 (F := F) := by
  rw [step_unary ops_writes V 283 rfl (by decide) (by decide), ev_main_call5_cst]; rfl
theorem ev_main_v230 : after ops V (Proc.devRef .tc main_v230) = val_main_v230 (F := F) (xa0 V) (xa1 V) (xa2 V) (xa3 V) (xa4 V) (xa5 V) (xa6 V) (xa7 V) (xa8 V) (xa9 V) (xa10 V) (xa11 V) (xa12 V) := by
  rw [step_binary ops_writes V 284 rfl (by decide) (by decide) (by decide), ev_main_v229, ev_main_call5_v0]; rfl
theorem ev_main_cst_40 : after ops V (Proc.devRef .tc main_cst_40) = val_main_cst_40 (F := F) := by
  rw [step_nullary ops_writes V 285 rfl (by decide)]; rfl
theorem ev_main_v231 : after ops V (Proc.devRef .tc main_v231) = val_main_v231 (F := F) (xa0 V) (xa1 V) (xa2 V) (xa3 V) (xa4 V) (xa5 V) (xa6 V) (xa7 V) (xa8 V) (xa9 V) (xa10 V) (xa11 V) (xa12 V) := by
  rw [step_binary ops_writes V 286 rfl (by decide) (by decide) (by decide), ev_main_v230, ev_main_cst_40]; rfl
theorem ev_main_v232 : after ops V (Proc.devRef .tc main_v232) = val_main_v232 (F := F) (xa0 V) (xa1 V) (xa2 V) (xa3 V) (xa4 V) (xa5 V) (xa6 V) (xa7 V) (xa8 V) (xa9 V) (xa10 V) (xa11 V) (xa12 V) := by
  rw [step_unary ops_writes V 287 rfl (by decide) (by decide), ev_main_v231]; rfl
theorem ev_main_cst_41 : after ops V (Proc.devRef .tc main_cst_41) = val_main_cst_41 (F := F) := by
  rw [step_nullary ops_writes V 288 rfl (by decide)]; rfl
theorem ev_main_v233 : after ops V (Proc.devRef .tc main_v233) = val_main_v233 (F := F) := by
  rw [step_unary ops_writes V 289 rfl (by decide) (by decide), ev_main_cst_41]; rfl
theorem ev_main_v234 : after ops V (Proc.devRef .tc main_v234) = val_main_v234 (F := F) (xa0 V) (xa1 V) (xa2 V) (xa3 V) (xa4 V) (xa5 V) (xa6 V) (xa7 V) (xa8 V) (xa9 V) (xa10 V) (xa11 V) (xa12 V) := by
  rw [step_binary ops_writes V 290 rfl (by decide) (by decide) (by decide), ev_main_v232, ev_main_v233]; rfl
theorem ev_main_v235 : after ops V (Proc.devRef .tc main_v235) = val_main_v235 (F := F) (xa0 V) (xa1 V) (xa2 V) (xa3 V) (xa4 V) (xa5 V) (xa6 V) (xa7 V) (xa8 V) (xa9 V) (xa10 V) (xa11 V) (xa12 V) := by
  rw [step_unary ops_writes V 291 rfl (by decide) (by decide), ev_main_v234]; rfl
theorem ev_main_v236 : after ops V (Proc.devRef .tc main_v236) = val_main_v236 (F := F) (xa0 V) (xa1 V) (xa2 V) (xa3 V) (xa4 V) (xa5 V) (xa6 V) (xa7 V) (xa8 V) (xa9 V) (xa10 V) (xa11 V) (xa12 V) := by
  rw [step_binary ops_writes V 292 rfl (by decide) (by decide) (by decide), ev_main_v230, ev_main_v235]; rfl
theorem ev_main_v237 : after ops V (Proc.devRef .tc main_v237) = val_main_v237 (F := F) (xa0 V) (xa1 V) (xa2 V) (xa3 V) (xa4 V) (xa5 V) (xa6 V) (xa7 V) (xa8 V) (xa9 V) (xa10 V) (xa11 V) (xa12 V) := by
  rw [step_binary ops_writes V 293 rfl (by decide) (by decide) (by decide), ev_main_v236]; rfl
theorem ev_main_cst_42 : after ops V (Proc.devRef .tc main_cst_42) = val_main_cst_42 (F := F) := by
  rw [step_nullary ops_writes V 294 rfl (by decide)]; rfl
theorem ev_main_v238 : after ops V (Proc.devRef .tc main_v238) = val_main_v238 (F := F) (xa0 V) (xa1 V) (xa2 V) (xa3 V) (xa4 V) (xa5 V) (xa6 V) (xa7 V) (xa8 V) (xa9 V) (xa10 V) (xa11 V) (xa12 V) := by
  rw [step_binary ops_writes V 295 rfl (by decide) (by decide) (by decide), ev_main_v237, ev_main_cst_42]; rfl
theorem ev_main_v239 : after ops V (Proc.devRef .tc main_v239) = val_main_v239 (F := F) (xa0 V) (xa1 V) (xa2 V) (xa3 V) (xa4 V) (xa5 V) (xa6 V) (xa7 V) (xa8 V) (xa9 V) (xa10 V) (xa11 V) (xa12 V) := by
  rw [step_unary ops_writes V 296 rfl (by decide) (by decide), ev_main_v238]; rfl
theorem ev_main_cst_43 : after ops V (Proc.devRef .tc main_cst_43) = val_main_cst_43 (F := F) := by
  rw [step_nullary ops_writes V 297 rfl (by decide)]; rfl
theorem ev_main_v240 : after ops V (Proc.devRef .tc main_v240) = val_main_v240 (F := F) := by
  rw [step_unary ops_writes V 298 rfl (by decide) (by decide), ev_main_cst_43]; rfl
theorem ev_main_v241 : after ops V (Proc.devRef .tc main_v241) = val_main_v241 (F := F) (xa0 V) (xa1 V) (xa2 V) (xa3 V) (xa4 V) (xa5 V) (xa6 V) (xa7 V) (xa8 V) (xa9 V) (xa10 V) (xa11 V) (xa12 V) := by
  rw [step_binary ops_writes V 299 rfl (by decide) (by decide) (by decide), ev_main_v239, ev_main_v240]; rfl
theorem ev_main_v242 : after ops V (Proc.devRef .tc main_v242) = val_main_v242 (F := F) (xa0 V) (xa1 V) (xa2 V) (xa3 V) (xa4 V) (xa5 V) (xa6 V) (xa7 V) (xa8 V) (xa9 V) (xa10 V) (xa11 V) (xa12 V) := by
  rw [step_unary ops_writes V 300 rfl (by decide) (by decide), ev_main_v234]; rfl
theorem ev_main_v243 : after ops V (Proc.devRef .tc main_v243) = val_main_v243 (F := F) (xa0 V) (xa1 V) (xa2 V) (xa3 V) (xa4 V) (xa5 V) (xa6 V) (xa7 V) (xa8 V) (xa9 V) (xa10 V) (xa11 V) (xa12 V) := by
  rw [step_binary ops_writes V 301 rfl (by decide) (by decide) (by decide), ev_main_v230, ev_main_v242]; rfl
theorem ev_main_cst_44 : after ops V (Proc.devRef .tc main_cst_44) = val_main_cst_44 (F := F) := by
  rw [step_nullary ops_writes V 302 rfl (by decide)]; rfl
theorem ev_main_v244 : after ops V (Proc.devRef .tc main_v244) = val_main_v244 (F := F) := by
  rw [step_unary ops_writes V 303 rfl (by decide) (by decide), ev_main_cst_44]; rfl
theorem ev_main_v245 : after ops V (Proc.devRef .tc main_v245) = val_main_v245 (F := F) (xa0 V) (xa1 V) (xa2 V) (xa3 V) (xa4 V) (xa5 V) (xa6 V) (xa7 V) (xa8 V) (xa9 V) (xa10 V) (xa11 V) (xa12 V) := by
  rw [step_binary ops_writes V 304 rfl (by decide) (by decide) (by decide), ev_main_v241, ev_main_v244]; rfl
theorem ev_main_v246 : after ops V (Proc.devRef .tc main_v246) = val_main_v246 (F := F) (xa0 V) (xa1 V) (xa2 V) (xa3 V) (xa4 V) (xa5 V) (xa6 V) (xa7 V) (xa8 V) (xa9 V) (xa10 V) (xa11 V) (xa12 V) := by
  rw [step_unary ops_writes V 305 rfl (by decide) (by decide), ev_main_v245]; rfl
theorem ev_main_v247 : after ops V (Proc.devRef .tc main_v247) = val_main_v247 (F := F) (xa0 V) (xa1 V) (xa2 V) (xa3 V) (xa4 V) (xa5 V) (xa6 V) (xa7 V) (xa8 V) (xa9 V) (xa10 V) (xa11 V) (xa12 V) := by
  rw [step_unary ops_writes V 306 rfl (by decide) (by decide), ev_main_v246]; rfl
theorem ev_main_v248 : after ops V (Proc.devRef .tc main_v248) = val_main_v248 (F := F) (xa0 V) (xa1 V) (xa2 V) (xa3 V) (xa4 V) (xa5 V) (xa6 V) (xa7 V) (xa8 V) (xa9 V) (xa10 V) (xa11 V) (xa12 V) := by
  rw [step_binary ops_writes V 307 rfl (by decide) (by decide) (by decide), ev_main_v243, ev_main_v247]; rfl
theorem ev_main_v249 : after ops V (Proc.devRef .tc main_v249) = val_main_v249 (F := F) (xa13 V) := by
  rw [step_unary ops_writes V 308 rfl (by decide) (by decide), ev_main_arg13]; rfl
theorem ev_main_v250 : after ops V (Proc.devRef .tc main_v250) = val_main_v250 (F := F) (xa13 V) := by
  rw [step_unary ops_writes V 309 rfl (by decide) (by decide), ev_main_v249]; rfl
theorem ev_main_v251 : after ops V (Proc.devRef .tc main_v251) = val_main_v251 (F := F) (xa0 V) (xa1 V) (xa2 V) (xa3 V) (xa4 V) (xa5 V) (xa6 V) (xa7 V) (xa8 V) (xa9 V) (xa10 V) (xa11 V) (xa12 V) (xa13 V) := by
  rw [step_binary ops_writes V 310 rfl (by decide) (by decide) (by decide), ev_main_v248, ev_main_v250]; rfl
theorem ev_main_v252 : after ops V (Proc.devRef .tc main_v252) = val_main_v252 (F := F) (xa14 V) := by
  rw [step_unary ops_writes V 311 rfl (by decide) (by decide), ev_main_arg14]; rfl
theorem ev_main_v253 : after ops V (Proc.devRef .tc main_v253) = val_main_v253 (F := F) (xa14 V) := by
  rw [step_unary ops_writes V 312 rfl (by decide) (by decide), ev_main_v252]; rfl
theorem ev_main_v254 : after ops V (Proc.devRef .tc main_v254) = val_main_v254 (F := F) (xa0 V) (xa1 V) (xa2 V) (xa3 V) (xa4 V) (xa5 V) (xa6 V) (xa7 V) (xa8 V) (xa9 V) (xa10 V) (xa11 V) (xa12 V) (xa13 V) (xa14 V) := by
  rw [step_binary ops_writes V 313 rfl (by decide) (by decide) (by decide), ev_main_v251, ev_main_v253]; rfl
theorem ev_main_v255 : after ops V (Proc.devRef .tc main_v255) = val_main_v255 (F := F) (xa0 V) (xa1 V) (xa2 V) (xa3 V) (xa4 V) (xa5 V) (xa6 V) (xa7 V) (xa8 V) (xa9 V) (xa10 V) (xa11 V) (xa12 V) (xa13 V) (xa14 V) (xa15 V) := by
  rw [step_binary ops_writes V 314 rfl (by decide) (by decide) (by decide), ev_main_v254, ev_main_arg15]; rfl
theorem ev_main_v256 : after ops V (Proc.devRef .tc main_v256) = val_main_v256 (F := F) (xa16 V) := by
  rw [step_unary ops_writes V 315 rfl (by decide) (by decide), ev_main_arg16]; rfl
theorem ev_main_v257 : after ops V (Proc.devRef .tc main_v257) = val_main_v257 (F := F) (xa16 V) := by
  rw [step_unary ops_writes V 316 rfl (by decide) (by decide), ev_main_v256]; rfl
theorem ev_main_v258 : after ops V (Proc.devRef .tc main_v258) = val_main_v258 (F := F) (xa0 V) (xa1 V) (xa2 V) (xa3 V) (xa4 V) (xa5 V) (xa6 V) (xa7 V) (xa8 V) (xa9 V) (xa10 V) (xa11 V) (xa12 V) (xa13 V) (xa14 V) (xa15 V) (xa16 V) := by
  rw [step_binary ops_writes V 317 rfl (by decide) (by decide) (by decide), ev_main_v255, ev_main_v257]; rfl

end Cert.ReferenceIdeal.RunP

end
-- ==== Proof.RefRun.lean ====
/-
  The reference's run: from any memory with zero counters every weakly fair execution of the reference terminates,
  its result buffer ends at the last stage `val_main_v258` of the arguments' launch contents, and every argument
  ends as it began.  The library's run theorem gives each buffer's final contents as the fold of the 318 operations
  over the launch contents; the five parts before this one read that fold at every buffer, one operation at a time.
-/
import proofs.«166986_j16578573762731_1_alg».proof.Proof.RefRunE

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP Cert.LibAfter

variable {F : FTy → Type} [FloatOps F]

/-- The reference terminates with its result at the stage `val_main_v258` of the arguments, the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v258)
          = val_main_v258 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16) :=
  (θ_run defs _ _).mono (fun _ h c => ⟨(h c main_v258).trans (ev_main_v258 (launchContents m c)),
      (h c main_arg0).trans (ev_main_arg0 (launchContents m c)),
      (h c main_arg1).trans (ev_main_arg1 (launchContents m c)),
      (h c main_arg2).trans (ev_main_arg2 (launchContents m c)),
      (h c main_arg3).trans (ev_main_arg3 (launchContents m c)),
      (h c main_arg4).trans (ev_main_arg4 (launchContents m c)),
      (h c main_arg5).trans (ev_main_arg5 (launchContents m c)),
      (h c main_arg6).trans (ev_main_arg6 (launchContents m c)),
      (h c main_arg7).trans (ev_main_arg7 (launchContents m c)),
      (h c main_arg8).trans (ev_main_arg8 (launchContents m c)),
      (h c main_arg9).trans (ev_main_arg9 (launchContents m c)),
      (h c main_arg10).trans (ev_main_arg10 (launchContents m c)),
      (h c main_arg11).trans (ev_main_arg11 (launchContents m c)),
      (h c main_arg12).trans (ev_main_arg12 (launchContents m c)),
      (h c main_arg13).trans (ev_main_arg13 (launchContents m c)),
      (h c main_arg14).trans (ev_main_arg14 (launchContents m c)),
      (h c main_arg15).trans (ev_main_arg15 (launchContents m c)),
      (h c main_arg16).trans (ev_main_arg16 (launchContents m c))⟩)
    (run_seq scopedRefs_eq scopedSems_eq defs main (fun _ => ops) main_eq (fun _ => ops_sub) m ρ)

end Cert.ReferenceIdeal.RunP

end
-- ==== Proof.lean ====
/-
  The proof of `Cert.Claim`: a graph encoder (an input projection, three graph-convolution layers with per-node
  normalisation and a residual, a per-graph mean pool and two output layers) as tiled dense kernels among host
  operations, against its plain reference, over the extended reals.

  * The three frames.  The two kernel programs' frames are their frame certificates.  The reference is a straight
    line of host operations; each buffer is written once, so after the run each holds its operation applied to its
    operands' final contents, and the arguments are never written.
  * `preserves`: the idealization rewrote no operation, so there is nothing to state.
  * `algebraic`.  Both programs end at ONE function of the arguments: the reference's last stage.  On the
    reference's side that is its run.  On the kernel's side the buffer contents are followed through the twenty
    boundaries of its run: every host stretch is the reference's own operations applied to buffers already
    identified with reference stages, and every dense region computes, row by row, what the corresponding
    reference stage computes on that row (a tile of 2000 rows is 2000 rows of one whole-array function, and the
    25 tiles cover the 50000 rows).  At the extended reals the only differences between the two sides are the
    order the work is tiled in, the zero words sums start from, and format changes, which are the identity; no
    law that needs finiteness is used, so the precondition is never opened.
-/
import proofs.«166986_j16578573762731_1_alg».proof.Defs
import proofs.«166986_j16578573762731_1_alg».proof.Proof.Gen.Kernel
import proofs.«166986_j16578573762731_1_alg».proof.Proof.Gen.Kernel.Skeleton
import proofs.«166986_j16578573762731_1_alg».proof.Proof.Gen.Kernel.Launch
import proofs.«166986_j16578573762731_1_alg».proof.Proof.Gen.Kernel.Points
import proofs.«166986_j16578573762731_1_alg».proof.Proof.Gen.Kernel.Frame
import proofs.«166986_j16578573762731_1_alg».proof.Proof.Gen.KernelIdeal
import proofs.«166986_j16578573762731_1_alg».proof.Proof.Gen.KernelIdeal.Skeleton
import proofs.«166986_j16578573762731_1_alg».proof.Proof.Gen.KernelIdeal.Launch
import proofs.«166986_j16578573762731_1_alg».proof.Proof.Gen.KernelIdeal.Points
import proofs.«166986_j16578573762731_1_alg».proof.Proof.Gen.KernelIdeal.Frame
import proofs.«166986_j16578573762731_1_alg».proof.Proof.Gen.ReferenceIdeal
import proofs.«166986_j16578573762731_1_alg».proof.Proof.Gen.Pre_finite_inputs
import proofs.«166986_j16578573762731_1_alg».proof.Proof.KernelRun
import proofs.«166986_j16578573762731_1_alg».proof.Proof.GlueTail
import proofs.«166986_j16578573762731_1_alg».proof.Proof.RefRun
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel := fun m ρ _ => Cert.Kernel.Gen.frame m ρ
theorem frame_ki [Cert.KernelIdeal.Facts] [Cert.Pre_finite_inputs.Facts] : Cert.frame_KernelIdeal := fun m ρ _ => Cert.KernelIdeal.Gen.frame m ρ
/-- The reference's frame is its run with the result forgotten. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.RunP.run (F := Ideal) m ρ)

/-- Both programs end at the reference's result stage of the arguments, and the arguments agree. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.ReferenceIdeal.ReadP.val_main_v258 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono (fun r h c => ⟨(h c).1.trans (Cert.KernelIdeal.GlueTail.t19 m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.RunP.run (F := Ideal) m' ρ')
    obtain ⟨e0, e1, e2, e3, e4, e5, e6, e7, e8, e9, e10, e11, e12, e13, e14, e15, e16⟩ := hagree c
    rw [e0, e1, e2, e3, e4, e5, e6, e7, e8, e9, e10, e11, e12, e13, e14, e15, e16]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
